-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x512 .f32) (main_arg1 : IVec S8192x8192 32) (main_arg2 : FVec F S8192x8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x512 : Shape := ⟨2, ![8192, 512]⟩
abbrev S8192x8192 : Shape := ⟨2, ![8192, 8192]⟩
abbrev S32x128 : Shape := ⟨2, ![32, 128]⟩
abbrev S2048x512 : Shape := ⟨2, ![2048, 512]⟩
abbrev S256x512 : Shape := ⟨2, ![256, 512]⟩
abbrev S2048x256 : Shape := ⟨2, ![2048, 256]⟩
abbrev S8x128 : Shape := ⟨2, ![8, 128]⟩
abbrev S2048x1 : Shape := ⟨2, ![2048, 1]⟩
abbrev S2048 : Shape := ⟨1, ![2048]⟩
abbrev S256 : Shape := ⟨1, ![256]⟩
abbrev S256x1 : Shape := ⟨2, ![256, 1]⟩
abbrev S1x256 : Shape := ⟨2, ![1, 256]⟩
abbrev S512x256 : Shape := ⟨2, ![512, 256]⟩
abbrev S1 : Shape := ⟨1, ![1]⟩
abbrev S1x1 : Shape := ⟨2, ![1, 1]⟩
abbrev S_ : Shape := ⟨0, ![]⟩

abbrev nBuf : Space → Nat
  | .hbm => 12
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x8192, .f32⟩
  | .hbm, ⟨3, _⟩ => ⟨S32x128, .f32⟩
  | .hbm, ⟨4, _⟩ => ⟨S32x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S256x512, .f32⟩
  | .local _ .vmem, ⟨4, _⟩ => ⟨S2048x256, .i32⟩
  | .local _ .vmem, ⟨5, _⟩ => ⟨S2048x256, .i32⟩
  | .local _ .vmem, ⟨6, _⟩ => ⟨S2048x256, .f32⟩
  | .local _ .vmem, ⟨7, _⟩ => ⟨S2048x256, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S2048x512, .bf16⟩
  | .local _ .vmem, ⟨13, _⟩ => ⟨S2048x1, .f32⟩
  | .local _ .vmem, ⟨14, _⟩ => ⟨S8x128, .f32⟩
  | .local _ .vmem, ⟨15, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v61 : BitVec 1 := Scalar.cmpi .eq arg1 c31_i32
  let v62 : BitVec 32 := Scalar.extui v61
  let c0_i32_28 : BitVec 32 := 0#32
  let v63 : BitVec 1 := Scalar.cmpi .ne v62 c0_i32_28
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  bitsLt_bf16_f32 : FTy.bits .bf16 < FTy.bits .f32
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  transposes_S256x1_p1_0_S1x256 : S256x1.Transposes [1, 0] S1x256
  transposes_S256x512_p1_0_S512x256 : S256x512.Transposes [1, 0] S512x256
  broadcasts_S2048x1_S2048x256 : S2048x1.Broadcasts S2048x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  natLt_1_32 : 1 < 32
  reduces_S2048x256_S2048 : S2048x256.Reduces [1] S2048
  reduces_S2048x1_S1 : S2048x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S32x128_S_d0_1 : S32x128.ReducesTo [0, 1] S_
  h_S_ : 0 < S_.numel
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x8192.size a
  hwx0_2 : ∀ i : grid0.Coords, EltTy.bits .i32 = 32 ∨ (Rect.block (s := S8192x8192) S2048x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x8192.size a
  hwx0_3 : ∀ i : grid0.Coords, EltTy.bits .f32 = 32 ∨ (Rect.block (s := S8192x8192) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x128.size a
  hwx0_4 : ∀ i : grid0.Coords, EltTy.bits .f32 = 32 ∨ (Rect.block (s := S32x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S32x128.size a
  hwx0_5 : ∀ i : grid0.Coords, EltTy.bits .f32 = 32 ∨ (Rect.block (s := S32x128) S8x128.size (cc0_transform_5 i) (hinb0_5 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S512x8192 : Shape := ⟨2, ![512, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x8192, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S512x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S8192x8192, .f32⟩
  | .hbm, ⟨25, _⟩ => ⟨S_, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KFrameBase.lean ====
/-
  The shared ground of the frame proof of the contrastive-loss kernel: the region's entry contents, the two
  branch conditions of the body in closed form over the 4 x 32 grid (the first holds at the first column block of
  a row block, the second at the last), where the two output windows are idle, the names of the staging and scratch
  memrefs, the shape of the region invariant, and each input window's block at a point.
-/
import proofs.«157662_j79869211837075_2_alg».proof.Proof.Gen.Kernel.Launch
import proofs.«157662_j79869211837075_2_alg».proof.Proof.Gen.Kernel.Skeleton
import proofs.«157662_j79869211837075_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region followed by the seven host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch: taken when the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second branch: taken when the column-block coordinate is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ i, cfg0.idle 0 i = false := fun _ => rfl
theorem liveAt0_1 : ∀ i, cfg0.idle 1 i = false := fun _ => rfl
theorem liveAt0_2 : ∀ i, cfg0.idle 2 i = false := fun _ => rfl
theorem liveAt0_3 : ∀ i, cfg0.idle 3 i = false := fun _ => rfl
/-- Away from the last column block both outputs are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At the last column block both outputs are stored. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
/-- The four scratch operands: the row tile, its squared norms, and the two accumulators. -/
abbrev scM0_0 : Memref sig .tc .vmem S2048x512 .bf16 := Memref.whole cc0_scratch0
abbrev scM0_1 : Memref sig .tc .vmem S2048x1 .f32 := Memref.whole cc0_scratch1
abbrev scM0_2 : Memref sig .tc .vmem S8x128 .f32 := Memref.whole cc0_scratch2
abbrev scM0_3 : Memref sig .tc .vmem S8x128 .f32 := Memref.whole cc0_scratch3
abbrev hsc0_0 : (scM0_0).IsWhole := Memref.isWhole_whole _
abbrev hsc0_1 : (scM0_1).IsWhole := Memref.isWhole_whole _
abbrev hsc0_2 : (scM0_2).IsWhole := Memref.isWhole_whole _
abbrev hsc0_3 : (scM0_3).IsWhole := Memref.isWhole_whole _
/-- One staging buffer of each output window, through which its contents are stated. -/
abbrev VO0_4 : View sig .tc .vmem S8x128 .f32 := (Memref.whole cc0_stg4_0 : Memref sig .tc .vmem S8x128 .f32).view
abbrev VO0_5 : View sig .tc .vmem S8x128 .f32 := (Memref.whole cc0_stg5_0 : Memref sig .tc .vmem S8x128 .f32).view

/-- The launch's invariant, with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KRunB.lean ====
/-
  The body run at a point that is neither the first nor the last column block of its row block: both branches are
  skipped; the row tile and its norms are read from scratch and left as they were, and entry [0,0] of each accumulator
  is overwritten with its old value plus the tile's partial sum. The pieces written are found by the run.
-/
import proofs.«157662_j79869211837075_2_alg».proof.Proof.KFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2048x512 .bf16) (harg8 : arg8.IsWhole) (arg9 : Memref sig .tc .vmem S2048x1 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i)
    (x0 : Vec F S2048x512 .f32) (x1 : Vec F S256x512 .f32) (x2 : Vec F S2048x256 .i32) (x3 : Vec F S2048x256 .f32)
    (xs0 : Vec F S2048x512 .bf16) (xs1 : Vec F S2048x1 .f32) (xs2 xs3 : Vec F S8x128 .f32) :
    Σ' (LS2 : List (View.Piece (Elt F) S8x128 .f32)), { LS3 : List (View.Piece (Elt F) S8x128 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ owns (c : Thread nD τ) arg8 fullShare xs0 ∗ owns (c : Thread nD τ) arg9 fullShare xs1
                ∗ (arg10.view.loc (c : Thread nD τ) ↦[arg10.view.set]{fullShare} arg10.view.writes (Elt F) (harg10.unread xs2) LS2) ∗ (arg11.view.loc (c : Thread nD τ) ↦[arg11.view.set]{fullShare} arg11.view.writes (Elt F) (harg11.unread xs3) LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, fun xi4 xi5 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    isplitl [HS1]
    · iexists _; isplitr; · ipureintro; exact harg9.read_unread _
      iexact HS1
    isplitl [HS2]
    · iexact HS2
    iexact HS3

end Cert.Kernel.Hand

end
-- ==== Proof.KRunA.lean ====
/-
  The body run at the first column block of a row block: the first branch is taken — the row tile's squared norms
  and its narrowed copy are stored into their scratch buffers and both accumulators are zeroed — then the common part
  adds the tile's partial sums into entry [0,0] of each accumulator; the second branch is skipped.
-/
import proofs.«157662_j79869211837075_2_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2048x512 .bf16) (harg8 : arg8.IsWhole) (arg9 : Memref sig .tc .vmem S2048x1 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i)
    (x0 : Vec F S2048x512 .f32) (x1 : Vec F S256x512 .f32) (x2 : Vec F S2048x256 .i32) (x3 : Vec F S2048x256 .f32) :
    Σ' (LS0 : List (View.Piece (Elt F) S2048x512 .bf16)) (LS1 : List (View.Piece (Elt F) S2048x1 .f32)) (LS2 : List (View.Piece (Elt F) S8x128 .f32)), { LS3 : List (View.Piece (Elt F) S8x128 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    isplitl [HS2]
    · iexists _; iexact HS2
    iexists _; iexact HS3

end Cert.Kernel.Hand

end
-- ==== Proof.KRunC.lean ====
/-
  The body run at the last column block of a row block: the first branch is skipped; the common part adds the tile's
  partial sums into entry [0,0] of each accumulator; the second branch is taken and copies both accumulators whole
  into the two output blocks.
-/
import proofs.«157662_j79869211837075_2_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2048x512 .bf16) (harg8 : arg8.IsWhole) (arg9 : Memref sig .tc .vmem S2048x1 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i)
    (x0 : Vec F S2048x512 .f32) (x1 : Vec F S256x512 .f32) (x2 : Vec F S2048x256 .i32) (x3 : Vec F S2048x256 .f32)
    (xs0 : Vec F S2048x512 .bf16) (xs1 : Vec F S2048x1 .f32) (xs2 xs3 : Vec F S8x128 .f32) :
    Σ' (L4 : List (View.Piece (Elt F) S8x128 .f32)) (L5 : List (View.Piece (Elt F) S8x128 .f32)) (LS2 : List (View.Piece (Elt F) S8x128 .f32)), { LS3 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ owns (c : Thread nD τ) arg8 fullShare xs0 ∗ owns (c : Thread nD τ) arg9 fullShare xs1
                ∗ (arg10.view.loc (c : Thread nD τ) ↦[arg10.view.set]{fullShare} arg10.view.writes (Elt F) (harg10.unread xs2) LS2) ∗ (arg11.view.loc (c : Thread nD τ) ↦[arg11.view.set]{fullShare} arg11.view.writes (Elt F) (harg11.unread xs3) LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [HS0]
    · iexists _; isplitr; · ipureintro; exact harg8.read_unread _
      iexact HS0
    isplitl [HS1]
    · iexists _; isplitr; · ipureintro; exact harg9.read_unread _
      iexact HS1
    isplitl [HS2]
    · iexact HS2
    iexact HS3

end Cert.Kernel.Hand

end
-- ==== Proof.KFrameData.lean ====
/-
  What the two output blocks and the four scratch buffers hold after the body at each grid point, by recursion on the
  point (the first column block of a row block refills the row tile and its norms and restarts both accumulators, every
  other point adds to entry [0,0] of the accumulators, the last column block also copies them out); the region invariant
  carrying the scratch contents from point to point; the proof data (the shared embeddings array is held at the two
  halves of its share by the two windows that read it); and the body obligation at every point.
-/
import proofs.«157662_j79869211837075_2_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VS0_0 : View sig .tc .vmem S2048x512 .bf16 := scM0_0.view
abbrev VS0_1 : View sig .tc .vmem S2048x1 .f32 := scM0_1.view
abbrev VS0_2 : View sig .tc .vmem S8x128 .f32 := scM0_2.view
abbrev VS0_3 : View sig .tc .vmem S8x128 .f32 := scM0_3.view

/-- Contents after a point: output block 4, output block 5, then scratch 0 to 3. -/
abbrev Outs (F : FTy → Type) [FloatOps F] : Type := (Vec F S8x128 .f32 × Vec F S8x128 .f32 × Vec F S2048x512 .bf16 × Vec F S2048x1 .f32 × Vec F S8x128 .f32 × Vec F S8x128 .f32)

/-! ## The three cases at a point -/

/-- The run at a first column block. -/
abbrev runA (c : Dev nD) (t : Fin cfg0.N) (h0 : t.val % 32 = 0) (h1 : ¬t.val % 32 = 31) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 scM0_2 hsc0_2 scM0_3 hsc0_3 ((hcond0_0 t).mpr h0) (fun h => h1 ((hcond0_1 t).mp h)) (iblk m c 0 t) (iblk m c 1 t) (iblk m c 2 t) (iblk m c 3 t)
/-- The run at a middle column block, from the scratch contents xs. -/
abbrev runB (c : Dev nD) (t : Fin cfg0.N) (h0 : ¬t.val % 32 = 0) (h1 : ¬t.val % 32 = 31)
    (xs0 : Vec F S2048x512 .bf16) (xs1 : Vec F S2048x1 .f32) (xs2 xs3 : Vec F S8x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 scM0_2 hsc0_2 scM0_3 hsc0_3 (fun h => h0 ((hcond0_0 t).mp h)) (fun h => h1 ((hcond0_1 t).mp h)) (iblk m c 0 t) (iblk m c 1 t) (iblk m c 2 t) (iblk m c 3 t) xs0 xs1 xs2 xs3
/-- The run at a last column block, from the scratch contents xs. -/
abbrev runC (c : Dev nD) (t : Fin cfg0.N) (h0 : ¬t.val % 32 = 0) (h1 : t.val % 32 = 31)
    (xs0 : Vec F S2048x512 .bf16) (xs1 : Vec F S2048x1 .f32) (xs2 xs3 : Vec F S8x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 scM0_2 hsc0_2 scM0_3 hsc0_3 (fun h => h0 ((hcond0_0 t).mp h)) ((hcond0_1 t).mpr h1) (iblk m c 0 t) (iblk m c 1 t) (iblk m c 2 t) (iblk m c 3 t) xs0 xs1 xs2 xs3

/-- After a first column block: the scratch buffers at what the run stored (the outputs are idle: their components
    repeat the accumulators and are never consulted). -/
def outA (c : Dev nD) (t : Fin cfg0.N) (h0 : t.val % 32 = 0) (h1 : ¬t.val % 32 = 31) : Outs F :=
  (VS0_2.read (Elt F) (VS0_2.writes (Elt F) VS0_2.junk (runA m c t h0 h1).2.2.1),
   VS0_3.read (Elt F) (VS0_3.writes (Elt F) VS0_3.junk (runA m c t h0 h1).2.2.2.1),
   VS0_0.read (Elt F) (VS0_0.writes (Elt F) VS0_0.junk (runA m c t h0 h1).1),
   VS0_1.read (Elt F) (VS0_1.writes (Elt F) VS0_1.junk (runA m c t h0 h1).2.1),
   VS0_2.read (Elt F) (VS0_2.writes (Elt F) VS0_2.junk (runA m c t h0 h1).2.2.1),
   VS0_3.read (Elt F) (VS0_3.writes (Elt F) VS0_3.junk (runA m c t h0 h1).2.2.2.1))
/-- After a middle column block: the row tile and norms as before, the accumulators updated in place. -/
def outB (c : Dev nD) (t : Fin cfg0.N) (h0 : ¬t.val % 32 = 0) (h1 : ¬t.val % 32 = 31) (p : Outs F) : Outs F :=
  (VS0_2.read (Elt F) (VS0_2.writes (Elt F) (hsc0_2.unread p.2.2.2.2.1) (runB m c t h0 h1 p.2.2.1 p.2.2.2.1 p.2.2.2.2.1 p.2.2.2.2.2).1),
   VS0_3.read (Elt F) (VS0_3.writes (Elt F) (hsc0_3.unread p.2.2.2.2.2) (runB m c t h0 h1 p.2.2.1 p.2.2.2.1 p.2.2.2.2.1 p.2.2.2.2.2).2.1),
   p.2.2.1, p.2.2.2.1,
   VS0_2.read (Elt F) (VS0_2.writes (Elt F) (hsc0_2.unread p.2.2.2.2.1) (runB m c t h0 h1 p.2.2.1 p.2.2.2.1 p.2.2.2.2.1 p.2.2.2.2.2).1),
   VS0_3.read (Elt F) (VS0_3.writes (Elt F) (hsc0_3.unread p.2.2.2.2.2) (runB m c t h0 h1 p.2.2.1 p.2.2.2.1 p.2.2.2.2.1 p.2.2.2.2.2).2.1))
/-- After a last column block: as a middle one, and the output blocks at what was copied out. -/
def outC (c : Dev nD) (t : Fin cfg0.N) (h0 : ¬t.val % 32 = 0) (h1 : t.val % 32 = 31) (p : Outs F) : Outs F :=
  (VO0_4.read (Elt F) (VO0_4.writes (Elt F) VO0_4.junk (runC m c t h0 h1 p.2.2.1 p.2.2.2.1 p.2.2.2.2.1 p.2.2.2.2.2).1),
   VO0_5.read (Elt F) (VO0_5.writes (Elt F) VO0_5.junk (runC m c t h0 h1 p.2.2.1 p.2.2.2.1 p.2.2.2.2.1 p.2.2.2.2.2).2.1),
   p.2.2.1, p.2.2.2.1,
   VS0_2.read (Elt F) (VS0_2.writes (Elt F) (hsc0_2.unread p.2.2.2.2.1) (runC m c t h0 h1 p.2.2.1 p.2.2.2.1 p.2.2.2.2.1 p.2.2.2.2.2).2.2.1),
   VS0_3.read (Elt F) (VS0_3.writes (Elt F) (hsc0_3.unread p.2.2.2.2.2) (runC m c t h0 h1 p.2.2.1 p.2.2.2.1 p.2.2.2.2.1 p.2.2.2.2.2).2.2.2.1))

/-! ## Point by point -/

/-- The contents after the point at position n. -/
def outsAt (c : Dev nD) : (n : ℕ) → n < cfg0.N → Outs F
  | 0, hn => outA m c ⟨0, hn⟩ (Nat.zero_mod _) (fun h => absurd h (by decide : ¬ 0 % 32 = 31))
  | n + 1, hn =>
    if h0 : (n + 1) % 32 = 0 then
      if h1 : (n + 1) % 32 = 31 then False.elim (by omega)
      else outA m c ⟨n + 1, hn⟩ h0 h1
    else
      if h1 : (n + 1) % 32 = 31 then outC m c ⟨n + 1, hn⟩ h0 h1 (outsAt c n (Nat.lt_of_succ_lt hn))
      else outB m c ⟨n + 1, hn⟩ h0 h1 (outsAt c n (Nat.lt_of_succ_lt hn))

theorem outsAt_A (c : Dev nD) (t : Fin cfg0.N) (h0 : t.val % 32 = 0) (h1 : ¬t.val % 32 = 31) :
    outsAt m c t.val t.isLt = outA m c t h0 h1 := by
  obtain ⟨n, hn⟩ := t
  cases n with
  | zero => exact rfl
  | succ n => exact (dif_pos h0).trans ((dif_neg h1).trans rfl)

theorem outsAt_B (c : Dev nD) (t : Fin cfg0.N) (h0 : ¬t.val % 32 = 0) (h1 : ¬t.val % 32 = 31) :
    outsAt m c t.val t.isLt = outB m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 32 = 0) (h1 : t.val % 32 = 31) :
    outsAt m c t.val t.isLt = outC m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the launch's invariant; afterwards the four scratch buffers at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.1) ∗ owns (c : Thread nD τ) scM0_1 fullShare ((outsAt m c n hn).2.2.2.1) ∗ owns (c : Thread nD τ) scM0_2 fullShare ((outsAt m c n hn).2.2.2.2.1) ∗ owns (c : Thread nD τ) scM0_3 fullShare ((outsAt m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.2.1) ∗ owns (c : Thread nD τ) scM0_1 fullShare ((outsAt m c n hn).2.2.2.1) ∗ owns (c : Thread nD τ) scM0_2 fullShare ((outsAt m c n hn).2.2.2.2.1) ∗ owns (c : Thread nD τ) scM0_3 fullShare ((outsAt m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2.1) ∗ owns (c : Thread nD τ) scM0_1 fullShare ((outsAt m c (n - 1) (by omega)).2.2.2.1) ∗ owns (c : Thread nD τ) scM0_2 fullShare ((outsAt m c (n - 1) (by omega)).2.2.2.2.1) ∗ owns (c : Thread nD τ) scM0_3 fullShare ((outsAt m c (n - 1) (by omega)).2.2.2.2.2)) ∗ (∃ r, prngReg c r)) := by
  cases n with
  | zero => exact absurd rfl hz
  | succ n => rfl

/-! ## The proof data -/

/-- The arrays as the region finds them; each input's buffer at its block; the outputs' at the recursion's components;
    the two windows on the embeddings array hold the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]
theorem after0_5 (c : Dev nD) (t : Fin cfg0.N) : (dats m 0 c).after 5 t = (outsAt m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Hand

end
-- ==== Proof.KFrameBody.lean ====
/-
  The body obligation at every grid point: the point's position in its row block says which of the three runs applies;
  the invariant hands the run the scratch buffers at what the point before left (at anything before the first point)
  and takes them back at this point's contents; an idle output's buffer is handed back untouched.
-/
import proofs.«157662_j79869211837075_2_alg».proof.Proof.KFrameData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover -/

theorem scoverA_0 (c : Dev nD) (t : Fin cfg0.N) (h0 : t.val % 32 = 0) (h1 : ¬t.val % 32 = 31) (y : S2048x512.Idx) :
    ∃ pc ∈ (runA m c t h0 h1).1, y ∈ pc.1.set :=
  View.cover_of_tiledL (runA m c t h0 h1).1 S2048x512.size (by sl_kernel_rfl) y
theorem scoverA_1 (c : Dev nD) (t : Fin cfg0.N) (h0 : t.val % 32 = 0) (h1 : ¬t.val % 32 = 31) (y : S2048x1.Idx) :
    ∃ pc ∈ (runA m c t h0 h1).2.1, y ∈ pc.1.set :=
  View.cover_of_tiledL (runA m c t h0 h1).2.1 S2048x1.size (by sl_kernel_rfl) y
theorem scoverA_2 (c : Dev nD) (t : Fin cfg0.N) (h0 : t.val % 32 = 0) (h1 : ¬t.val % 32 = 31) (y : S8x128.Idx) :
    ∃ pc ∈ (runA m c t h0 h1).2.2.1, y ∈ pc.1.set :=
  View.cover_of_tiledL (runA m c t h0 h1).2.2.1 S8x128.size (by sl_kernel_rfl) y
theorem scoverA_3 (c : Dev nD) (t : Fin cfg0.N) (h0 : t.val % 32 = 0) (h1 : ¬t.val % 32 = 31) (y : S8x128.Idx) :
    ∃ pc ∈ (runA m c t h0 h1).2.2.2.1, y ∈ pc.1.set :=
  View.cover_of_tiledL (runA m c t h0 h1).2.2.2.1 S8x128.size (by sl_kernel_rfl) y
theorem coverC_4 (c : Dev nD) (t : Fin cfg0.N) (h0 : ¬t.val % 32 = 0) (h1 : t.val % 32 = 31)
    (xs0 : Vec F S2048x512 .bf16) (xs1 : Vec F S2048x1 .f32) (xs2 xs3 : Vec F S8x128 .f32) (y : S8x128.Idx) :
    ∃ pc ∈ (runC m c t h0 h1 xs0 xs1 xs2 xs3).1, y ∈ pc.1.set :=
  View.cover_of_tiledL (runC m c t h0 h1 xs0 xs1 xs2 xs3).1 S8x128.size (by sl_kernel_rfl) y
theorem coverC_5 (c : Dev nD) (t : Fin cfg0.N) (h0 : ¬t.val % 32 = 0) (h1 : t.val % 32 = 31)
    (xs0 : Vec F S2048x512 .bf16) (xs1 : Vec F S2048x1 .f32) (xs2 xs3 : Vec F S8x128 .f32) (y : S8x128.Idx) :
    ∃ pc ∈ (runC m c t h0 h1 xs0 xs1 xs2 xs3).2.1, y ∈ pc.1.set :=
  View.cover_of_tiledL (runC m c t h0 h1 xs0 xs1 xs2 xs3).2.1 S8x128.size (by sl_kernel_rfl) y

/-! ## The obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 32 = 0
  · by_cases h1 : t.val % 32 = 31
    · exfalso; omega
    ·
      rw [show (dats m 0 c).leavesExact 0 t = owns (c : Thread nD τ) (ms0_0 t) fullShare ((dats m 0 c).after 0 t) from by
      unfold Dat.leavesExact; rw [liveAt0_0 (grid0.coords t)], after0_0]
      rw [show (dats m 0 c).leavesExact 1 t = owns (c : Thread nD τ) (ms0_1 t) fullShare ((dats m 0 c).after 1 t) from by
      unfold Dat.leavesExact; rw [liveAt0_1 (grid0.coords t)], after0_1]
      rw [show (dats m 0 c).leavesExact 2 t = owns (c : Thread nD τ) (ms0_2 t) fullShare ((dats m 0 c).after 2 t) from by
      unfold Dat.leavesExact; rw [liveAt0_2 (grid0.coords t)], after0_2]
      rw [show (dats m 0 c).leavesExact 3 t = owns (c : Thread nD τ) (ms0_3 t) fullShare ((dats m 0 c).after 3 t) from by
      unfold Dat.leavesExact; rw [liveAt0_3 (grid0.coords t)], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt_A m c t h0 h1]
      unfold outA; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((runA m c t h0 h1).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitr [Hg]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((runA m c t h0 h1).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitr [Hg]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun h => h0 (by rw [h])
    by_cases h1 : t.val % 32 = 31
    ·
      rw [show (dats m 0 c).leavesExact 0 t = owns (c : Thread nD τ) (ms0_0 t) fullShare ((dats m 0 c).after 0 t) from by
      unfold Dat.leavesExact; rw [liveAt0_0 (grid0.coords t)], after0_0]
      rw [show (dats m 0 c).leavesExact 1 t = owns (c : Thread nD τ) (ms0_1 t) fullShare ((dats m 0 c).after 1 t) from by
      unfold Dat.leavesExact; rw [liveAt0_1 (grid0.coords t)], after0_1]
      rw [show (dats m 0 c).leavesExact 2 t = owns (c : Thread nD τ) (ms0_2 t) fullShare ((dats m 0 c).after 2 t) from by
      unfold Dat.leavesExact; rw [liveAt0_2 (grid0.coords t)], after0_2]
      rw [show (dats m 0 c).leavesExact 3 t = owns (c : Thread nD τ) (ms0_3 t) fullShare ((dats m 0 c).after 3 t) from by
      unfold Dat.leavesExact; rw [liveAt0_3 (grid0.coords t)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt_C m c t h0 h1]
      unfold outC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runC m c t h0 h1 _ _ _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, HS0, HS1, HS2, HS3⟩
      isplitl [HS0 HS1 HS2 HS3 Hg]
      · isplitr [Hg]
        · isplitl [HS0]
          · iexact HS0
          isplitl [HS1]
          · iexact HS1
          isplitl [HS2]
          · unfold owns; iexists _; isplitr
            swap; · iexact HS2
            ipureintro; rfl
          unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 m c t h0 h1 _ _ _ _)
      unfold owns; iexists _; isplitr
      swap; · iexact H5
      ipureintro; exact View.read_writes_of_cover _ _ _ _ _ (coverC_5 m c t h0 h1 _ _ _ _)
    ·
      rw [show (dats m 0 c).leavesExact 0 t = owns (c : Thread nD τ) (ms0_0 t) fullShare ((dats m 0 c).after 0 t) from by
      unfold Dat.leavesExact; rw [liveAt0_0 (grid0.coords t)], after0_0]
      rw [show (dats m 0 c).leavesExact 1 t = owns (c : Thread nD τ) (ms0_1 t) fullShare ((dats m 0 c).after 1 t) from by
      unfold Dat.leavesExact; rw [liveAt0_1 (grid0.coords t)], after0_1]
      rw [show (dats m 0 c).leavesExact 2 t = owns (c : Thread nD τ) (ms0_2 t) fullShare ((dats m 0 c).after 2 t) from by
      unfold Dat.leavesExact; rw [liveAt0_2 (grid0.coords t)], after0_2]
      rw [show (dats m 0 c).leavesExact 3 t = owns (c : Thread nD τ) (ms0_3 t) fullShare ((dats m 0 c).after 3 t) from by
      unfold Dat.leavesExact; rw [liveAt0_3 (grid0.coords t)], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt_B m c t h0 h1]
      unfold outB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runB m c t h0 h1 _ _ _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitr [Hg]
        · isplitl [HS0]
          · iexact HS0
          isplitl [HS1]
          · iexact HS1
          isplitl [HS2]
          · unfold owns; iexists _; isplitr
            swap; · iexact HS2
            ipureintro; rfl
          unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.KLaunch.lean ====
/-
  The launch of the contrastive-loss kernel's one region and the host operations after it, for any proof data.

  Two input windows of the region read one array (the embeddings: a row block through one window, a column block
  through the other). At the region's entry the array's full share is therefore split into its two halves, one per
  window; the other four windows hold their arrays whole. After the region the host operations read only the two
  output arrays and read and write the buffers that bypass the region; the inputs are never touched again.
-/
import proofs.«157662_j79869211837075_2_alg».proof.Proof.KFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The five distinct buffers behind the six windows' arrays, one by one. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_arg2) ↦{fullShare} Vv main_arg2) ∗ (((c : Thread nD τ).loc main_v0_0) ↦{fullShare} Vv main_v0_0)
          ∗ (((c : Thread nD τ).loc main_v0_1) ↦{fullShare} Vv main_v0_1)) := by
  unfold Pipeline.arrBufs
  exact bigSep_eq_bigSepL_of_eq [main_arg0, main_arg1, main_arg2, main_v0_0, main_v0_1] (by decide) (by decide) _

theorem share0 {c : Dev nD} (dat : Dat τ (Elt F) Unit ℕ (UR sig nD τ) ℕ cfg0 c) : dat.share 0 = dat.q 0 := rfl
theorem share1 {c : Dev nD} (dat : Dat τ (Elt F) Unit ℕ (UR sig nD τ) ℕ cfg0 c) : dat.share 1 = dat.q 1 := rfl
theorem share2 {c : Dev nD} (dat : Dat τ (Elt F) Unit ℕ (UR sig nD τ) ℕ cfg0 c) : dat.share 2 = dat.q 2 := rfl
theorem share3 {c : Dev nD} (dat : Dat τ (Elt F) Unit ℕ (UR sig nD τ) ℕ cfg0 c) : dat.share 3 = dat.q 3 := rfl
theorem share4 {c : Dev nD} (dat : Dat τ (Elt F) Unit ℕ (UR sig nD τ) ℕ cfg0 c) : dat.share 4 = fullShare := rfl
theorem share5 {c : Dev nD} (dat : Dat τ (Elt F) Unit ℕ (UR sig nD τ) ℕ cfg0 c) : dat.share 5 = fullShare := rfl

/-- The pipeline's arrays, window by window, each at its share. -/
theorem arrays0_eq {c : Dev nD} (dat : Dat τ (Elt F) Unit ℕ (UR sig nD τ) ℕ cfg0 c)
    (Fv : (w : Fin cfg0.W) → Buf (Elt F) ((cfg0.win w).arr.view.loc (c : Thread nD τ))) :
    (dat.arrays Fv : sProp 𝕄)
      = iprop((((c : Thread nD τ).loc main_arg0) ↦{dat.q 0} Fv 0) ∗ (((c : Thread nD τ).loc main_arg0) ↦{dat.q 1} Fv 1)
          ∗ (((c : Thread nD τ).loc main_arg1) ↦{dat.q 2} Fv 2) ∗ (((c : Thread nD τ).loc main_arg2) ↦{dat.q 3} Fv 3)
          ∗ (((c : Thread nD τ).loc main_v0_0) ↦{fullShare} Fv 4) ∗ (((c : Thread nD τ).loc main_v0_1) ↦{fullShare} Fv 5)) := by
  unfold Dat.arrays
  rw [bigSep_W0, (arr_whole0 0).set_eq_univ, (arr_whole0 2).set_eq_univ, (arr_whole0 3).set_eq_univ,
    (arr_whole0 4).set_eq_univ, (arr_whole0 5).set_eq_univ, share0, share1, share2, share3, share4, share5]

/-- At the region's entry the buffers behind the arrays make the pipeline's arrays: the embeddings' full share splits
    into the two halves the two windows on it hold. -/
theorem arrays_of_bufs {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vv : (b : Ref sig .tc) → Buf (Elt F) ((c : Thread nD τ).loc b))
    (Fv : (w : Fin cfg0.W) → Buf (Elt F) ((cfg0.win w).arr.view.loc (c : Thread nD τ))) (hF : ∀ w, Fv w = Vv (Pipeline.arrRef spec0 w)) :
    (Pipeline.arrBufs (Ix := Unit) (Name := ℕ) (U := UR sig nD τ) (Lvl := ℕ) spec0 c Vv : sProp 𝕄) ⊢ dat.arrays Fv := by
  rw [arrBufs0_eq, arrays0_eq, hq0, hq1, hq2, hq3, hF 0, hF 1, hF 2, hF 3, hF 4, hF 5]
  iintro ⟨H0, H1, H2, H3, H4⟩
  ihave H := (pointsTo_share (PosShare.mem_left_op_right fullShare)).1 $$ H0
  icases H with ⟨H0l, H0r⟩
  isplitl [H0l]; · iexact H0l
  isplitl [H0r]; · iexact H0r
  isplitl [H1]; · iexact H1
  isplitl [H2]; · iexact H2
  isplitl [H3]; · iexact H3
  iexact H4

variable (m : (ℓ : Loc nD τ sig) → Buf (Elt F) ℓ)

/-- At an array reference that only one window names, the exit contents are that window's. -/
theorem withArrays_unique {gr W : Nat} (win : Fin W → Pipeline.WinSpec sig gr) (c : Dev nD) (Vv : Valuation τ sig (Elt F))
    (A : (w : Fin W) → Buf (Elt F) ((win w).arr.view.loc (c : Thread nD τ))) (w : Fin W)
    (huniq : ∀ w', Pipeline.arrRef win w' = Pipeline.arrRef win w → w' = w) :
    Pipeline.withArrays win c Vv A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents (Elt F)) e) (A w') = A w from this _ h.choose_spec
  intro w' e
  obtain rfl : w' = w := huniq w' (Proc.devRef_injective _ e)
  rfl

/-- The references the host operations after the region may touch: the two output arrays and the buffers that bypass the region. -/
abbrev tailT : Finset (Ref sig .tc) := {main_v0_0, main_v0_1} ∪ Pipeline.restRefsP sig Pipeline.Prefetch.none spec0
/-- The same as device buffers. -/
def tailS : Finset (DevRef τ sig) := tailT.map ⟨Proc.devRef (sig := sig) .tc, Proc.devRef_injective _⟩

theorem tailT_eq : tailT = [main_v0_0, main_v0_1, main_cst, main_v1, main_cst_0, main_v2, main_cst_1, main_v3, main_v4].toFinset := by decide

theorem mem_tailS {r : Ref sig .tc} (h : r ∈ [main_v0_0, main_v0_1, main_cst, main_v1, main_cst_0, main_v2, main_cst_1, main_v3, main_v4]) :
    Proc.devRef .tc r ∈ tailS := by
  unfold tailS
  refine Finset.mem_map_of_mem _ ?_
  rw [tailT_eq]; exact List.mem_toFinset.mpr h

/-- Every host operation after the region touches only those. -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals
    intro b hb
    simp only [StableHlo.nullary_bufs, StableHlo.binary_bufs, Finset.mem_insert, Finset.mem_singleton] at hb
    rcases hb with rfl | rfl | rfl <;> exact mem_tailS (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No host operation after the region writes an output array. -/
theorem tail_keeps (r : Ref sig .tc) (hr : r ∈ [main_v0_0, main_v0_1]) :
    ∀ op ∈ ([hostOps1] : List (List (HloOp τ sig (Elt F)))).flatten, Proc.devRef .tc r ∉ op.writes := by
  intro op hop
  simp only [List.flatten_cons, List.flatten_nil, List.append_nil, hostOps1, List.mem_cons, List.mem_nil_iff, or_false] at hop hr
  rcases hr with rfl | rfl <;> rcases hop with rfl | rfl | rfl | rfl | rfl | rfl | rfl <;>
    simp only [StableHlo.nullary_writes, StableHlo.binary_writes, Finset.mem_singleton] <;> exact StableHlo.devRef_ne_of_ne (by decide)

/-- Those buffers held whole are the two output arrays and the bypassing buffers. -/
theorem held_tailS (c : Dev nD) (Wv : Valuation τ sig (Elt F)) :
    (StableHlo.held (c : Thread nD τ) tailS Wv : sProp 𝕄)
      = iprop(((((c : Thread nD τ).loc main_v0_0) ↦{fullShare} Wv (Proc.devRef .tc main_v0_0)) ∗ (((c : Thread nD τ).loc main_v0_1) ↦{fullShare} Wv (Proc.devRef .tc main_v0_1)))
          ∗ Pipeline.unscopedRestP (Ix := Unit) (Name := ℕ) (U := UR sig nD τ) (Lvl := ℕ) Pipeline.Prefetch.none spec0 c (fun b => Wv (Proc.devRef .tc b))) := by
  classical
  have hdisj : Disjoint ({main_v0_0, main_v0_1} : Finset (Ref sig .tc)) (Pipeline.restRefsP sig Pipeline.Prefetch.none spec0) := by decide
  unfold StableHlo.held tailS
  rw [bigSep_map, bigSep_union hdisj, bigSep_insert (by decide), bigSep_singleton]
  rfl

/-- The buffer contents when the region is left: the arrays as the write-backs left them, the rest as at entry. -/
abbrev exitVal (dats : (p : Fin 1) → (c : Dev nD) → Dat τ (Elt F) Unit ℕ (UR sig nD τ) ℕ (cfgs p) c) (c : Dev nD) : Valuation τ sig (Elt F) :=
  Pipeline.withArrays spec0 c (V0 m c) (fun w => (dats 0 c).arrAt w cfg0.N)

theorem exitVal_4 (dats : (p : Fin 1) → (c : Dev nD) → Dat τ (Elt F) Unit ℕ (UR sig nD τ) ℕ (cfgs p) c) (c : Dev nD) :
    exitVal m dats c (Proc.devRef .tc main_v0_0) = (dats 0 c).arrAt 4 cfg0.N :=
  withArrays_unique spec0 c (V0 m c) _ 4 (by decide)
theorem exitVal_5 (dats : (p : Fin 1) → (c : Dev nD) → Dat τ (Elt F) Unit ℕ (UR sig nD τ) ℕ (cfgs p) c) (c : Dev nD) :
    exitVal m dats c (Proc.devRef .tc main_v0_1) = (dats 0 c).arrAt 5 cfg0.N :=
  withArrays_unique spec0 c (V0 m c) _ 5 (by decide)
theorem exitVal_rest (dats : (p : Fin 1) → (c : Dev nD) → Dat τ (Elt F) Unit ℕ (UR sig nD τ) ℕ (cfgs p) c) (c : Dev nD)
    (b : Ref sig .tc) (hb : b ∈ Pipeline.restRefsP sig Pipeline.Prefetch.none spec0) :
    exitVal m dats c (Proc.devRef .tc b) = V m c b :=
  Pipeline.withArrays_of_ne spec0 c (V0 m c) _ b fun w e =>
    (Finset.mem_sdiff.mp (Finset.mem_sdiff.mp hb).1).2 (Finset.mem_image.mpr ⟨w, Finset.mem_univ _, e⟩)

theorem held_exit (dats : (p : Fin 1) → (c : Dev nD) → Dat τ (Elt F) Unit ℕ (UR sig nD τ) ℕ (cfgs p) c) (c : Dev nD) :
    (StableHlo.held (c : Thread nD τ) tailS (exitVal m dats c) : sProp 𝕄)
      = iprop(((((c : Thread nD τ).loc main_v0_0) ↦{fullShare} (dats 0 c).arrAt 4 cfg0.N) ∗ (((c : Thread nD τ).loc main_v0_1) ↦{fullShare} (dats 0 c).arrAt 5 cfg0.N))
          ∗ Pipeline.unscopedRestP (Ix := Unit) (Name := ℕ) (U := UR sig nD τ) (Lvl := ℕ) Pipeline.Prefetch.none spec0 c (V m c)) := by
  rw [held_tailS, exitVal_4, exitVal_5]
  refine congrArg (BI.sep _) ?_
  unfold Pipeline.unscopedRestP
  exact bigSep_congr fun b hb => congrArg (fun X => (((c : Thread nD τ).loc b) ↦{fullShare} X : sProp 𝕄)) (exitVal_rest m dats c b hb)

theorem held_after (dats : (p : Fin 1) → (c : Dev nD) → Dat τ (Elt F) Unit ℕ (UR sig nD τ) ℕ (cfgs p) c) (c : Dev nD) :
    (StableHlo.held (c : Thread nD τ) tailS (StableHlo.after ([hostOps1] : List (List (HloOp τ sig (Elt F)))).flatten (exitVal m dats c)) : sProp 𝕄)
      = iprop(((((c : Thread nD τ).loc main_v0_0) ↦{fullShare} (dats 0 c).arrAt 4 cfg0.N) ∗ (((c : Thread nD τ).loc main_v0_1) ↦{fullShare} (dats 0 c).arrAt 5 cfg0.N))
          ∗ Pipeline.unscopedRestP (Ix := Unit) (Name := ℕ) (U := UR sig nD τ) (Lvl := ℕ) Pipeline.Prefetch.none spec0 c (Pipeline.afterTail₀ cfgs dats 0 (V0 m) [hostOps1] c)) := by
  rw [held_tailS, StableHlo.after_of_forall_not_mem _ _ (tail_keeps main_v0_0 (by decide)),
    StableHlo.after_of_forall_not_mem _ _ (tail_keeps main_v0_1 (by decide)), exitVal_4, exitVal_5]
  rfl

/-- The host operations after the region: they run within the two output arrays and the bypassing buffers, and hand back
    the pipeline's arrays untouched and the bypassing buffers at the operations' results. -/
theorem tail_run (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (Pipeline.afterTail₀ cfgs dats 0 (V0 m) [hostOps1] c)) -∗ Q' ⟨⟩)
        ∗ boundary (c : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  classical
  have hrun := Pipeline.wp_seqs_then (Ix := Unit) (Name := ℕ) (U := UR sig nD τ) (Lvl := ℕ) (fun q => (cfgs q).toPCfg (Val := Elt F)) defs₀ Variants.none c tailS [] (K := Q')
    [hostOps1] tail_sub tail_fresh (exitVal m dats c)
  rw [held_exit, held_after] at hrun
  have hch : (Pipeline.chain (List.map StableHlo.seq ([hostOps1] : List (List (HloOp τ sig (Elt F)))) ++ [])
      : Prog (TpuEff nD τ sig (Elt F) (Pipeline.Sig Λ₀ (Fin 1) fun p => ((cfgs p).toPCfg (Val := Elt F)).Adm) .tc) PUnit)
      = Pipeline.chain [StableHlo.seq hostOps1] := rfl
  rw [hch] at hrun
  rw [arrays0_eq]
  iintro ⟨Hk, Hb, ⟨A0, A1, A2, A3, A4, A5⟩, HZ⟩
  iapply hrun $$ [Hb A4 A5 HZ]
  · isplitl [Hb]; · iexact Hb
    isplitr [HZ]
    · isplitl [A4] <;> iassumption
    iexact HZ
  iintro ⟨Hb, ⟨B4, B5⟩, HZ'⟩
  rw [Pipeline.chain_nil, wp_pure]; imodintro
  iapply Hk
  isplitr [HZ']
  · isplitl [A0]; · iexact A0
    isplitl [A1]; · iexact A1
    isplitl [A2]; · iexact A2
    isplitl [A3]; · iexact A3
    isplitl [B4] <;> iassumption
  iexact HZ'

variable (ρ : Dev nD → PrngReg)

/-- The staging cells are distinct at the one admissible (empty) table contents. -/
theorem cellOf_inj' (a : (p : Fin 1) → ((cfgs p).toPCfg (Val := Elt F)).Adm) :
    Function.Injective (cellOf (nD := nD) (τ := τ) (Pipeline.pin (fun q => (cfgs q).toPCfg (Val := Elt F)) a)) := by
  rw [Subsingleton.elim a fun q => (cfgs q).toPCfg_adm]; exact cellOf_inj

/-- The run of the program for any proof data of the region whose two windows on the embeddings hold its two half
    shares: it terminates; every array ends as the write-backs left it (an input array unchanged), and every buffer that
    bypasses the region ends at the host operations' results computed from the two output arrays. -/
theorem run_of
    (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w))
    (hbody : ∀ c, Pipeline.BodyObligationLoose (dats 0 c) defs₀ Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats ()
    (cellOf_inj' _) 0 winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells (Pipeline.pin (fun q => (cfgs q).toPCfg (Val := Elt F)) (fun q => (cfgs q).toPCfg_adm)) (cellOf_inj' _)) (Pipeline.launchToks (Pipeline.pin (fun q => (cfgs q).toPCfg (Val := Elt F)) (fun q => (cfgs q).toPCfg_adm)) (cellOf_inj' _)))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) (cellOf_inj' _)) (Pipeline.launchToks (Pipeline.pin (fun q => (cfgs q).toPCfg (Val := Elt F)) (fun q => (cfgs q).toPCfg_adm)) (cellOf_inj' _)))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs (dats 0 c) (hq0 c) (hq1 c) (hq2 c) (hq3 c) (V m c) _ (fun w => hA c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats c Q')
    (QY := fun c s => ∀ b ∈ Pipeline.restRefsP sig Pipeline.Prefetch.none spec0, s.mem ((c.tc : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Pipeline.afterTail₀ cfgs dats 0 (V0 m) [hostOps1] c) s')
      isplitl [HU] <;> iassumption)
    (hQ := fun s h c => ⟨(h c).1, Pipeline.rest_of_restP Pipeline.Prefetch.none spec0 (fun k => k.elim0) c (Pipeline.afterTail₀ cfgs dats 0 (V0 m) [hostOps1] c) s (fun k => k.elim0) (h c).2.1 (h c).2.2⟩)

end Cert.Kernel.Hand

end
-- ==== Proof.KFrame.lean ====
/-
  The run of the whole program (the region, then the host lines) from the body obligation and the launch, and the
  frame: the three argument arrays are inputs of the region's windows, so they end at their entry contents.
-/
import proofs.«157662_j79869211837075_2_alg».proof.Proof.KFrameBody
import proofs.«157662_j79869211837075_2_alg».proof.Proof.KLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; every array of the region ends at what the proof data compute, every other
    unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  run_of m ρ (dats m) (fun _ => rfl) (fun _ => rfl) (fun _ => rfl) (fun _ => rfl) (A_eq m)
    (fun c => (body_obligation m c).loose) (fun _ _ => rfl) (hin m) (hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c)))⟩) (run_main m ρ)

end Cert.Kernel.Hand

end
-- ==== Proof.IFrameBase.lean ====
/-
  The shared ground of the frame proof of the contrastive-loss kernel: the region's entry contents, the two
  branch conditions of the body in closed form over the 4 x 32 grid (the first holds at the first column block of
  a row block, the second at the last), where the two output windows are idle, the names of the staging and scratch
  memrefs, the shape of the region invariant, and each input window's block at a point.
-/
import proofs.«157662_j79869211837075_2_alg».proof.Proof.Gen.KernelIdeal.Launch
import proofs.«157662_j79869211837075_2_alg».proof.Proof.Gen.KernelIdeal.Skeleton
import proofs.«157662_j79869211837075_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region followed by the seven host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch: taken when the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second branch: taken when the column-block coordinate is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ i, cfg0.idle 0 i = false := fun _ => rfl
theorem liveAt0_1 : ∀ i, cfg0.idle 1 i = false := fun _ => rfl
theorem liveAt0_2 : ∀ i, cfg0.idle 2 i = false := fun _ => rfl
theorem liveAt0_3 : ∀ i, cfg0.idle 3 i = false := fun _ => rfl
/-- Away from the last column block both outputs are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At the last column block both outputs are stored. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
/-- The four scratch operands: the row tile, its squared norms, and the two accumulators. -/
abbrev scM0_0 : Memref sig .tc .vmem S2048x512 .bf16 := Memref.whole cc0_scratch0
abbrev scM0_1 : Memref sig .tc .vmem S2048x1 .f32 := Memref.whole cc0_scratch1
abbrev scM0_2 : Memref sig .tc .vmem S8x128 .f32 := Memref.whole cc0_scratch2
abbrev scM0_3 : Memref sig .tc .vmem S8x128 .f32 := Memref.whole cc0_scratch3
abbrev hsc0_0 : (scM0_0).IsWhole := Memref.isWhole_whole _
abbrev hsc0_1 : (scM0_1).IsWhole := Memref.isWhole_whole _
abbrev hsc0_2 : (scM0_2).IsWhole := Memref.isWhole_whole _
abbrev hsc0_3 : (scM0_3).IsWhole := Memref.isWhole_whole _
/-- One staging buffer of each output window, through which its contents are stated. -/
abbrev VO0_4 : View sig .tc .vmem S8x128 .f32 := (Memref.whole cc0_stg4_0 : Memref sig .tc .vmem S8x128 .f32).view
abbrev VO0_5 : View sig .tc .vmem S8x128 .f32 := (Memref.whole cc0_stg5_0 : Memref sig .tc .vmem S8x128 .f32).view

/-- The launch's invariant, with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.IRunB.lean ====
/-
  The body run at a point that is neither the first nor the last column block of its row block: both branches are
  skipped; the row tile and its norms are read from scratch and left as they were, and entry [0,0] of each accumulator
  is overwritten with its old value plus the tile's partial sum. The pieces written are found by the run.
-/
import proofs.«157662_j79869211837075_2_alg».proof.Proof.IFrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2048x512 .bf16) (harg8 : arg8.IsWhole) (arg9 : Memref sig .tc .vmem S2048x1 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : ¬cond0_1 i)
    (x0 : Vec F S2048x512 .f32) (x1 : Vec F S256x512 .f32) (x2 : Vec F S2048x256 .i32) (x3 : Vec F S2048x256 .f32)
    (xs0 : Vec F S2048x512 .bf16) (xs1 : Vec F S2048x1 .f32) (xs2 xs3 : Vec F S8x128 .f32) :
    Σ' (LS2 : List (View.Piece (Elt F) S8x128 .f32)), { LS3 : List (View.Piece (Elt F) S8x128 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ owns (c : Thread nD τ) arg8 fullShare xs0 ∗ owns (c : Thread nD τ) arg9 fullShare xs1
                ∗ (arg10.view.loc (c : Thread nD τ) ↦[arg10.view.set]{fullShare} arg10.view.writes (Elt F) (harg10.unread xs2) LS2) ∗ (arg11.view.loc (c : Thread nD τ) ↦[arg11.view.set]{fullShare} arg11.view.writes (Elt F) (harg11.unread xs3) LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, fun xi4 xi5 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    isplitl [HS1]
    · iexists _; isplitr; · ipureintro; exact harg9.read_unread _
      iexact HS1
    isplitl [HS2]
    · iexact HS2
    iexact HS3

end Cert.KernelIdeal.Hand

end
-- ==== Proof.IRunA.lean ====
/-
  The body run at the first column block of a row block: the first branch is taken — the row tile's squared norms
  and its narrowed copy are stored into their scratch buffers and both accumulators are zeroed — then the common part
  adds the tile's partial sums into entry [0,0] of each accumulator; the second branch is skipped.
-/
import proofs.«157662_j79869211837075_2_alg».proof.Proof.IRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2048x512 .bf16) (harg8 : arg8.IsWhole) (arg9 : Memref sig .tc .vmem S2048x1 .f32) (harg9 : arg9.IsWhole) (arg10 : Memref sig .tc .vmem S8x128 .f32) (harg10 : arg10.IsWhole) (arg11 : Memref sig .tc .vmem S8x128 .f32) (harg11 : arg11.IsWhole) (hc0 : cond0_0 i) (hc1 : ¬cond0_1 i)
    (x0 : Vec F S2048x512 .f32) (x1 : Vec F S256x512 .f32) (x2 : Vec F S2048x256 .i32) (x3 : Vec F S2048x256 .f32) :
    Σ' (LS0 : List (View.Piece (Elt F) S2048x512 .bf16)) (LS1 : List (View.Piece (Elt F) S2048x1 .f32)) (LS2 : List (View.Piece (Elt F) S8x128 .f32)), { LS3 : List (View.Piece (Elt F) S8x128 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    isplitl [HS2]
    · iexists _; iexact HS2
    iexists _; iexact HS3

end Cert.KernelIdeal.Hand

end
-- ==== Proof.IRunC.lean ====
/-
  The body run at the last column block of a row block: the first branch is skipped; the common part adds the tile's
  partial sums into entry [0,0] of each accumulator; the second branch is taken and copies both accumulators whole
  into the two output blocks.
-/
import proofs.«157662_j79869211837075_2_alg».proof.Proof.IRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2048x512 .bf16) (harg8 : arg8.IsWhole) (arg9 : Memref sig .tc .vmem S2048x1 .f32) (harg9 : arg9.IsWhole) (arg10 : Memref sig .tc .vmem S8x128 .f32) (harg10 : arg10.IsWhole) (arg11 : Memref sig .tc .vmem S8x128 .f32) (harg11 : arg11.IsWhole) (hc0 : ¬cond0_0 i) (hc1 : cond0_1 i)
    (x0 : Vec F S2048x512 .f32) (x1 : Vec F S256x512 .f32) (x2 : Vec F S2048x256 .i32) (x3 : Vec F S2048x256 .f32)
    (xs0 : Vec F S2048x512 .bf16) (xs1 : Vec F S2048x1 .f32) (xs2 xs3 : Vec F S8x128 .f32) :
    Σ' (L4 : List (View.Piece (Elt F) S8x128 .f32)) (L5 : List (View.Piece (Elt F) S8x128 .f32)) (LS2 : List (View.Piece (Elt F) S8x128 .f32)), { LS3 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ owns (c : Thread nD τ) arg8 fullShare xs0 ∗ owns (c : Thread nD τ) arg9 fullShare xs1
                ∗ (arg10.view.loc (c : Thread nD τ) ↦[arg10.view.set]{fullShare} arg10.view.writes (Elt F) (harg10.unread xs2) LS2) ∗ (arg11.view.loc (c : Thread nD τ) ↦[arg11.view.set]{fullShare} arg11.view.writes (Elt F) (harg11.unread xs3) LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [HS0]
    · iexists _; isplitr; · ipureintro; exact harg8.read_unread _
      iexact HS0
    isplitl [HS1]
    · iexists _; isplitr; · ipureintro; exact harg9.read_unread _
      iexact HS1
    isplitl [HS2]
    · iexact HS2
    iexact HS3

end Cert.KernelIdeal.Hand

end
-- ==== Proof.IFrameData.lean ====
/-
  What the two output blocks and the four scratch buffers hold after the body at each grid point, by recursion on the
  point (the first column block of a row block refills the row tile and its norms and restarts both accumulators, every
  other point adds to entry [0,0] of the accumulators, the last column block also copies them out); the region invariant
  carrying the scratch contents from point to point; the proof data (the shared embeddings array is held at the two
  halves of its share by the two windows that read it); and the body obligation at every point.
-/
import proofs.«157662_j79869211837075_2_alg».proof.Proof.IRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VS0_0 : View sig .tc .vmem S2048x512 .bf16 := scM0_0.view
abbrev VS0_1 : View sig .tc .vmem S2048x1 .f32 := scM0_1.view
abbrev VS0_2 : View sig .tc .vmem S8x128 .f32 := scM0_2.view
abbrev VS0_3 : View sig .tc .vmem S8x128 .f32 := scM0_3.view

/-- Contents after a point: output block 4, output block 5, then scratch 0 to 3. -/
abbrev Outs (F : FTy → Type) [FloatOps F] : Type := (Vec F S8x128 .f32 × Vec F S8x128 .f32 × Vec F S2048x512 .bf16 × Vec F S2048x1 .f32 × Vec F S8x128 .f32 × Vec F S8x128 .f32)

/-! ## The three cases at a point -/

/-- The run at a first column block. -/
abbrev runA (c : Dev nD) (t : Fin cfg0.N) (h0 : t.val % 32 = 0) (h1 : ¬t.val % 32 = 31) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 scM0_2 hsc0_2 scM0_3 hsc0_3 ((hcond0_0 t).mpr h0) (fun h => h1 ((hcond0_1 t).mp h)) (iblk m c 0 t) (iblk m c 1 t) (iblk m c 2 t) (iblk m c 3 t)
/-- The run at a middle column block, from the scratch contents xs. -/
abbrev runB (c : Dev nD) (t : Fin cfg0.N) (h0 : ¬t.val % 32 = 0) (h1 : ¬t.val % 32 = 31)
    (xs0 : Vec F S2048x512 .bf16) (xs1 : Vec F S2048x1 .f32) (xs2 xs3 : Vec F S8x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 scM0_2 hsc0_2 scM0_3 hsc0_3 (fun h => h0 ((hcond0_0 t).mp h)) (fun h => h1 ((hcond0_1 t).mp h)) (iblk m c 0 t) (iblk m c 1 t) (iblk m c 2 t) (iblk m c 3 t) xs0 xs1 xs2 xs3
/-- The run at a last column block, from the scratch contents xs. -/
abbrev runC (c : Dev nD) (t : Fin cfg0.N) (h0 : ¬t.val % 32 = 0) (h1 : t.val % 32 = 31)
    (xs0 : Vec F S2048x512 .bf16) (xs1 : Vec F S2048x1 .f32) (xs2 xs3 : Vec F S8x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 scM0_2 hsc0_2 scM0_3 hsc0_3 (fun h => h0 ((hcond0_0 t).mp h)) ((hcond0_1 t).mpr h1) (iblk m c 0 t) (iblk m c 1 t) (iblk m c 2 t) (iblk m c 3 t) xs0 xs1 xs2 xs3

/-- After a first column block: the scratch buffers at what the run stored (the outputs are idle: their components
    repeat the accumulators and are never consulted). -/
def outA (c : Dev nD) (t : Fin cfg0.N) (h0 : t.val % 32 = 0) (h1 : ¬t.val % 32 = 31) : Outs F :=
  (VS0_2.read (Elt F) (VS0_2.writes (Elt F) VS0_2.junk (runA m c t h0 h1).2.2.1),
   VS0_3.read (Elt F) (VS0_3.writes (Elt F) VS0_3.junk (runA m c t h0 h1).2.2.2.1),
   VS0_0.read (Elt F) (VS0_0.writes (Elt F) VS0_0.junk (runA m c t h0 h1).1),
   VS0_1.read (Elt F) (VS0_1.writes (Elt F) VS0_1.junk (runA m c t h0 h1).2.1),
   VS0_2.read (Elt F) (VS0_2.writes (Elt F) VS0_2.junk (runA m c t h0 h1).2.2.1),
   VS0_3.read (Elt F) (VS0_3.writes (Elt F) VS0_3.junk (runA m c t h0 h1).2.2.2.1))
/-- After a middle column block: the row tile and norms as before, the accumulators updated in place. -/
def outB (c : Dev nD) (t : Fin cfg0.N) (h0 : ¬t.val % 32 = 0) (h1 : ¬t.val % 32 = 31) (p : Outs F) : Outs F :=
  (VS0_2.read (Elt F) (VS0_2.writes (Elt F) (hsc0_2.unread p.2.2.2.2.1) (runB m c t h0 h1 p.2.2.1 p.2.2.2.1 p.2.2.2.2.1 p.2.2.2.2.2).1),
   VS0_3.read (Elt F) (VS0_3.writes (Elt F) (hsc0_3.unread p.2.2.2.2.2) (runB m c t h0 h1 p.2.2.1 p.2.2.2.1 p.2.2.2.2.1 p.2.2.2.2.2).2.1),
   p.2.2.1, p.2.2.2.1,
   VS0_2.read (Elt F) (VS0_2.writes (Elt F) (hsc0_2.unread p.2.2.2.2.1) (runB m c t h0 h1 p.2.2.1 p.2.2.2.1 p.2.2.2.2.1 p.2.2.2.2.2).1),
   VS0_3.read (Elt F) (VS0_3.writes (Elt F) (hsc0_3.unread p.2.2.2.2.2) (runB m c t h0 h1 p.2.2.1 p.2.2.2.1 p.2.2.2.2.1 p.2.2.2.2.2).2.1))
/-- After a last column block: as a middle one, and the output blocks at what was copied out. -/
def outC (c : Dev nD) (t : Fin cfg0.N) (h0 : ¬t.val % 32 = 0) (h1 : t.val % 32 = 31) (p : Outs F) : Outs F :=
  (VO0_4.read (Elt F) (VO0_4.writes (Elt F) VO0_4.junk (runC m c t h0 h1 p.2.2.1 p.2.2.2.1 p.2.2.2.2.1 p.2.2.2.2.2).1),
   VO0_5.read (Elt F) (VO0_5.writes (Elt F) VO0_5.junk (runC m c t h0 h1 p.2.2.1 p.2.2.2.1 p.2.2.2.2.1 p.2.2.2.2.2).2.1),
   p.2.2.1, p.2.2.2.1,
   VS0_2.read (Elt F) (VS0_2.writes (Elt F) (hsc0_2.unread p.2.2.2.2.1) (runC m c t h0 h1 p.2.2.1 p.2.2.2.1 p.2.2.2.2.1 p.2.2.2.2.2).2.2.1),
   VS0_3.read (Elt F) (VS0_3.writes (Elt F) (hsc0_3.unread p.2.2.2.2.2) (runC m c t h0 h1 p.2.2.1 p.2.2.2.1 p.2.2.2.2.1 p.2.2.2.2.2).2.2.2.1))

/-! ## Point by point -/

/-- The contents after the point at position n. -/
def outsAt (c : Dev nD) : (n : ℕ) → n < cfg0.N → Outs F
  | 0, hn => outA m c ⟨0, hn⟩ (Nat.zero_mod _) (fun h => absurd h (by decide : ¬ 0 % 32 = 31))
  | n + 1, hn =>
    if h0 : (n + 1) % 32 = 0 then
      if h1 : (n + 1) % 32 = 31 then False.elim (by omega)
      else outA m c ⟨n + 1, hn⟩ h0 h1
    else
      if h1 : (n + 1) % 32 = 31 then outC m c ⟨n + 1, hn⟩ h0 h1 (outsAt c n (Nat.lt_of_succ_lt hn))
      else outB m c ⟨n + 1, hn⟩ h0 h1 (outsAt c n (Nat.lt_of_succ_lt hn))

theorem outsAt_A (c : Dev nD) (t : Fin cfg0.N) (h0 : t.val % 32 = 0) (h1 : ¬t.val % 32 = 31) :
    outsAt m c t.val t.isLt = outA m c t h0 h1 := by
  obtain ⟨n, hn⟩ := t
  cases n with
  | zero => exact rfl
  | succ n => exact (dif_pos h0).trans ((dif_neg h1).trans rfl)

theorem outsAt_B (c : Dev nD) (t : Fin cfg0.N) (h0 : ¬t.val % 32 = 0) (h1 : ¬t.val % 32 = 31) :
    outsAt m c t.val t.isLt = outB m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 32 = 0) (h1 : t.val % 32 = 31) :
    outsAt m c t.val t.isLt = outC m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the launch's invariant; afterwards the four scratch buffers at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.1) ∗ owns (c : Thread nD τ) scM0_1 fullShare ((outsAt m c n hn).2.2.2.1) ∗ owns (c : Thread nD τ) scM0_2 fullShare ((outsAt m c n hn).2.2.2.2.1) ∗ owns (c : Thread nD τ) scM0_3 fullShare ((outsAt m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.2.1) ∗ owns (c : Thread nD τ) scM0_1 fullShare ((outsAt m c n hn).2.2.2.1) ∗ owns (c : Thread nD τ) scM0_2 fullShare ((outsAt m c n hn).2.2.2.2.1) ∗ owns (c : Thread nD τ) scM0_3 fullShare ((outsAt m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2.1) ∗ owns (c : Thread nD τ) scM0_1 fullShare ((outsAt m c (n - 1) (by omega)).2.2.2.1) ∗ owns (c : Thread nD τ) scM0_2 fullShare ((outsAt m c (n - 1) (by omega)).2.2.2.2.1) ∗ owns (c : Thread nD τ) scM0_3 fullShare ((outsAt m c (n - 1) (by omega)).2.2.2.2.2)) ∗ (∃ r, prngReg c r)) := by
  cases n with
  | zero => exact absurd rfl hz
  | succ n => rfl

/-! ## The proof data -/

/-- The arrays as the region finds them; each input's buffer at its block; the outputs' at the recursion's components;
    the two windows on the embeddings array hold the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]
theorem after0_5 (c : Dev nD) (t : Fin cfg0.N) : (dats m 0 c).after 5 t = (outsAt m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Hand

end
-- ==== Proof.IFrameBody.lean ====
/-
  The body obligation at every grid point: the point's position in its row block says which of the three runs applies;
  the invariant hands the run the scratch buffers at what the point before left (at anything before the first point)
  and takes them back at this point's contents; an idle output's buffer is handed back untouched.
-/
import proofs.«157662_j79869211837075_2_alg».proof.Proof.IFrameData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover -/

theorem scoverA_0 (c : Dev nD) (t : Fin cfg0.N) (h0 : t.val % 32 = 0) (h1 : ¬t.val % 32 = 31) (y : S2048x512.Idx) :
    ∃ pc ∈ (runA m c t h0 h1).1, y ∈ pc.1.set :=
  View.cover_of_tiledL (runA m c t h0 h1).1 S2048x512.size (by sl_kernel_rfl) y
theorem scoverA_1 (c : Dev nD) (t : Fin cfg0.N) (h0 : t.val % 32 = 0) (h1 : ¬t.val % 32 = 31) (y : S2048x1.Idx) :
    ∃ pc ∈ (runA m c t h0 h1).2.1, y ∈ pc.1.set :=
  View.cover_of_tiledL (runA m c t h0 h1).2.1 S2048x1.size (by sl_kernel_rfl) y
theorem scoverA_2 (c : Dev nD) (t : Fin cfg0.N) (h0 : t.val % 32 = 0) (h1 : ¬t.val % 32 = 31) (y : S8x128.Idx) :
    ∃ pc ∈ (runA m c t h0 h1).2.2.1, y ∈ pc.1.set :=
  View.cover_of_tiledL (runA m c t h0 h1).2.2.1 S8x128.size (by sl_kernel_rfl) y
theorem scoverA_3 (c : Dev nD) (t : Fin cfg0.N) (h0 : t.val % 32 = 0) (h1 : ¬t.val % 32 = 31) (y : S8x128.Idx) :
    ∃ pc ∈ (runA m c t h0 h1).2.2.2.1, y ∈ pc.1.set :=
  View.cover_of_tiledL (runA m c t h0 h1).2.2.2.1 S8x128.size (by sl_kernel_rfl) y
theorem coverC_4 (c : Dev nD) (t : Fin cfg0.N) (h0 : ¬t.val % 32 = 0) (h1 : t.val % 32 = 31)
    (xs0 : Vec F S2048x512 .bf16) (xs1 : Vec F S2048x1 .f32) (xs2 xs3 : Vec F S8x128 .f32) (y : S8x128.Idx) :
    ∃ pc ∈ (runC m c t h0 h1 xs0 xs1 xs2 xs3).1, y ∈ pc.1.set :=
  View.cover_of_tiledL (runC m c t h0 h1 xs0 xs1 xs2 xs3).1 S8x128.size (by sl_kernel_rfl) y
theorem coverC_5 (c : Dev nD) (t : Fin cfg0.N) (h0 : ¬t.val % 32 = 0) (h1 : t.val % 32 = 31)
    (xs0 : Vec F S2048x512 .bf16) (xs1 : Vec F S2048x1 .f32) (xs2 xs3 : Vec F S8x128 .f32) (y : S8x128.Idx) :
    ∃ pc ∈ (runC m c t h0 h1 xs0 xs1 xs2 xs3).2.1, y ∈ pc.1.set :=
  View.cover_of_tiledL (runC m c t h0 h1 xs0 xs1 xs2 xs3).2.1 S8x128.size (by sl_kernel_rfl) y

/-! ## The obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 32 = 0
  · by_cases h1 : t.val % 32 = 31
    · exfalso; omega
    ·
      rw [show (dats m 0 c).leavesExact 0 t = owns (c : Thread nD τ) (ms0_0 t) fullShare ((dats m 0 c).after 0 t) from by
      unfold Dat.leavesExact; rw [liveAt0_0 (grid0.coords t)], after0_0]
      rw [show (dats m 0 c).leavesExact 1 t = owns (c : Thread nD τ) (ms0_1 t) fullShare ((dats m 0 c).after 1 t) from by
      unfold Dat.leavesExact; rw [liveAt0_1 (grid0.coords t)], after0_1]
      rw [show (dats m 0 c).leavesExact 2 t = owns (c : Thread nD τ) (ms0_2 t) fullShare ((dats m 0 c).after 2 t) from by
      unfold Dat.leavesExact; rw [liveAt0_2 (grid0.coords t)], after0_2]
      rw [show (dats m 0 c).leavesExact 3 t = owns (c : Thread nD τ) (ms0_3 t) fullShare ((dats m 0 c).after 3 t) from by
      unfold Dat.leavesExact; rw [liveAt0_3 (grid0.coords t)], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt_A m c t h0 h1]
      unfold outA; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((runA m c t h0 h1).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitr [Hg]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((runA m c t h0 h1).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitr [Hg]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun h => h0 (by rw [h])
    by_cases h1 : t.val % 32 = 31
    ·
      rw [show (dats m 0 c).leavesExact 0 t = owns (c : Thread nD τ) (ms0_0 t) fullShare ((dats m 0 c).after 0 t) from by
      unfold Dat.leavesExact; rw [liveAt0_0 (grid0.coords t)], after0_0]
      rw [show (dats m 0 c).leavesExact 1 t = owns (c : Thread nD τ) (ms0_1 t) fullShare ((dats m 0 c).after 1 t) from by
      unfold Dat.leavesExact; rw [liveAt0_1 (grid0.coords t)], after0_1]
      rw [show (dats m 0 c).leavesExact 2 t = owns (c : Thread nD τ) (ms0_2 t) fullShare ((dats m 0 c).after 2 t) from by
      unfold Dat.leavesExact; rw [liveAt0_2 (grid0.coords t)], after0_2]
      rw [show (dats m 0 c).leavesExact 3 t = owns (c : Thread nD τ) (ms0_3 t) fullShare ((dats m 0 c).after 3 t) from by
      unfold Dat.leavesExact; rw [liveAt0_3 (grid0.coords t)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt_C m c t h0 h1]
      unfold outC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runC m c t h0 h1 _ _ _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, HS0, HS1, HS2, HS3⟩
      isplitl [HS0 HS1 HS2 HS3 Hg]
      · isplitr [Hg]
        · isplitl [HS0]
          · iexact HS0
          isplitl [HS1]
          · iexact HS1
          isplitl [HS2]
          · unfold owns; iexists _; isplitr
            swap; · iexact HS2
            ipureintro; rfl
          unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 m c t h0 h1 _ _ _ _)
      unfold owns; iexists _; isplitr
      swap; · iexact H5
      ipureintro; exact View.read_writes_of_cover _ _ _ _ _ (coverC_5 m c t h0 h1 _ _ _ _)
    ·
      rw [show (dats m 0 c).leavesExact 0 t = owns (c : Thread nD τ) (ms0_0 t) fullShare ((dats m 0 c).after 0 t) from by
      unfold Dat.leavesExact; rw [liveAt0_0 (grid0.coords t)], after0_0]
      rw [show (dats m 0 c).leavesExact 1 t = owns (c : Thread nD τ) (ms0_1 t) fullShare ((dats m 0 c).after 1 t) from by
      unfold Dat.leavesExact; rw [liveAt0_1 (grid0.coords t)], after0_1]
      rw [show (dats m 0 c).leavesExact 2 t = owns (c : Thread nD τ) (ms0_2 t) fullShare ((dats m 0 c).after 2 t) from by
      unfold Dat.leavesExact; rw [liveAt0_2 (grid0.coords t)], after0_2]
      rw [show (dats m 0 c).leavesExact 3 t = owns (c : Thread nD τ) (ms0_3 t) fullShare ((dats m 0 c).after 3 t) from by
      unfold Dat.leavesExact; rw [liveAt0_3 (grid0.coords t)], after0_3]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt_B m c t h0 h1]
      unfold outB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runB m c t h0 h1 _ _ _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitr [Hg]
        · isplitl [HS0]
          · iexact HS0
          isplitl [HS1]
          · iexact HS1
          isplitl [HS2]
          · unfold owns; iexists _; isplitr
            swap; · iexact HS2
            ipureintro; rfl
          unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.ILaunch.lean ====
/-
  The launch of the contrastive-loss kernel's one region and the host operations after it, for any proof data.

  Two input windows of the region read one array (the embeddings: a row block through one window, a column block
  through the other). At the region's entry the array's full share is therefore split into its two halves, one per
  window; the other four windows hold their arrays whole. After the region the host operations read only the two
  output arrays and read and write the buffers that bypass the region; the inputs are never touched again.
-/
import proofs.«157662_j79869211837075_2_alg».proof.Proof.IFrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The five distinct buffers behind the six windows' arrays, one by one. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_arg2) ↦{fullShare} Vv main_arg2) ∗ (((c : Thread nD τ).loc main_v0_0) ↦{fullShare} Vv main_v0_0)
          ∗ (((c : Thread nD τ).loc main_v0_1) ↦{fullShare} Vv main_v0_1)) := by
  unfold Pipeline.arrBufs
  exact bigSep_eq_bigSepL_of_eq [main_arg0, main_arg1, main_arg2, main_v0_0, main_v0_1] (by decide) (by decide) _

theorem share0 {c : Dev nD} (dat : Dat τ (Elt F) Unit ℕ (UR sig nD τ) ℕ cfg0 c) : dat.share 0 = dat.q 0 := rfl
theorem share1 {c : Dev nD} (dat : Dat τ (Elt F) Unit ℕ (UR sig nD τ) ℕ cfg0 c) : dat.share 1 = dat.q 1 := rfl
theorem share2 {c : Dev nD} (dat : Dat τ (Elt F) Unit ℕ (UR sig nD τ) ℕ cfg0 c) : dat.share 2 = dat.q 2 := rfl
theorem share3 {c : Dev nD} (dat : Dat τ (Elt F) Unit ℕ (UR sig nD τ) ℕ cfg0 c) : dat.share 3 = dat.q 3 := rfl
theorem share4 {c : Dev nD} (dat : Dat τ (Elt F) Unit ℕ (UR sig nD τ) ℕ cfg0 c) : dat.share 4 = fullShare := rfl
theorem share5 {c : Dev nD} (dat : Dat τ (Elt F) Unit ℕ (UR sig nD τ) ℕ cfg0 c) : dat.share 5 = fullShare := rfl

/-- The pipeline's arrays, window by window, each at its share. -/
theorem arrays0_eq {c : Dev nD} (dat : Dat τ (Elt F) Unit ℕ (UR sig nD τ) ℕ cfg0 c)
    (Fv : (w : Fin cfg0.W) → Buf (Elt F) ((cfg0.win w).arr.view.loc (c : Thread nD τ))) :
    (dat.arrays Fv : sProp 𝕄)
      = iprop((((c : Thread nD τ).loc main_arg0) ↦{dat.q 0} Fv 0) ∗ (((c : Thread nD τ).loc main_arg0) ↦{dat.q 1} Fv 1)
          ∗ (((c : Thread nD τ).loc main_arg1) ↦{dat.q 2} Fv 2) ∗ (((c : Thread nD τ).loc main_arg2) ↦{dat.q 3} Fv 3)
          ∗ (((c : Thread nD τ).loc main_v0_0) ↦{fullShare} Fv 4) ∗ (((c : Thread nD τ).loc main_v0_1) ↦{fullShare} Fv 5)) := by
  unfold Dat.arrays
  rw [bigSep_W0, (arr_whole0 0).set_eq_univ, (arr_whole0 2).set_eq_univ, (arr_whole0 3).set_eq_univ,
    (arr_whole0 4).set_eq_univ, (arr_whole0 5).set_eq_univ, share0, share1, share2, share3, share4, share5]

/-- At the region's entry the buffers behind the arrays make the pipeline's arrays: the embeddings' full share splits
    into the two halves the two windows on it hold. -/
theorem arrays_of_bufs {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vv : (b : Ref sig .tc) → Buf (Elt F) ((c : Thread nD τ).loc b))
    (Fv : (w : Fin cfg0.W) → Buf (Elt F) ((cfg0.win w).arr.view.loc (c : Thread nD τ))) (hF : ∀ w, Fv w = Vv (Pipeline.arrRef spec0 w)) :
    (Pipeline.arrBufs (Ix := Unit) (Name := ℕ) (U := UR sig nD τ) (Lvl := ℕ) spec0 c Vv : sProp 𝕄) ⊢ dat.arrays Fv := by
  rw [arrBufs0_eq, arrays0_eq, hq0, hq1, hq2, hq3, hF 0, hF 1, hF 2, hF 3, hF 4, hF 5]
  iintro ⟨H0, H1, H2, H3, H4⟩
  ihave H := (pointsTo_share (PosShare.mem_left_op_right fullShare)).1 $$ H0
  icases H with ⟨H0l, H0r⟩
  isplitl [H0l]; · iexact H0l
  isplitl [H0r]; · iexact H0r
  isplitl [H1]; · iexact H1
  isplitl [H2]; · iexact H2
  isplitl [H3]; · iexact H3
  iexact H4

variable (m : (ℓ : Loc nD τ sig) → Buf (Elt F) ℓ)

/-- At an array reference that only one window names, the exit contents are that window's. -/
theorem withArrays_unique {gr W : Nat} (win : Fin W → Pipeline.WinSpec sig gr) (c : Dev nD) (Vv : Valuation τ sig (Elt F))
    (A : (w : Fin W) → Buf (Elt F) ((win w).arr.view.loc (c : Thread nD τ))) (w : Fin W)
    (huniq : ∀ w', Pipeline.arrRef win w' = Pipeline.arrRef win w → w' = w) :
    Pipeline.withArrays win c Vv A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents (Elt F)) e) (A w') = A w from this _ h.choose_spec
  intro w' e
  obtain rfl : w' = w := huniq w' (Proc.devRef_injective _ e)
  rfl

/-- The references the host operations after the region may touch: the two output arrays and the buffers that bypass the region. -/
abbrev tailT : Finset (Ref sig .tc) := {main_v0_0, main_v0_1} ∪ Pipeline.restRefsP sig Pipeline.Prefetch.none spec0
/-- The same as device buffers. -/
def tailS : Finset (DevRef τ sig) := tailT.map ⟨Proc.devRef (sig := sig) .tc, Proc.devRef_injective _⟩

theorem tailT_eq : tailT = [main_v0_0, main_v0_1, main_cst, main_v1, main_cst_0, main_v2, main_cst_1, main_v3, main_v4].toFinset := by decide

theorem mem_tailS {r : Ref sig .tc} (h : r ∈ [main_v0_0, main_v0_1, main_cst, main_v1, main_cst_0, main_v2, main_cst_1, main_v3, main_v4]) :
    Proc.devRef .tc r ∈ tailS := by
  unfold tailS
  refine Finset.mem_map_of_mem _ ?_
  rw [tailT_eq]; exact List.mem_toFinset.mpr h

/-- Every host operation after the region touches only those. -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals
    intro b hb
    simp only [StableHlo.nullary_bufs, StableHlo.binary_bufs, Finset.mem_insert, Finset.mem_singleton] at hb
    rcases hb with rfl | rfl | rfl <;> exact mem_tailS (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No host operation after the region writes an output array. -/
theorem tail_keeps (r : Ref sig .tc) (hr : r ∈ [main_v0_0, main_v0_1]) :
    ∀ op ∈ ([hostOps1] : List (List (HloOp τ sig (Elt F)))).flatten, Proc.devRef .tc r ∉ op.writes := by
  intro op hop
  simp only [List.flatten_cons, List.flatten_nil, List.append_nil, hostOps1, List.mem_cons, List.mem_nil_iff, or_false] at hop hr
  rcases hr with rfl | rfl <;> rcases hop with rfl | rfl | rfl | rfl | rfl | rfl | rfl <;>
    simp only [StableHlo.nullary_writes, StableHlo.binary_writes, Finset.mem_singleton] <;> exact StableHlo.devRef_ne_of_ne (by decide)

/-- Those buffers held whole are the two output arrays and the bypassing buffers. -/
theorem held_tailS (c : Dev nD) (Wv : Valuation τ sig (Elt F)) :
    (StableHlo.held (c : Thread nD τ) tailS Wv : sProp 𝕄)
      = iprop(((((c : Thread nD τ).loc main_v0_0) ↦{fullShare} Wv (Proc.devRef .tc main_v0_0)) ∗ (((c : Thread nD τ).loc main_v0_1) ↦{fullShare} Wv (Proc.devRef .tc main_v0_1)))
          ∗ Pipeline.unscopedRestP (Ix := Unit) (Name := ℕ) (U := UR sig nD τ) (Lvl := ℕ) Pipeline.Prefetch.none spec0 c (fun b => Wv (Proc.devRef .tc b))) := by
  classical
  have hdisj : Disjoint ({main_v0_0, main_v0_1} : Finset (Ref sig .tc)) (Pipeline.restRefsP sig Pipeline.Prefetch.none spec0) := by decide
  unfold StableHlo.held tailS
  rw [bigSep_map, bigSep_union hdisj, bigSep_insert (by decide), bigSep_singleton]
  rfl

/-- The buffer contents when the region is left: the arrays as the write-backs left them, the rest as at entry. -/
abbrev exitVal (dats : (p : Fin 1) → (c : Dev nD) → Dat τ (Elt F) Unit ℕ (UR sig nD τ) ℕ (cfgs p) c) (c : Dev nD) : Valuation τ sig (Elt F) :=
  Pipeline.withArrays spec0 c (V0 m c) (fun w => (dats 0 c).arrAt w cfg0.N)

theorem exitVal_4 (dats : (p : Fin 1) → (c : Dev nD) → Dat τ (Elt F) Unit ℕ (UR sig nD τ) ℕ (cfgs p) c) (c : Dev nD) :
    exitVal m dats c (Proc.devRef .tc main_v0_0) = (dats 0 c).arrAt 4 cfg0.N :=
  withArrays_unique spec0 c (V0 m c) _ 4 (by decide)
theorem exitVal_5 (dats : (p : Fin 1) → (c : Dev nD) → Dat τ (Elt F) Unit ℕ (UR sig nD τ) ℕ (cfgs p) c) (c : Dev nD) :
    exitVal m dats c (Proc.devRef .tc main_v0_1) = (dats 0 c).arrAt 5 cfg0.N :=
  withArrays_unique spec0 c (V0 m c) _ 5 (by decide)
theorem exitVal_rest (dats : (p : Fin 1) → (c : Dev nD) → Dat τ (Elt F) Unit ℕ (UR sig nD τ) ℕ (cfgs p) c) (c : Dev nD)
    (b : Ref sig .tc) (hb : b ∈ Pipeline.restRefsP sig Pipeline.Prefetch.none spec0) :
    exitVal m dats c (Proc.devRef .tc b) = V m c b :=
  Pipeline.withArrays_of_ne spec0 c (V0 m c) _ b fun w e =>
    (Finset.mem_sdiff.mp (Finset.mem_sdiff.mp hb).1).2 (Finset.mem_image.mpr ⟨w, Finset.mem_univ _, e⟩)

theorem held_exit (dats : (p : Fin 1) → (c : Dev nD) → Dat τ (Elt F) Unit ℕ (UR sig nD τ) ℕ (cfgs p) c) (c : Dev nD) :
    (StableHlo.held (c : Thread nD τ) tailS (exitVal m dats c) : sProp 𝕄)
      = iprop(((((c : Thread nD τ).loc main_v0_0) ↦{fullShare} (dats 0 c).arrAt 4 cfg0.N) ∗ (((c : Thread nD τ).loc main_v0_1) ↦{fullShare} (dats 0 c).arrAt 5 cfg0.N))
          ∗ Pipeline.unscopedRestP (Ix := Unit) (Name := ℕ) (U := UR sig nD τ) (Lvl := ℕ) Pipeline.Prefetch.none spec0 c (V m c)) := by
  rw [held_tailS, exitVal_4, exitVal_5]
  refine congrArg (BI.sep _) ?_
  unfold Pipeline.unscopedRestP
  exact bigSep_congr fun b hb => congrArg (fun X => (((c : Thread nD τ).loc b) ↦{fullShare} X : sProp 𝕄)) (exitVal_rest m dats c b hb)

theorem held_after (dats : (p : Fin 1) → (c : Dev nD) → Dat τ (Elt F) Unit ℕ (UR sig nD τ) ℕ (cfgs p) c) (c : Dev nD) :
    (StableHlo.held (c : Thread nD τ) tailS (StableHlo.after ([hostOps1] : List (List (HloOp τ sig (Elt F)))).flatten (exitVal m dats c)) : sProp 𝕄)
      = iprop(((((c : Thread nD τ).loc main_v0_0) ↦{fullShare} (dats 0 c).arrAt 4 cfg0.N) ∗ (((c : Thread nD τ).loc main_v0_1) ↦{fullShare} (dats 0 c).arrAt 5 cfg0.N))
          ∗ Pipeline.unscopedRestP (Ix := Unit) (Name := ℕ) (U := UR sig nD τ) (Lvl := ℕ) Pipeline.Prefetch.none spec0 c (Pipeline.afterTail₀ cfgs dats 0 (V0 m) [hostOps1] c)) := by
  rw [held_tailS, StableHlo.after_of_forall_not_mem _ _ (tail_keeps main_v0_0 (by decide)),
    StableHlo.after_of_forall_not_mem _ _ (tail_keeps main_v0_1 (by decide)), exitVal_4, exitVal_5]
  rfl

/-- The host operations after the region: they run within the two output arrays and the bypassing buffers, and hand back
    the pipeline's arrays untouched and the bypassing buffers at the operations' results. -/
theorem tail_run (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (Pipeline.afterTail₀ cfgs dats 0 (V0 m) [hostOps1] c)) -∗ Q' ⟨⟩)
        ∗ boundary (c : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  classical
  have hrun := Pipeline.wp_seqs_then (Ix := Unit) (Name := ℕ) (U := UR sig nD τ) (Lvl := ℕ) (fun q => (cfgs q).toPCfg (Val := Elt F)) defs₀ Variants.none c tailS [] (K := Q')
    [hostOps1] tail_sub tail_fresh (exitVal m dats c)
  rw [held_exit, held_after] at hrun
  have hch : (Pipeline.chain (List.map StableHlo.seq ([hostOps1] : List (List (HloOp τ sig (Elt F)))) ++ [])
      : Prog (TpuEff nD τ sig (Elt F) (Pipeline.Sig Λ₀ (Fin 1) fun p => ((cfgs p).toPCfg (Val := Elt F)).Adm) .tc) PUnit)
      = Pipeline.chain [StableHlo.seq hostOps1] := rfl
  rw [hch] at hrun
  rw [arrays0_eq]
  iintro ⟨Hk, Hb, ⟨A0, A1, A2, A3, A4, A5⟩, HZ⟩
  iapply hrun $$ [Hb A4 A5 HZ]
  · isplitl [Hb]; · iexact Hb
    isplitr [HZ]
    · isplitl [A4] <;> iassumption
    iexact HZ
  iintro ⟨Hb, ⟨B4, B5⟩, HZ'⟩
  rw [Pipeline.chain_nil, wp_pure]; imodintro
  iapply Hk
  isplitr [HZ']
  · isplitl [A0]; · iexact A0
    isplitl [A1]; · iexact A1
    isplitl [A2]; · iexact A2
    isplitl [A3]; · iexact A3
    isplitl [B4] <;> iassumption
  iexact HZ'

variable (ρ : Dev nD → PrngReg)

/-- The staging cells are distinct at the one admissible (empty) table contents. -/
theorem cellOf_inj' (a : (p : Fin 1) → ((cfgs p).toPCfg (Val := Elt F)).Adm) :
    Function.Injective (cellOf (nD := nD) (τ := τ) (Pipeline.pin (fun q => (cfgs q).toPCfg (Val := Elt F)) a)) := by
  rw [Subsingleton.elim a fun q => (cfgs q).toPCfg_adm]; exact cellOf_inj

/-- The run of the program for any proof data of the region whose two windows on the embeddings hold its two half
    shares: it terminates; every array ends as the write-backs left it (an input array unchanged), and every buffer that
    bypasses the region ends at the host operations' results computed from the two output arrays. -/
theorem run_of
    (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w))
    (hbody : ∀ c, Pipeline.BodyObligationLoose (dats 0 c) defs₀ Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats ()
    (cellOf_inj' _) 0 winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells (Pipeline.pin (fun q => (cfgs q).toPCfg (Val := Elt F)) (fun q => (cfgs q).toPCfg_adm)) (cellOf_inj' _)) (Pipeline.launchToks (Pipeline.pin (fun q => (cfgs q).toPCfg (Val := Elt F)) (fun q => (cfgs q).toPCfg_adm)) (cellOf_inj' _)))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) (cellOf_inj' _)) (Pipeline.launchToks (Pipeline.pin (fun q => (cfgs q).toPCfg (Val := Elt F)) (fun q => (cfgs q).toPCfg_adm)) (cellOf_inj' _)))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs (dats 0 c) (hq0 c) (hq1 c) (hq2 c) (hq3 c) (V m c) _ (fun w => hA c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats c Q')
    (QY := fun c s => ∀ b ∈ Pipeline.restRefsP sig Pipeline.Prefetch.none spec0, s.mem ((c.tc : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Pipeline.afterTail₀ cfgs dats 0 (V0 m) [hostOps1] c) s')
      isplitl [HU] <;> iassumption)
    (hQ := fun s h c => ⟨(h c).1, Pipeline.rest_of_restP Pipeline.Prefetch.none spec0 (fun k => k.elim0) c (Pipeline.afterTail₀ cfgs dats 0 (V0 m) [hostOps1] c) s (fun k => k.elim0) (h c).2.1 (h c).2.2⟩)

end Cert.KernelIdeal.Hand

end
-- ==== Proof.IFrame.lean ====
/-
  The run of the whole program (the region, then the host lines) from the body obligation and the launch, and the
  frame: the three argument arrays are inputs of the region's windows, so they end at their entry contents.
-/
import proofs.«157662_j79869211837075_2_alg».proof.Proof.IFrameBody
import proofs.«157662_j79869211837075_2_alg».proof.Proof.ILaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; every array of the region ends at what the proof data compute, every other
    unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  run_of m ρ (dats m) (fun _ => rfl) (fun _ => rfl) (fun _ => rfl) (fun _ => rfl) (A_eq m)
    (fun c => (body_obligation m c).loose) (fun _ _ => rfl) (hin m) (hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c)))⟩) (run_main m ρ)

end Cert.KernelIdeal.Hand

end
-- ==== Proof.Spec.lean ====
/-
  The value both programs compute, as one formula on the extended reals.

  For a matrix X (8192 rows of 512 entries), integer labels L and weights Wt (both 8192 x 8192):
  the squared distance of rows r and c is spelt through the Gram identity
  |X_r|^2 + |X_c|^2 - 2 <X_r, X_c>, clamped below by a small positive literal, and d(r,c) is its square root.
  A pair labelled 1 contributes d^2, a pair labelled 0 contributes max(1 - d, 0)^2, any other label nothing;
  each contribution is weighted by Wt(r,c).  The result is the sum of all weighted contributions divided by
  max(number of pairs labelled 0 or 1, 1).  Float literals are kept as the binary words both programs print.
-/
import Idealize.ShloMosaic.PureOps.Ideal

noncomputable section

namespace Cert.Contrast

open Idealize.ShloMosaic

/-- The literal 2.0. -/
def two : EReal := Ideal.ofBits .f32 0x40000000#32
/-- The clamp literal (the f32 nearest 1e-12). -/
def eps : EReal := Ideal.ofBits .f32 0x2B8CBCCC#32
/-- The literal 1.0 (the margin, and the floor of the denominator). -/
def one : EReal := Ideal.ofBits .f32 0x3F800000#32

/-- Squared norm of row r. -/
def sqn (X : Fin 8192 → Fin 512 → EReal) (r : Fin 8192) : EReal := ∑ k : Fin 512, X r k * X r k
/-- Inner product of rows r and c. -/
def gram (X : Fin 8192 → Fin 512 → EReal) (r c : Fin 8192) : EReal := ∑ k : Fin 512, X r k * X c k
/-- The clamped distance of rows r and c. -/
def dist (X : Fin 8192 → Fin 512 → EReal) (r c : Fin 8192) : EReal :=
  Ideal.sqrt (max ((sqn X r + sqn X c) - two * gram X r c) eps)
/-- Indicator of a pair labelled 1. -/
def pos (L : Fin 8192 → Fin 8192 → BitVec 32) (r c : Fin 8192) : EReal := if L r c = 1#32 then 1 else 0
/-- Indicator of a pair labelled 0. -/
def neg (L : Fin 8192 → Fin 8192 → BitVec 32) (r c : Fin 8192) : EReal := if L r c = 0#32 then 1 else 0
/-- The weighted loss of the pair (r, c). -/
def lossE (X : Fin 8192 → Fin 512 → EReal) (L : Fin 8192 → Fin 8192 → BitVec 32) (Wt : Fin 8192 → Fin 8192 → EReal)
    (r c : Fin 8192) : EReal :=
  (pos L r c * (dist X r c * dist X r c)
    + neg L r c * (max (one - dist X r c) 0 * max (one - dist X r c) 0)) * Wt r c
/-- 1 for a pair that counts (label 0 or 1), else 0. -/
def validE (L : Fin 8192 → Fin 8192 → BitVec 32) (r c : Fin 8192) : EReal := pos L r c + neg L r c
/-- Total weighted loss. -/
def lossSum (X : Fin 8192 → Fin 512 → EReal) (L : Fin 8192 → Fin 8192 → BitVec 32) (Wt : Fin 8192 → Fin 8192 → EReal) : EReal :=
  ∑ r : Fin 8192, ∑ c : Fin 8192, lossE X L Wt r c
/-- Number of pairs that count. -/
def validSum (L : Fin 8192 → Fin 8192 → BitVec 32) : EReal := ∑ r : Fin 8192, ∑ c : Fin 8192, validE L r c
/-- The result: total loss over max(count, 1). -/
def result (X : Fin 8192 → Fin 512 → EReal) (L : Fin 8192 → Fin 8192 → BitVec 32) (Wt : Fin 8192 → Fin 8192 → EReal) : EReal :=
  Ideal.div (lossSum X L Wt) (max (validSum L) one)

end Cert.Contrast

end
-- ==== Proof.SpecIdx.lean ====
/-
  The argument arrays read as functions of (row, column), and the result as a function of the arrays.
-/
import proofs.«157662_j79869211837075_2_alg».proof.Proof.Spec
import Idealize.ShloMosaic.Lib.ValueIdx

noncomputable section

namespace Cert.Contrast

open Idealize.ShloMosaic Idealize.ShloMosaic.ValueIdx

/-- The embeddings array as a function of (row, feature). -/
def Xof (x : (⟨2, ![8192, 512]⟩ : Shape).Idx → EReal) : Fin 8192 → Fin 512 → EReal := fun r k => x (ix2 r k)
/-- The label array as a function of (row, column). -/
def Lof (l : (⟨2, ![8192, 8192]⟩ : Shape).Idx → BitVec 32) : Fin 8192 → Fin 8192 → BitVec 32 := fun r c => l (ix2 r c)
/-- The weight array as a function of (row, column). -/
def Wof (w : (⟨2, ![8192, 8192]⟩ : Shape).Idx → EReal) : Fin 8192 → Fin 8192 → EReal := fun r c => w (ix2 r c)
/-- The result as a function of the three argument arrays. -/
def resultOf (x : (⟨2, ![8192, 512]⟩ : Shape).Idx → EReal) (l : (⟨2, ![8192, 8192]⟩ : Shape).Idx → BitVec 32)
    (w : (⟨2, ![8192, 8192]⟩ : Shape).Idx → EReal) : EReal :=
  result (Xof x) (Lof l) (Wof w)

end Cert.Contrast

end
-- ==== Proof.RefValue.lean ====
/-
  The reference program's result at the ideal instance is the formula of Spec.lean.

  Entry by entry the reference computes, for the pair (r, c): the two squared norms as row sums, the inner product as a
  contraction over the 512 features, the clamped distance, the two label indicators as 0/1 reals, the weighted loss and
  the indicator sum; its two total sums run over all index pairs of the 8192 x 8192 matrix, which is the double sum over
  rows and columns; the quotient by max(count, 1) is the result.
-/
import proofs.«157662_j79869211837075_2_alg».proof.Proof.Gen.ReferenceIdeal.Read
import proofs.«157662_j79869211837075_2_alg».proof.Defs
import proofs.«157662_j79869211837075_2_alg».proof.Proof.SpecIdx
import proofs.«157662_j79869211837075_2_alg».proof.Proof.Gen.Pre_finite_inputs
import Idealize.ShloMosaic.Lib.ValueIdx
import Idealize.ShloMosaic.PureOps.Ideal.Laws

noncomputable section

namespace Cert.Contrast.Ref

open Idealize.ShloMosaic Idealize.ShloMosaic.TcCoe Idealize.SL.Sem Idealize.ShloMosaic.ValueIdx
open Cert.ReferenceIdeal Cert.ReferenceIdeal.Gen Cert.ReferenceIdeal.Read

/-- A one-bit comparison word read as an unsigned number is the 0/1 indicator of the equality. -/
theorem uitofp_cmpi_eq (a b : BitVec 32) :
    FloatOps.uitofp (F := Ideal) .f32 (IntOp.cmpi .eq a b) = if a = b then (1 : EReal) else 0 := by
  show (((IntOp.cmpi .eq a b).toNat : ℝ) : EReal) = _
  unfold IntOp.cmpi
  by_cases h : a = b
  · simp [h]
  · simp [h]

/-- The row sum of squares of row r. -/
theorem sqn_at (x : FVec Ideal S8192x512 .f32) (r : Fin 8192) :
    val_main_v1 (F := Ideal) x (ix1 r) = sqn (Xof x) r := by
  rw [val_main_v1_apply]
  simp only [val_main_v0_apply, val_main_cst_apply, Ideal.ofBits_def, Ideal.mulf_def, Ideal.ofBits_zero_f32, zero_add]
  unfold sqn Xof
  refine Finset.sum_congr rfl fun k _ => ?_
  have e : idx_main_v1 (ix1 r) k = ix2 r k := funext fun a => Fin.ext (by match a with | ⟨0, _⟩ => rfl | ⟨1, _⟩ => rfl)
  rw [e]

/-- The contraction over the features of rows r and c. -/
theorem gram_at (x : FVec Ideal S8192x512 .f32) (r c : Fin 8192) :
    val_main_v8 (F := Ideal) x (ix2 r c) = gram (Xof x) r c := by
  rw [val_main_v8_apply]
  unfold gram Xof
  refine Finset.sum_congr rfl fun k _ => ?_
  rw [val_main_v7_apply]
  have el : lidx_main_v8 (ix2 r c) k = ix2 r k := funext fun a => Fin.ext (by match a with | ⟨0, _⟩ => rfl | ⟨1, _⟩ => rfl)
  have er : idx_main_v7 (ridx_main_v8 (ix2 r c) k) = ix2 c k := funext fun a => Fin.ext (by match a with | ⟨0, _⟩ => rfl | ⟨1, _⟩ => rfl)
  rw [el, er]

/-- The clamped distance of rows r and c. -/
theorem dist_at (x : FVec Ideal S8192x512 .f32) (r c : Fin 8192) :
    val_main_v14 (F := Ideal) x (ix2 r c) = dist (Xof x) r c := by
  rw [val_main_v14_apply, val_main_v13_apply, val_main_v11_apply, val_main_v6_apply, val_main_v10_apply,
    val_main_v4_apply, val_main_v5_apply, val_main_v2_apply, val_main_v3_apply, val_main_v9_apply,
    val_main_cst_0_apply, val_main_v12_apply, val_main_cst_1_apply]
  have e0 : idx_main_v2 (idx_main_v4 (ix2 r c)) = ix1 r := funext fun a => Fin.ext (by match a with | ⟨0, _⟩ => rfl)
  have e1 : idx_main_v3 (idx_main_v5 (ix2 r c)) = ix1 c := funext fun a => Fin.ext (by match a with | ⟨0, _⟩ => rfl)
  rw [e0, e1, sqn_at, sqn_at, gram_at]
  simp only [Ideal.ofBits_def, Ideal.addf_def, Ideal.subf_def, Ideal.mulf_def, Ideal.maximumf_def, Ideal.hostUnary_sqrt_def]
  rfl

/-- The indicator of a pair labelled 1. -/
theorem pos_at (l : IVec S8192x8192 32) (r c : Fin 8192) :
    val_main_v17 (F := Ideal) l (ix2 r c) = pos (Lof l) r c := by
  rw [val_main_v17_apply, val_main_v16_apply, val_main_v15_apply, val_main_c_apply]
  exact uitofp_cmpi_eq _ _

/-- The indicator of a pair labelled 0. -/
theorem neg_at (l : IVec S8192x8192 32) (r c : Fin 8192) :
    val_main_v20 (F := Ideal) l (ix2 r c) = neg (Lof l) r c := by
  rw [val_main_v20_apply, val_main_v19_apply, val_main_v18_apply, val_main_c_2_apply]
  exact uitofp_cmpi_eq _ _

/-- The margin term max(1 - d, 0). -/
theorem hinge_at (x : FVec Ideal S8192x512 .f32) (r c : Fin 8192) :
    val_main_v26 (F := Ideal) x (ix2 r c) = max (one - dist (Xof x) r c) 0 := by
  rw [val_main_v26_apply, val_main_v25_apply, val_main_v24_apply, val_main_cst_3_apply, val_main_call0_v0_apply,
    val_main_call0_cst_apply, dist_at]
  simp only [Ideal.ofBits_def, Ideal.subf_def, Ideal.maximumf_def, Ideal.ofBits_zero_f32]
  rfl

/-- The weighted loss of the pair (r, c). -/
theorem loss_at (x : FVec Ideal S8192x512 .f32) (l : IVec S8192x8192 32) (w : FVec Ideal S8192x8192 .f32) (r c : Fin 8192) :
    val_main_v30 (F := Ideal) x l w (ix2 r c) = lossE (Xof x) (Lof l) (Wof w) r c := by
  rw [val_main_v30_apply, val_main_v29_apply, val_main_v23_apply, val_main_v28_apply, val_main_v22_apply,
    val_main_v27_apply, pos_at, neg_at, dist_at, hinge_at]
  simp only [Ideal.addf_def, Ideal.mulf_def]
  rfl

/-- The count contribution of the pair (r, c). -/
theorem valid_at (l : IVec S8192x8192 32) (r c : Fin 8192) :
    val_main_v21 (F := Ideal) l (ix2 r c) = validE (Lof l) r c := by
  rw [val_main_v21_apply, pos_at, neg_at]
  rfl

/-- The reference's result is the total loss over max(count, 1): its two total sums over all index pairs are the
    double sums over rows and columns. -/
theorem result_eq (x : FVec Ideal S8192x512 .f32) (l : IVec S8192x8192 32) (w : FVec Ideal S8192x8192 .f32) :
    val_main_v34 (F := Ideal) x l w = fun _ => resultOf x l w := by
  funext i
  rw [val_main_v34_apply, val_main_v33_apply, val_main_v32_apply, val_main_v31_apply, val_main_cst_6_apply,
    val_main_cst_4_apply, val_main_cst_5_apply]
  simp only [Ideal.ofBits_def, Ideal.hostDivf_def, Ideal.maximumf_def, Ideal.ofBits_zero_f32, zero_add]
  have hl : ∑ j : S8192x8192.Idx, val_main_v30 (F := Ideal) x l w j = lossSum (Xof x) (Lof l) (Wof w) :=
    (sum_idx2 (n0 := 8192) (n1 := 8192) _).trans
      (Finset.sum_congr rfl fun r _ => Finset.sum_congr rfl fun c _ => loss_at x l w r c)
  have hv : ∑ j : S8192x8192.Idx, val_main_v21 (F := Ideal) l j = validSum (Lof l) :=
    (sum_idx2 (n0 := 8192) (n1 := 8192) _).trans
      (Finset.sum_congr rfl fun r _ => Finset.sum_congr rfl fun c _ => valid_at l r c)
  rw [hl, hv]
  rfl

/-- The reference runs and leaves its three arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's run ends with the result buffer at the formula of the three argument arrays, the arguments unchanged. -/
theorem run_result (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v34)
          = (fun _ => Cert.Contrast.resultOf
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans ((val_main_v34_eq (F := Ideal) m' c).trans (result_eq _ _ _)), (h c).2⟩)
    (Cert.ReferenceIdeal.Value.run (F := Ideal) m' g')

end Cert.Contrast.Ref

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.KernPointBasic.lean ====
/-
  The kernel body's simple stored values read at an entry, at the extended reals.

  At the first column block the body stores, for its row tile x0 (2048 rows of 512 entries): the row squared norms
  (a column [2048, 1]), the row tile itself (a format change, the identity on extended reals), and two zero tiles.
  The label masks: an equality test against the words 1 and 0, widened and converted to a float, is the indicator of
  the label being 1 (resp. 0).
-/
import proofs.«157662_j79869211837075_2_alg».proof.Proof.Gen.KernelIdeal.Skeleton
import proofs.«157662_j79869211837075_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.Contrast.Kern

open Idealize.ShloMosaic Idealize.ShloMosaic.ValueIdx Cert.KernelIdeal Cert.KernelIdeal.Gen

/-- The stored squared norms: entry (r, 0) is the sum of the squares of row r. -/
theorem pay3_apply (x0 : Vec Ideal S2048x512 .f32) (r : Fin 2048) :
    k0_pay3 (F := Ideal) x0 (ix2 r 0) = ∑ k : Fin 512, x0 (ix2 r k) * x0 (ix2 r k) := by
  unfold k0_pay3
  refine (congrFun (shapeCast_self _ _) _).trans ?_
  refine (ColumnLayout.shapeCast_a_a1_apply _ _ r 0).trans ?_
  exact ColumnLayout.rowSum_apply (mulf x0 x0) _ _ _ r

/-- The stored row tile is the row tile. -/
theorem pay4_apply (x0 : Vec Ideal S2048x512 .f32) (r : Fin 2048) (k : Fin 512) :
    k0_pay4 (F := Ideal) x0 (ix2 r k) = x0 (ix2 r k) := by
  unfold k0_pay4
  exact congrFun (shapeCast_self _ _) _

/-- The first zero tile. -/
theorem pay5_apply (y : S8x128.Idx) : k0_pay5 (F := Ideal) y = 0 := by
  unfold k0_pay5
  refine (congrFun (shapeCast_self _ _) _).trans ?_
  exact Ideal.ofBits_zero_f32

/-- The second zero tile. -/
theorem pay6_apply (y : S8x128.Idx) : k0_pay6 (F := Ideal) y = 0 := by
  unfold k0_pay6
  refine (congrFun (shapeCast_self _ _) _).trans ?_
  exact Ideal.ofBits_zero_f32

/-- An equality test of two 32-bit words, widened to 32 bits and read as a signed integer, as an extended real:
    the indicator of equality. -/
theorem indicator_word (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · subst h
    have e : ((BitVec.ofBool true).setWidth 32).toInt = 1 := by decide
    rw [beq_self_eq_true, if_pos rfl, e]
    norm_num
  · have e : ((BitVec.ofBool false).setWidth 32).toInt = 0 := by decide
    rw [beq_eq_false_iff_ne.mpr h, if_neg h, e]
    norm_num

/-- The mask of the pairs labelled 1. -/
theorem pay8_apply (lab : Vec Ideal S2048x256 .i32) (r : Fin 2048) (c : Fin 256) :
    k0_pay8 (F := Ideal) lab (ix2 r c) = if lab (ix2 r c) = 1#32 then (1 : EReal) else 0 := by
  unfold k0_pay8
  exact indicator_word (lab (ix2 r c)) 1#32

/-- The mask of the pairs labelled 0. -/
theorem pay9_apply (lab : Vec Ideal S2048x256 .i32) (r : Fin 2048) (c : Fin 256) :
    k0_pay9 (F := Ideal) lab (ix2 r c) = if lab (ix2 r c) = 0#32 then (1 : EReal) else 0 := by
  unfold k0_pay9
  exact indicator_word (lab (ix2 r c)) 0#32

/-- The mask of the pairs that count. -/
theorem pay10_apply (lab : Vec Ideal S2048x256 .i32) (r : Fin 2048) (c : Fin 256) :
    k0_pay10 (F := Ideal) lab (ix2 r c)
      = (if lab (ix2 r c) = 1#32 then (1 : EReal) else 0) + (if lab (ix2 r c) = 0#32 then (1 : EReal) else 0) := by
  unfold k0_pay10
  show k0_pay8 (F := Ideal) lab (ix2 r c) + k0_pay9 (F := Ideal) lab (ix2 r c) = _
  rw [pay8_apply, pay9_apply]

end Cert.Contrast.Kern

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.KernPointDist.lean ====
/-
  The clamped distance the kernel body computes for a tile entry, read at the extended reals.

  From the stored row tile s0 (2048 x 512), the stored row squared norms s1 (a column) and the column tile x1
  (256 x 512): entry (r, c) is the square root of max(|s0_r|^2 + |x1_c|^2 - 2 <s0_r, x1_c>, eps), where the column
  tile's squared norms are a row sum kept as a column and transposed to a row, and the inner products are the matrix
  product of s0 with the transposed column tile into a zero accumulator.
-/
import proofs.«157662_j79869211837075_2_alg».proof.Proof.Gen.KernelIdeal.Skeleton
import proofs.«157662_j79869211837075_2_alg».proof.Proof.Spec
import proofs.«157662_j79869211837075_2_alg».proof.Proof.LibColumnLayout
import proofs.«157662_j79869211837075_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.Contrast.Kern

open Idealize.ShloMosaic Idealize.ShloMosaic.ValueIdx Cert.KernelIdeal Cert.KernelIdeal.Gen

/-- The clamped distance of row r of the stored row tile and row c of the column tile. -/
def tileDist (s0 : Vec Ideal S2048x512 .bf16) (s1 : Vec Ideal S2048x1 .f32) (x1 : Vec Ideal S256x512 .f32)
    (r : Fin 2048) (c : Fin 256) : EReal :=
  Ideal.sqrt (max ((s1 (ix2 r 0) + ∑ k : Fin 512, x1 (ix2 c k) * x1 (ix2 c k))
    - Cert.Contrast.two * ∑ k : Fin 512, s0 (ix2 r k) * x1 (ix2 c k)) Cert.Contrast.eps)

/-- The stored squared norms broadcast along the columns. -/
theorem rowNorm_apply (s1 : Vec Ideal S2048x1 .f32) (r : Fin 2048) (c : Fin 256) :
    broadcastTo S2048x256 s1 broadcasts_S2048x1_S2048x256 (ix2 r c) = s1 (ix2 r 0) :=
  ColumnLayout.broadcastTo_a1_ab_apply s1 _ r c

/-- The column tile's squared norms, kept as a column, transposed to a row and broadcast along the rows. -/
theorem colNorm_apply (x1 : Vec Ideal S256x512 .f32) (r : Fin 2048) (c : Fin 256) :
    broadcastTo S2048x256
        (transpose S1x256 [1, 0]
          (shapeCast S256x1
            (multiReduction (F := Ideal) .add [1] S256 (mulf x1 x1) 0x00000000#32 reduces_S256x512_S256 (.inl rfl) rfl)
            shapeCasts_S256_S256x1)
          transposes_S256x1_p1_0_S1x256)
        broadcasts_S1x256_S2048x256 (ix2 r c)
      = ∑ k : Fin 512, x1 (ix2 c k) * x1 (ix2 c k) := by
  refine (broadcastTo_1b_ab_apply _ _ r c).trans ?_
  refine (transpose_ix2_apply _ _ (0 : Fin 1) c).trans ?_
  refine (ColumnLayout.shapeCast_a_a1_apply _ _ c 0).trans ?_
  exact ColumnLayout.rowSum_apply (mulf x1 x1) _ _ _ c

/-- The matrix product of the stored row tile with the transposed column tile into the zero accumulator. -/
theorem gram_apply (s0 : FVec Ideal S2048x512 .bf16) (x1 : FVec Ideal S256x512 .f32) (r : Fin 2048) (c : Fin 256) :
    matmul (F := Ideal) dot_S2048x512_S512x256_S2048x256_1_0_0_1_n_n none s0
        (transpose S512x256 [1, 0] (truncf .bf16 x1 bitsLt_bf16_f32) transposes_S256x512_p1_0_S512x256)
        (constant (F := Ideal) S2048x256 .f32 0x00000000#32) (ix2 r c)
      = ∑ k : Fin 512, s0 (ix2 r k) * x1 (ix2 c k) := by
  refine (PlainMatmul.matmul_zero_apply (m := 2048) (k := 512) (n := 256) none s0
    (transpose S512x256 [1, 0] (truncf .bf16 x1 bitsLt_bf16_f32) transposes_S256x512_p1_0_S512x256) r c).trans ?_
  refine Finset.sum_congr rfl fun k _ => congrArg (s0 (ix2 r k) * ·) ?_
  exact transpose_ix2_apply (truncf (F := Ideal) .bf16 x1 bitsLt_bf16_f32) _ k c

/-- The body's distance at entry (r, c). -/
theorem pay7_apply (s0 : Vec Ideal S2048x512 .bf16) (s1 : Vec Ideal S2048x1 .f32) (x1 : Vec Ideal S256x512 .f32)
    (r : Fin 2048) (c : Fin 256) :
    k0_pay7 (F := Ideal) x1 s0 s1 (ix2 r c) = tileDist s0 s1 x1 r c := by
  unfold k0_pay7 tileDist
  exact congrArg Ideal.sqrt (congrArg₂ max
    (congrArg₂ (· - ·) (congrArg₂ (· + ·) (rowNorm_apply s1 r c) (colNorm_apply x1 r c))
      (congrArg (Cert.Contrast.two * ·) (gram_apply s0 x1 r c))) rfl)

end Cert.Contrast.Kern

end
-- ==== Proof.LibRowLayout.lean ====
/-
  Row layouts and column reductions read at an index.

  A reduction along the FIRST axis of a rank-2 array with `keepdims` leaves a row: the reduced vector `[b]` is cast to
  `[1, b]` and broadcast back to `[a, b]`, so entry `(p, c)` of the broadcast is entry `c` of the reduced vector. The
  reduction itself, over the first axis of an `[a, b]` array and read at column `q`, is the sum over that column's
  entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.RowLayout

open Idealize.ShloMosaic Idealize.ShloMosaic.ValueIdx

variable {α : Type}

/-- A reduced vector `[b]` kept as the row `[1, b]` and broadcast back along the columns reads, at `(p, c)`, the
    vector's entry `c`, whatever the row `p`. -/
theorem keepdimsRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A float sum over the first axis of an `[a, b]` array from the zero word, read at column `q` at the extended reals: the
    sum of the column's entries. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec FTy.f32.bits) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

end Idealize.ShloMosaic.RowLayout

end
-- ==== Proof.KernPointTile.lean ====
/-
  The kernel body's two accumulator updates at one grid point, read at the extended reals.

  Each update adds to the accumulator's old entry the sum over the 2048 x 256 tile of an entrywise value: lane sums
  along the columns, kept as a column, then summed along the rows, from zero words. For the loss accumulator the entry
  is the weighted loss of the pair (row r of the stored row tile, row c of the column tile); for the count accumulator
  it is the indicator that the pair's label is 0 or 1.
-/
import proofs.«157662_j79869211837075_2_alg».proof.Proof.KernPointBasic
import proofs.«157662_j79869211837075_2_alg».proof.Proof.KernPointDist
import proofs.«157662_j79869211837075_2_alg».proof.Proof.LibRowLayout

noncomputable section

namespace Cert.Contrast.Kern

open Idealize.ShloMosaic Idealize.ShloMosaic.ValueIdx Cert.KernelIdeal Cert.KernelIdeal.Gen

/-- The weighted loss of tile entry (r, c): the pair (row r of the stored row tile, row c of the column tile). -/
def tileEntry (s0 : Vec Ideal S2048x512 .bf16) (s1 : Vec Ideal S2048x1 .f32) (x1 : Vec Ideal S256x512 .f32)
    (lab : Vec Ideal S2048x256 .i32) (wt : Vec Ideal S2048x256 .f32) (r : Fin 2048) (c : Fin 256) : EReal :=
  ((if lab (ix2 r c) = 1#32 then (1 : EReal) else 0) * (tileDist s0 s1 x1 r c * tileDist s0 s1 x1 r c)
    + (if lab (ix2 r c) = 0#32 then (1 : EReal) else 0)
      * (max (Cert.Contrast.one - tileDist s0 s1 x1 r c) 0 * max (Cert.Contrast.one - tileDist s0 s1 x1 r c) 0))
    * wt (ix2 r c)

/-- The indicator that tile entry (r, c) counts: its label is 0 or 1. -/
def tileValid (lab : Vec Ideal S2048x256 .i32) (r : Fin 2048) (c : Fin 256) : EReal :=
  (if lab (ix2 r c) = 1#32 then (1 : EReal) else 0) + (if lab (ix2 r c) = 0#32 then (1 : EReal) else 0)

/-- The positive part: the mask of label 1 times the squared distance. -/
theorem pay11_apply (s0 : Vec Ideal S2048x512 .bf16) (s1 : Vec Ideal S2048x1 .f32) (x1 : Vec Ideal S256x512 .f32)
    (lab : Vec Ideal S2048x256 .i32) (r : Fin 2048) (c : Fin 256) :
    k0_pay11 (F := Ideal) x1 s0 s1 lab (ix2 r c)
      = (if lab (ix2 r c) = 1#32 then (1 : EReal) else 0) * (tileDist s0 s1 x1 r c * tileDist s0 s1 x1 r c) := by
  unfold k0_pay11
  show k0_pay8 (F := Ideal) lab (ix2 r c)
    * (k0_pay7 (F := Ideal) x1 s0 s1 (ix2 r c) * k0_pay7 (F := Ideal) x1 s0 s1 (ix2 r c)) = _
  rw [pay8_apply, pay7_apply]

/-- The margin minus the distance. -/
theorem pay12_apply (s0 : Vec Ideal S2048x512 .bf16) (s1 : Vec Ideal S2048x1 .f32) (x1 : Vec Ideal S256x512 .f32)
    (r : Fin 2048) (c : Fin 256) :
    k0_pay12 (F := Ideal) x1 s0 s1 (ix2 r c) = Cert.Contrast.one - tileDist s0 s1 x1 r c := by
  unfold k0_pay12
  show Cert.Contrast.one - k0_pay7 (F := Ideal) x1 s0 s1 (ix2 r c) = _
  rw [pay7_apply]

/-- The entrywise value the loss accumulator sums. -/
theorem lossEntry_apply (s0 : Vec Ideal S2048x512 .bf16) (s1 : Vec Ideal S2048x1 .f32) (x1 : Vec Ideal S256x512 .f32)
    (lab : Vec Ideal S2048x256 .i32) (wt : Vec Ideal S2048x256 .f32) (r : Fin 2048) (c : Fin 256) :
    mulf (addf (k0_pay11 (F := Ideal) x1 s0 s1 lab)
        (mulf (k0_pay9 (F := Ideal) lab)
          (mulf (maximumf (k0_pay12 (F := Ideal) x1 s0 s1) (broadcast S2048x256 (Scalar.ofBits (F := Ideal) .f32 0x00000000#32)))
            (maximumf (k0_pay12 (F := Ideal) x1 s0 s1) (broadcast S2048x256 (Scalar.ofBits (F := Ideal) .f32 0x00000000#32))))))
      wt (ix2 r c) = tileEntry s0 s1 x1 lab wt r c := by
  show (k0_pay11 (F := Ideal) x1 s0 s1 lab (ix2 r c)
      + k0_pay9 (F := Ideal) lab (ix2 r c)
        * (max (k0_pay12 (F := Ideal) x1 s0 s1 (ix2 r c)) (Ideal.ofBits .f32 0x00000000#32)
          * max (k0_pay12 (F := Ideal) x1 s0 s1 (ix2 r c)) (Ideal.ofBits .f32 0x00000000#32)))
      * wt (ix2 r c) = _
  rw [pay11_apply, pay9_apply, pay12_apply, Ideal.ofBits_zero_f32]
  rfl

/-- An accumulator update: the old entry plus the sum of a 2048 x 256 array, summed along the columns, kept as a
    column, summed along the rows, all from zero words. -/
theorem accum_apply (w : FVec Ideal S2048x256 .f32) (v : Vec Ideal S1x1 .f32) :
    shapeCast S1x1
        (addf v
          (shapeCast S1x1
            (multiReduction (F := Ideal) .add [0] S1
              (shapeCast S2048x1
                (multiReduction (F := Ideal) .add [1] S2048 w 0x00000000#32 reduces_S2048x256_S2048 (.inl rfl) rfl)
                shapeCasts_S2048_S2048x1)
              0x00000000#32 reduces_S2048x1_S1 (.inl rfl) rfl)
            shapeCasts_S1_S1x1))
        shapeCasts_S1x1_S1x1 (ix2 0 0)
      = v (ix2 0 0) + ∑ r : Fin 2048, ∑ c : Fin 256, w (ix2 r c) := by
  refine (congrFun (shapeCast_self _ _) _).trans ?_
  refine congrArg (v (ix2 0 0) + ·) ?_
  refine (ColumnLayout.shapeCast_a_a1_apply _ _ (0 : Fin 1) (0 : Fin 1)).trans ?_
  refine (RowLayout.colSum_apply (a := 2048) (b := 1) _ _ _ _ (0 : Fin 1)).trans ?_
  refine Finset.sum_congr rfl fun r _ => ?_
  refine (ColumnLayout.shapeCast_a_a1_apply _ _ r (0 : Fin 1)).trans ?_
  exact ColumnLayout.rowSum_apply w _ _ _ r

/-- The loss accumulator's update at a grid point. -/
theorem pay1_apply (s0 : Vec Ideal S2048x512 .bf16) (s1 : Vec Ideal S2048x1 .f32) (x1 : Vec Ideal S256x512 .f32)
    (lab : Vec Ideal S2048x256 .i32) (wt : Vec Ideal S2048x256 .f32) (v51 : Vec Ideal S1x1 .f32) :
    k0_pay1 (F := Ideal) wt (k0_pay9 lab) (k0_pay11 x1 s0 s1 lab) (k0_pay12 x1 s0 s1)
        (Scalar.ofBits .f32 0x00000000#32) v51 (ix2 0 0)
      = v51 (ix2 0 0) + ∑ r : Fin 2048, ∑ c : Fin 256, tileEntry s0 s1 x1 lab wt r c := by
  unfold k0_pay1
  refine (accum_apply _ v51).trans ?_
  refine congrArg (v51 (ix2 0 0) + ·) ?_
  exact Finset.sum_congr rfl fun r _ => Finset.sum_congr rfl fun c _ => lossEntry_apply s0 s1 x1 lab wt r c

/-- The count accumulator's update at a grid point. -/
theorem pay2_apply (lab : Vec Ideal S2048x256 .i32) (v56 : Vec Ideal S1x1 .f32) :
    k0_pay2 (F := Ideal) (k0_pay10 lab) v56 (ix2 0 0)
      = v56 (ix2 0 0) + ∑ r : Fin 2048, ∑ c : Fin 256,
          ((if lab (ix2 r c) = 1#32 then (1 : EReal) else 0) + (if lab (ix2 r c) = 0#32 then (1 : EReal) else 0)) := by
  unfold k0_pay2
  refine (accum_apply _ v56).trans ?_
  refine congrArg (v56 (ix2 0 0) + ·) ?_
  exact Finset.sum_congr rfl fun r _ => Finset.sum_congr rfl fun c _ => pay10_apply lab r c

end Cert.Contrast.Kern

end
-- ==== Proof.KernPointSpec.lean ====
/-
  A tile entry against the specification.

  Row block i (of 4) holds rows 2048 i .. 2048 i + 2047, column block j (of 32) holds columns 256 j .. 256 j + 255. When
  the stored row tile, the stored squared norms, the column tile, the labels and the weights are the corresponding
  blocks of X, of X's row squared norms, of X again, of L and of Wt, the tile's entry (r, c) is the specification's
  weighted loss of the pair (2048 i + r, 256 j + c), and its count indicator is the specification's.
-/
import proofs.«157662_j79869211837075_2_alg».proof.Proof.KernPointTile

noncomputable section

namespace Cert.Contrast.Kern

open Idealize.ShloMosaic Idealize.ShloMosaic.ValueIdx Cert.KernelIdeal Cert.KernelIdeal.Gen

/-- Row r of row block i. -/
abbrev rowOf (i : Fin 4) (r : Fin 2048) : Fin 8192 := ⟨2048 * i.val + r.val, by have := i.isLt; have := r.isLt; omega⟩
/-- Column c of column block j. -/
abbrev colOf (j : Fin 32) (c : Fin 256) : Fin 8192 := ⟨256 * j.val + c.val, by have := j.isLt; have := c.isLt; omega⟩

/-- The tile's distance is the specification's. -/
theorem tileDist_eq_spec (X : Fin 8192 → Fin 512 → EReal) (i : Fin 4) (j : Fin 32)
    (s0 : Vec Ideal S2048x512 .bf16) (s1 : Vec Ideal S2048x1 .f32) (x1 : Vec Ideal S256x512 .f32)
    (hs0 : ∀ r k, s0 (ix2 r k) = X (rowOf i r) k)
    (hs1 : ∀ r, s1 (ix2 r 0) = Cert.Contrast.sqn X (rowOf i r))
    (hx1 : ∀ c k, x1 (ix2 c k) = X (colOf j c) k)
    (r : Fin 2048) (c : Fin 256) :
    tileDist s0 s1 x1 r c = Cert.Contrast.dist X (rowOf i r) (colOf j c) := by
  unfold tileDist Cert.Contrast.dist Cert.Contrast.gram
  rw [hs1 r]
  have e1 : (∑ k : Fin 512, x1 (ix2 c k) * x1 (ix2 c k)) = Cert.Contrast.sqn X (colOf j c) :=
    Finset.sum_congr rfl fun k _ => by rw [hx1 c k]
  have e2 : (∑ k : Fin 512, s0 (ix2 r k) * x1 (ix2 c k)) = ∑ k : Fin 512, X (rowOf i r) k * X (colOf j c) k :=
    Finset.sum_congr rfl fun k _ => by rw [hs0 r k, hx1 c k]
  rw [e1, e2]

/-- The tile's entry is the specification's weighted loss of the pair. -/
theorem tile_eq_spec (X : Fin 8192 → Fin 512 → EReal) (L : Fin 8192 → Fin 8192 → BitVec 32)
    (Wt : Fin 8192 → Fin 8192 → EReal) (i : Fin 4) (j : Fin 32)
    (s0 : Vec Ideal S2048x512 .bf16) (s1 : Vec Ideal S2048x1 .f32) (x1 : Vec Ideal S256x512 .f32)
    (lab : Vec Ideal S2048x256 .i32) (wt : Vec Ideal S2048x256 .f32)
    (hs0 : ∀ r k, s0 (ix2 r k) = X (rowOf i r) k)
    (hs1 : ∀ r, s1 (ix2 r 0) = Cert.Contrast.sqn X (rowOf i r))
    (hx1 : ∀ c k, x1 (ix2 c k) = X (colOf j c) k)
    (hlab : ∀ r c, lab (ix2 r c) = L (rowOf i r) (colOf j c))
    (hwt : ∀ r c, wt (ix2 r c) = Wt (rowOf i r) (colOf j c))
    (r : Fin 2048) (c : Fin 256) :
    tileEntry s0 s1 x1 lab wt r c = Cert.Contrast.lossE X L Wt (rowOf i r) (colOf j c) := by
  unfold tileEntry Cert.Contrast.lossE Cert.Contrast.pos Cert.Contrast.neg
  rw [tileDist_eq_spec X i j s0 s1 x1 hs0 hs1 hx1 r c, hlab r c, hwt r c]

/-- The tile's count indicator is the specification's. -/
theorem tileValid_eq_spec (L : Fin 8192 → Fin 8192 → BitVec 32) (i : Fin 4) (j : Fin 32)
    (lab : Vec Ideal S2048x256 .i32)
    (hlab : ∀ r c, lab (ix2 r c) = L (rowOf i r) (colOf j c)) (r : Fin 2048) (c : Fin 256) :
    ((if lab (ix2 r c) = 1#32 then (1 : EReal) else 0) + (if lab (ix2 r c) = 0#32 then (1 : EReal) else 0))
      = Cert.Contrast.validE L (rowOf i r) (colOf j c) := by
  unfold Cert.Contrast.validE Cert.Contrast.pos Cert.Contrast.neg
  rw [hlab r c]

/-- The loss accumulator's update at grid point (i, j), in the specification's terms: the old entry plus the sum of the
    specification's weighted losses over the pairs of the tile. -/
theorem pay1_spec (X : Fin 8192 → Fin 512 → EReal) (L : Fin 8192 → Fin 8192 → BitVec 32)
    (Wt : Fin 8192 → Fin 8192 → EReal) (i : Fin 4) (j : Fin 32)
    (s0 : Vec Ideal S2048x512 .bf16) (s1 : Vec Ideal S2048x1 .f32) (x1 : Vec Ideal S256x512 .f32)
    (lab : Vec Ideal S2048x256 .i32) (wt : Vec Ideal S2048x256 .f32) (v51 : Vec Ideal S1x1 .f32)
    (hs0 : ∀ r k, s0 (ix2 r k) = X (rowOf i r) k)
    (hs1 : ∀ r, s1 (ix2 r 0) = Cert.Contrast.sqn X (rowOf i r))
    (hx1 : ∀ c k, x1 (ix2 c k) = X (colOf j c) k)
    (hlab : ∀ r c, lab (ix2 r c) = L (rowOf i r) (colOf j c))
    (hwt : ∀ r c, wt (ix2 r c) = Wt (rowOf i r) (colOf j c)) :
    k0_pay1 (F := Ideal) wt (k0_pay9 lab) (k0_pay11 x1 s0 s1 lab) (k0_pay12 x1 s0 s1)
        (Scalar.ofBits .f32 0x00000000#32) v51 (ix2 0 0)
      = v51 (ix2 0 0) + ∑ r : Fin 2048, ∑ c : Fin 256, Cert.Contrast.lossE X L Wt (rowOf i r) (colOf j c) := by
  refine (pay1_apply s0 s1 x1 lab wt v51).trans (congrArg (v51 (ix2 0 0) + ·) ?_)
  exact Finset.sum_congr rfl fun r _ => Finset.sum_congr rfl fun c _ =>
    tile_eq_spec X L Wt i j s0 s1 x1 lab wt hs0 hs1 hx1 hlab hwt r c

/-- The count accumulator's update at grid point (i, j), in the specification's terms. -/
theorem pay2_spec (L : Fin 8192 → Fin 8192 → BitVec 32) (i : Fin 4) (j : Fin 32)
    (lab : Vec Ideal S2048x256 .i32) (v56 : Vec Ideal S1x1 .f32)
    (hlab : ∀ r c, lab (ix2 r c) = L (rowOf i r) (colOf j c)) :
    k0_pay2 (F := Ideal) (k0_pay10 lab) v56 (ix2 0 0)
      = v56 (ix2 0 0) + ∑ r : Fin 2048, ∑ c : Fin 256, Cert.Contrast.validE L (rowOf i r) (colOf j c) := by
  refine (pay2_apply lab v56).trans (congrArg (v56 (ix2 0 0) + ·) ?_)
  exact Finset.sum_congr rfl fun r _ => Finset.sum_congr rfl fun c _ => tileValid_eq_spec L i j lab hlab r c

/-- The stored squared norms at the first column block are the specification's, when the row tile is X's block. -/
theorem pay3_spec (X : Fin 8192 → Fin 512 → EReal) (i : Fin 4) (x0 : Vec Ideal S2048x512 .f32)
    (hx0 : ∀ r k, x0 (ix2 r k) = X (rowOf i r) k) (r : Fin 2048) :
    k0_pay3 (F := Ideal) x0 (ix2 r 0) = Cert.Contrast.sqn X (rowOf i r) := by
  refine (pay3_apply x0 r).trans ?_
  exact Finset.sum_congr rfl fun k _ => by rw [hx0 r k]

end Cert.Contrast.Kern

end
-- ==== Proof.IValuePiecesBase.lean ====
/-
  Reading an 8 x 128 accumulator tile after a store into its entry [0,0].

  The newest store covers the single entry [0,0]: that entry reads the stored 1 x 1 value, every other entry reads what
  the earlier stores (or the previous contents) left.
-/
import proofs.«157662_j79869211837075_2_alg».proof.Proof.IFrameData
import proofs.«157662_j79869211837075_2_alg».proof.Proof.KernPointSpec
import Idealize.ShloMosaic.Lib.WritesUnit
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- Entry [0,0] of an 8 x 128 tile, loaded as a 1 x 1 vector. -/
def old11 (X : Vec F S8x128 .f32) : Vec F S1x1 .f32 :=
  View.ld X (Rect.unit (s := S8x128) ![0, 0] S1x1.size inb_S8x128_S1x1_0_0)

/-- Its one entry is the tile's entry [0,0]. -/
theorem old11_apply (X : Vec F S8x128 .f32) : old11 X (ix2 0 0) = X (ix2 0 0) := by
  unfold old11
  show X _ = X _
  refine congrArg X (funext fun a => Fin.ext ?_)
  match a with
  | ⟨0, _⟩ => rfl
  | ⟨1, _⟩ => rfl

/-- A tile read after a newest store into entry [0,0]. -/
theorem read_entry_cons {κ : Kind} {sp : Space} (v : View sig κ sp S8x128 .f32) (f : v.ty.Contents (Elt F))
    (w : Vec F S1x1 .f32) (L : List (View.Piece (Elt F) S8x128 .f32)) (a : Fin 8) (b : Fin 128) :
    v.read (Elt F) (v.writes (Elt F) f
        ((⟨Rect.unit ![0, 0] S1x1.size inb_S8x128_S1x1_0_0, w⟩ : View.Piece (Elt F) S8x128 .f32) :: L)) (ix2 a b)
      = if a.val = 0 ∧ b.val = 0 then w (ix2 0 0) else v.read (Elt F) (v.writes (Elt F) f L) (ix2 a b) := by
  by_cases h : a.val = 0 ∧ b.val = 0
  · rw [if_pos h]
    obtain ⟨ha, hb⟩ := h
    obtain rfl : a = 0 := Fin.ext ha
    obtain rfl : b = 0 := Fin.ext hb
    exact View.read_writes_cons_unit_of_mem v f inb_S8x128_S1x1_0_0 w L (ix2 0 0) (ix2 0 0) rfl
      (fun ax => by match ax with | ⟨0, _⟩ => rfl | ⟨1, _⟩ => rfl)
  · rw [if_neg h]
    by_cases ha : a.val = 0
    · exact View.read_writes_cons_unit_of_not_mem v f inb_S8x128_S1x1_0_0 w L (ix2 a b) rfl (1 : Fin 2)
        (Or.inr (by show 0 + 1 ≤ b.val; omega))
    · exact View.read_writes_cons_unit_of_not_mem v f inb_S8x128_S1x1_0_0 w L (ix2 a b) rfl (0 : Fin 2)
        (Or.inr (by show 0 + 1 ≤ a.val; omega))

/-- A tile whose previous contents were X, read after one store into entry [0,0]. -/
theorem read_entry_one (M : Memref sig .tc .vmem S8x128 .f32) (hM : M.IsWhole) (X : Vec F S8x128 .f32)
    (w : Vec F S1x1 .f32) (a : Fin 8) (b : Fin 128) :
    M.view.read (Elt F) (M.view.writes (Elt F) (hM.unread X)
        [(⟨Rect.unit ![0, 0] S1x1.size inb_S8x128_S1x1_0_0, w⟩ : View.Piece (Elt F) S8x128 .f32)]) (ix2 a b)
      = if a.val = 0 ∧ b.val = 0 then w (ix2 0 0) else X (ix2 a b) := by
  refine (read_entry_cons M.view (hM.unread X) w [] a b).trans ?_
  rw [View.writes_nil, hM.read_unread]

/-- A tile read after a store of the whole tile followed by a store into entry [0,0]. -/
theorem read_entry_two {κ : Kind} {sp : Space} (v : View sig κ sp S8x128 .f32) (f : v.ty.Contents (Elt F))
    (w : Vec F S1x1 .f32) (z : Vec F S8x128 .f32) (a : Fin 8) (b : Fin 128) :
    v.read (Elt F) (v.writes (Elt F) f
        [(⟨Rect.unit ![0, 0] S1x1.size inb_S8x128_S1x1_0_0, w⟩ : View.Piece (Elt F) S8x128 .f32),
         (⟨Rect.unit ![0, 0] S8x128.size inb_S8x128_S8x128_0_0, z⟩ : View.Piece (Elt F) S8x128 .f32)]) (ix2 a b)
      = if a.val = 0 ∧ b.val = 0 then w (ix2 0 0) else z (ix2 a b) := by
  refine (read_entry_cons v f w _ a b).trans ?_
  have e : v.read (Elt F) (v.writes (Elt F) f
      [(⟨Rect.unit ![0, 0] S8x128.size inb_S8x128_S8x128_0_0, z⟩ : View.Piece (Elt F) S8x128 .f32)]) (ix2 a b) = z (ix2 a b) :=
    View.read_writes_cons_unit_of_mem v f inb_S8x128_S8x128_0_0 z [] (ix2 a b) (ix2 a b) rfl
      (fun ax => by match ax with | ⟨0, _⟩ => exact (Nat.zero_add _).symm | ⟨1, _⟩ => exact (Nat.zero_add _).symm)
  rw [e]

/-- A buffer read after one store of its whole contents. -/
theorem read_whole_one {κ : Kind} {sp : Space} {S : Shape} {e : EltTy} (v : View sig κ sp S e) (f : v.ty.Contents (Elt F))
    {off : Fin S.rank → Nat} (h : off = fun _ => 0) (inb : ∀ a, off a + S.size a ≤ S.size a) (z : S.Idx → Elt F e) :
    v.read (Elt F) (v.writes (Elt F) f [(⟨Rect.unit off S.size inb, z⟩ : View.Piece (Elt F) S e)]) = z := by
  subst h
  funext y
  exact View.read_writes_cons_unit_of_mem v f inb z [] y y rfl (fun ax => (Nat.zero_add _).symm)

end Cert.KernelIdeal.Hand

end
-- ==== Proof.IValuePiecesA.lean ====
/-
  What a first column block leaves in the four scratch buffers: the row tile, its squared norms, and the two
  accumulators restarted — zero everywhere except entry [0,0], which holds the update's value computed from the point's
  blocks, the freshly stored row tile and norms, and the zero just stored.
-/
import proofs.«157662_j79869211837075_2_alg».proof.Proof.IValuePiecesBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stored row tile. -/
theorem outA_s0 (c : Dev nD) (t : Fin cfg0.N) (h0 : t.val % 32 = 0) (h1 : ¬t.val % 32 = 31) :
    (outA m c t h0 h1).2.2.1 = k0_pay4 (iblk m c 0 t) := by
  unfold outA
  dsimp only
  unfold runA kernelRun0_A
  dsimp only
  sl_unfold_words
  refine (read_whole_one VS0_0 _ hz2 inb_S2048x512_S2048x512_0_0 _).trans ?_
  simp only [View.readAt_eq_ld, Memref.IsWhole.read_unread, View.ld_unit_zero (S := S2048x512) hz2]

/-- The stored squared norms. -/
theorem outA_s1 (c : Dev nD) (t : Fin cfg0.N) (h0 : t.val % 32 = 0) (h1 : ¬t.val % 32 = 31) :
    (outA m c t h0 h1).2.2.2.1 = k0_pay3 (iblk m c 0 t) := by
  unfold outA
  dsimp only
  unfold runA kernelRun0_A
  dsimp only
  sl_unfold_words
  refine (read_whole_one VS0_1 _ hz2 inb_S2048x1_S2048x1_0_0 _).trans ?_
  simp only [View.readAt_eq_ld, Memref.IsWhole.read_unread, View.ld_unit_zero (S := S2048x512) hz2]

/-- The loss accumulator after a first point. -/
theorem outA_s2 (c : Dev nD) (t : Fin cfg0.N) (h0 : t.val % 32 = 0) (h1 : ¬t.val % 32 = 31) (a : Fin 8) (b : Fin 128) :
    (outA m c t h0 h1).2.2.2.2.1 (ix2 a b)
      = if a.val = 0 ∧ b.val = 0 then
          k0_pay1 (iblk m c 3 t) (k0_pay9 (iblk m c 2 t))
            (k0_pay11 (iblk m c 1 t) (k0_pay4 (iblk m c 0 t)) (k0_pay3 (iblk m c 0 t)) (iblk m c 2 t))
            (k0_pay12 (iblk m c 1 t) (k0_pay4 (iblk m c 0 t)) (k0_pay3 (iblk m c 0 t)))
            (Scalar.ofBits .f32 0x00000000#32) (old11 k0_pay5) (ix2 0 0)
        else k0_pay5 (F := F) (ix2 a b) := by
  unfold outA
  dsimp only
  unfold runA kernelRun0_A
  dsimp only
  sl_unfold_words
  refine (read_entry_two VS0_2 _ _ _ a b).trans ?_
  simp only [View.readAt_eq_ld, Memref.IsWhole.read_unread, View.ld_unit_zero (S := S2048x256) hz2,
    View.ld_unit_zero (S := S256x512) hz2, View.ld_unit_zero (S := S2048x512) hz2, View.ld_unit_zero (S := S2048x1) hz2,
    View.readCov_unit_zero (S := S2048x512) _ hz2, View.readCov_unit_zero (S := S2048x1) _ hz2]
  simp only [View.readCov_eq_canon', View.canon_unit_zero (S := S8x128) hz2]
  rfl

/-- The count accumulator after a first point. -/
theorem outA_s3 (c : Dev nD) (t : Fin cfg0.N) (h0 : t.val % 32 = 0) (h1 : ¬t.val % 32 = 31) (a : Fin 8) (b : Fin 128) :
    (outA m c t h0 h1).2.2.2.2.2 (ix2 a b)
      = if a.val = 0 ∧ b.val = 0 then k0_pay2 (k0_pay10 (iblk m c 2 t)) (old11 k0_pay6) (ix2 0 0)
        else k0_pay6 (F := F) (ix2 a b) := by
  unfold outA
  dsimp only
  unfold runA kernelRun0_A
  dsimp only
  sl_unfold_words
  refine (read_entry_two VS0_3 _ _ _ a b).trans ?_
  simp only [View.readAt_eq_ld, Memref.IsWhole.read_unread, View.ld_unit_zero (S := S2048x256) hz2,
    View.ld_unit_zero (S := S256x512) hz2, View.ld_unit_zero (S := S2048x512) hz2, View.ld_unit_zero (S := S2048x1) hz2,
    View.readCov_unit_zero (S := S2048x512) _ hz2, View.readCov_unit_zero (S := S2048x1) _ hz2]
  simp only [View.readCov_eq_canon', View.canon_unit_zero (S := S8x128) hz2]
  rfl

end Cert.KernelIdeal.Hand

end
-- ==== Proof.IValuePiecesB.lean ====
/-
  What a middle column block leaves in the two accumulators: entry [0,0] holds the update's value computed from the
  point's blocks, the stored row tile and norms, and the old entry; every other entry is unchanged.
-/
import proofs.«157662_j79869211837075_2_alg».proof.Proof.IValuePiecesBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The loss accumulator after a middle point. -/
theorem outB_s2 (c : Dev nD) (t : Fin cfg0.N) (h0 : ¬t.val % 32 = 0) (h1 : ¬t.val % 32 = 31) (p : Outs F)
    (a : Fin 8) (b : Fin 128) :
    (outB m c t h0 h1 p).2.2.2.2.1 (ix2 a b)
      = if a.val = 0 ∧ b.val = 0 then
          k0_pay1 (iblk m c 3 t) (k0_pay9 (iblk m c 2 t)) (k0_pay11 (iblk m c 1 t) p.2.2.1 p.2.2.2.1 (iblk m c 2 t))
            (k0_pay12 (iblk m c 1 t) p.2.2.1 p.2.2.2.1) (Scalar.ofBits .f32 0x00000000#32) (old11 p.2.2.2.2.1) (ix2 0 0)
        else p.2.2.2.2.1 (ix2 a b) := by
  unfold outB
  dsimp only
  unfold runB kernelRun0_B
  dsimp only
  sl_unfold_words
  refine (read_entry_one scM0_2 hsc0_2 _ _ a b).trans ?_
  simp only [View.readAt_eq_ld, Memref.IsWhole.read_unread, View.ld_unit_zero (S := S2048x256) hz2,
    View.ld_unit_zero (S := S256x512) hz2, View.ld_unit_zero (S := S2048x512) hz2, View.ld_unit_zero (S := S2048x1) hz2]
  have e0 : View.read (Elt F) (View.whole cc0_scratch0 : View sig .tc .vmem S2048x512 .bf16) (hsc0_0.unread p.2.2.1) = p.2.2.1 :=
    hsc0_0.read_unread _
  have e1 : View.read (Elt F) (View.whole cc0_scratch1 : View sig .tc .vmem S2048x1 .f32) (hsc0_1.unread p.2.2.2.1) = p.2.2.2.1 :=
    hsc0_1.read_unread _
  have e2 : View.read (Elt F) (View.whole cc0_scratch2 : View sig .tc .vmem S8x128 .f32) (hsc0_2.unread p.2.2.2.2.1) = p.2.2.2.2.1 :=
    hsc0_2.read_unread _
  rw [e0, e1, e2]
  rfl

/-- The count accumulator after a middle point. -/
theorem outB_s3 (c : Dev nD) (t : Fin cfg0.N) (h0 : ¬t.val % 32 = 0) (h1 : ¬t.val % 32 = 31) (p : Outs F)
    (a : Fin 8) (b : Fin 128) :
    (outB m c t h0 h1 p).2.2.2.2.2 (ix2 a b)
      = if a.val = 0 ∧ b.val = 0 then k0_pay2 (k0_pay10 (iblk m c 2 t)) (old11 p.2.2.2.2.2) (ix2 0 0)
        else p.2.2.2.2.2 (ix2 a b) := by
  unfold outB
  dsimp only
  unfold runB kernelRun0_B
  dsimp only
  sl_unfold_words
  refine (read_entry_one scM0_3 hsc0_3 _ _ a b).trans ?_
  simp only [View.readAt_eq_ld, Memref.IsWhole.read_unread, View.ld_unit_zero (S := S2048x256) hz2,
    View.ld_unit_zero (S := S256x512) hz2, View.ld_unit_zero (S := S2048x512) hz2, View.ld_unit_zero (S := S2048x1) hz2]
  have e3 : View.read (Elt F) (View.whole cc0_scratch3 : View sig .tc .vmem S8x128 .f32) (hsc0_3.unread p.2.2.2.2.2) = p.2.2.2.2.2 :=
    hsc0_3.read_unread _
  rw [e3]
  rfl

/-- The row tile and its norms are left as they were. -/
theorem outB_s0 (c : Dev nD) (t : Fin cfg0.N) (h0 : ¬t.val % 32 = 0) (h1 : ¬t.val % 32 = 31) (p : Outs F) :
    (outB m c t h0 h1 p).2.2.1 = p.2.2.1 := rfl
theorem outB_s1 (c : Dev nD) (t : Fin cfg0.N) (h0 : ¬t.val % 32 = 0) (h1 : ¬t.val % 32 = 31) (p : Outs F) :
    (outB m c t h0 h1 p).2.2.2.1 = p.2.2.2.1 := rfl

end Cert.KernelIdeal.Hand

end
-- ==== Proof.IValuePiecesC.lean ====
/-
  What a last column block leaves: the accumulators as after a middle point, and the two output blocks at the
  accumulators' new contents (the whole tiles are loaded after the update and stored out).
-/
import proofs.«157662_j79869211837075_2_alg».proof.Proof.IValuePiecesBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The loss accumulator after a last point. -/
theorem outC_s2 (c : Dev nD) (t : Fin cfg0.N) (h0 : ¬t.val % 32 = 0) (h1 : t.val % 32 = 31) (p : Outs F)
    (a : Fin 8) (b : Fin 128) :
    (outC m c t h0 h1 p).2.2.2.2.1 (ix2 a b)
      = if a.val = 0 ∧ b.val = 0 then
          k0_pay1 (iblk m c 3 t) (k0_pay9 (iblk m c 2 t)) (k0_pay11 (iblk m c 1 t) p.2.2.1 p.2.2.2.1 (iblk m c 2 t))
            (k0_pay12 (iblk m c 1 t) p.2.2.1 p.2.2.2.1) (Scalar.ofBits .f32 0x00000000#32) (old11 p.2.2.2.2.1) (ix2 0 0)
        else p.2.2.2.2.1 (ix2 a b) := by
  unfold outC
  dsimp only
  unfold runC kernelRun0_C
  dsimp only
  sl_unfold_words
  refine (read_entry_one scM0_2 hsc0_2 _ _ a b).trans ?_
  simp only [View.readAt_eq_ld, Memref.IsWhole.read_unread, View.ld_unit_zero (S := S2048x256) hz2,
    View.ld_unit_zero (S := S256x512) hz2, View.ld_unit_zero (S := S2048x512) hz2, View.ld_unit_zero (S := S2048x1) hz2]
  have e0 : View.read (Elt F) (View.whole cc0_scratch0 : View sig .tc .vmem S2048x512 .bf16) (hsc0_0.unread p.2.2.1) = p.2.2.1 :=
    hsc0_0.read_unread _
  have e1 : View.read (Elt F) (View.whole cc0_scratch1 : View sig .tc .vmem S2048x1 .f32) (hsc0_1.unread p.2.2.2.1) = p.2.2.2.1 :=
    hsc0_1.read_unread _
  have e2 : View.read (Elt F) (View.whole cc0_scratch2 : View sig .tc .vmem S8x128 .f32) (hsc0_2.unread p.2.2.2.2.1) = p.2.2.2.2.1 :=
    hsc0_2.read_unread _
  rw [e0, e1, e2]
  rfl

/-- The count accumulator after a last point. -/
theorem outC_s3 (c : Dev nD) (t : Fin cfg0.N) (h0 : ¬t.val % 32 = 0) (h1 : t.val % 32 = 31) (p : Outs F)
    (a : Fin 8) (b : Fin 128) :
    (outC m c t h0 h1 p).2.2.2.2.2 (ix2 a b)
      = if a.val = 0 ∧ b.val = 0 then k0_pay2 (k0_pay10 (iblk m c 2 t)) (old11 p.2.2.2.2.2) (ix2 0 0)
        else p.2.2.2.2.2 (ix2 a b) := by
  unfold outC
  dsimp only
  unfold runC kernelRun0_C
  dsimp only
  sl_unfold_words
  refine (read_entry_one scM0_3 hsc0_3 _ _ a b).trans ?_
  simp only [View.readAt_eq_ld, Memref.IsWhole.read_unread, View.ld_unit_zero (S := S2048x256) hz2,
    View.ld_unit_zero (S := S256x512) hz2, View.ld_unit_zero (S := S2048x512) hz2, View.ld_unit_zero (S := S2048x1) hz2]
  have e3 : View.read (Elt F) (View.whole cc0_scratch3 : View sig .tc .vmem S8x128 .f32) (hsc0_3.unread p.2.2.2.2.2) = p.2.2.2.2.2 :=
    hsc0_3.read_unread _
  rw [e3]
  rfl

/-- The first output block is the loss accumulator's new contents. -/
theorem outC_o4 (c : Dev nD) (t : Fin cfg0.N) (h0 : ¬t.val % 32 = 0) (h1 : t.val % 32 = 31) (p : Outs F) :
    (outC m c t h0 h1 p).1 = (outC m c t h0 h1 p).2.2.2.2.1 := by
  unfold outC
  dsimp only
  unfold runC kernelRun0_C
  dsimp only
  sl_unfold_words
  funext y
  refine (View.read_writes_cons_unit_of_mem VO0_4 _ inb_S8x128_S8x128_0_0 _ [] y y rfl
    (fun ax => by match ax with | ⟨0, _⟩ => exact (Nat.zero_add _).symm | ⟨1, _⟩ => exact (Nat.zero_add _).symm)).trans ?_
  rw [View.readAt_eq_ld, View.ld_unit_zero (S := S8x128) hz2]

/-- The second output block is the count accumulator's new contents. -/
theorem outC_o5 (c : Dev nD) (t : Fin cfg0.N) (h0 : ¬t.val % 32 = 0) (h1 : t.val % 32 = 31) (p : Outs F) :
    (outC m c t h0 h1 p).2.1 = (outC m c t h0 h1 p).2.2.2.2.2 := by
  unfold outC
  dsimp only
  unfold runC kernelRun0_C
  dsimp only
  sl_unfold_words
  funext y
  refine (View.read_writes_cons_unit_of_mem VO0_5 _ inb_S8x128_S8x128_0_0 _ [] y y rfl
    (fun ax => by match ax with | ⟨0, _⟩ => exact (Nat.zero_add _).symm | ⟨1, _⟩ => exact (Nat.zero_add _).symm)).trans ?_
  rw [View.readAt_eq_ld, View.ld_unit_zero (S := S8x128) hz2]

/-- The row tile and its norms are left as they were. -/
theorem outC_s0 (c : Dev nD) (t : Fin cfg0.N) (h0 : ¬t.val % 32 = 0) (h1 : t.val % 32 = 31) (p : Outs F) :
    (outC m c t h0 h1 p).2.2.1 = p.2.2.1 := rfl
theorem outC_s1 (c : Dev nD) (t : Fin cfg0.N) (h0 : ¬t.val % 32 = 0) (h1 : t.val % 32 = 31) (p : Outs F) :
    (outC m c t h0 h1 p).2.2.2.1 = p.2.2.2.1 := rfl

end Cert.KernelIdeal.Hand

end
-- ==== Proof.IValuePiecesBlocks.lean ====
/-
  The four input blocks at a grid point, read off the argument arrays.

  Point t of the 4 x 32 grid is row block t / 32 and column block t % 32. The row tile is rows 2048 (t / 32) .. of the
  embeddings, the column tile rows 256 (t % 32) .. of the same array, the label and weight tiles the 2048 x 256 block at
  (t / 32, t % 32): an element of a block sits, on each axis, at block index times block size plus its own coordinate.
-/
import proofs.«157662_j79869211837075_2_alg».proof.Proof.IFrameData
import proofs.«157662_j79869211837075_2_alg».proof.Proof.KernPointSpec
import Idealize.ShloMosaic.Lib.WritesUnit
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Contrast.Kern (rowOf colOf)

/-- The row block of point t. -/
abbrev rowBlk (t : Fin cfg0.N) : Fin 4 := ⟨t.val / 32, by have := t.isLt; have hN : cfg0.N = 128 := N_0; omega⟩
/-- The column block of point t. -/
abbrev colBlk (t : Fin cfg0.N) : Fin 32 := ⟨t.val % 32, Nat.mod_lt _ (by decide)⟩

/-- The block indices of the four input windows at every point. -/
theorem idx_facts : ∀ t : Fin cfg0.N,
    (win0_0.index t (0 : Fin 2) = t.val / 32 ∧ win0_0.index t (1 : Fin 2) = 0)
    ∧ (win0_1.index t (0 : Fin 2) = t.val % 32 ∧ win0_1.index t (1 : Fin 2) = 0)
    ∧ (win0_2.index t (0 : Fin 2) = t.val / 32 ∧ win0_2.index t (1 : Fin 2) = t.val % 32)
    ∧ (win0_3.index t (0 : Fin 2) = t.val / 32 ∧ win0_3.index t (1 : Fin 2) = t.val % 32) :=
  (by decide +kernel : ∀ t : Fin grid0.N,
    (win0_0.index t (0 : Fin 2) = t.val / 32 ∧ win0_0.index t (1 : Fin 2) = 0)
    ∧ (win0_1.index t (0 : Fin 2) = t.val % 32 ∧ win0_1.index t (1 : Fin 2) = 0)
    ∧ (win0_2.index t (0 : Fin 2) = t.val / 32 ∧ win0_2.index t (1 : Fin 2) = t.val % 32)
    ∧ (win0_3.index t (0 : Fin 2) = t.val / 32 ∧ win0_3.index t (1 : Fin 2) = t.val % 32))

/-- The row tile: entry (r, k) is the embeddings' entry (2048 (t / 32) + r, k). -/
theorem iblk0_apply (c : Dev nD) (t : Fin cfg0.N) (r : Fin 2048) (k : Fin 512) :
    (iblk m c 0 t : Vec F S2048x512 .f32) (ix2 r k)
      = (m ((c : Thread nD τ).loc main_arg0) : S8192x512.Idx → Elt F .f32) (ix2 (rowOf (rowBlk t) r) k) := by
  unfold iblk
  rw [View.read_apply]
  show V m c main_arg0 _ = m ((c : Thread nD τ).loc main_arg0) _
  unfold V
  refine congrArg _ (funext fun a => Fin.ext ?_)
  match a with
  | ⟨0, _⟩ =>
    show win0_0.index t 0 * 2048 + 1 * r.val = 2048 * (t.val / 32) + r.val
    rw [(idx_facts t).1.1]; omega
  | ⟨1, _⟩ =>
    show win0_0.index t 1 * 512 + 1 * k.val = k.val
    rw [(idx_facts t).1.2]; omega

/-- The column tile: entry (cc, k) is the embeddings' entry (256 (t % 32) + cc, k). -/
theorem iblk1_apply (c : Dev nD) (t : Fin cfg0.N) (cc : Fin 256) (k : Fin 512) :
    (iblk m c 1 t : Vec F S256x512 .f32) (ix2 cc k)
      = (m ((c : Thread nD τ).loc main_arg0) : S8192x512.Idx → Elt F .f32) (ix2 (colOf (colBlk t) cc) k) := by
  unfold iblk
  rw [View.read_apply]
  show V m c main_arg0 _ = m ((c : Thread nD τ).loc main_arg0) _
  unfold V
  refine congrArg _ (funext fun a => Fin.ext ?_)
  match a with
  | ⟨0, _⟩ =>
    show win0_1.index t 0 * 256 + 1 * cc.val = 256 * (t.val % 32) + cc.val
    rw [(idx_facts t).2.1.1]; omega
  | ⟨1, _⟩ =>
    show win0_1.index t 1 * 512 + 1 * k.val = k.val
    rw [(idx_facts t).2.1.2]; omega

/-- The label tile: entry (r, cc) is the labels' entry (2048 (t / 32) + r, 256 (t % 32) + cc). -/
theorem iblk2_apply (c : Dev nD) (t : Fin cfg0.N) (r : Fin 2048) (cc : Fin 256) :
    (iblk m c 2 t : Vec F S2048x256 .i32) (ix2 r cc)
      = (m ((c : Thread nD τ).loc main_arg1) : S8192x8192.Idx → Elt F .i32) (ix2 (rowOf (rowBlk t) r) (colOf (colBlk t) cc)) := by
  unfold iblk
  rw [View.read_apply]
  show V m c main_arg1 _ = m ((c : Thread nD τ).loc main_arg1) _
  unfold V
  refine congrArg _ (funext fun a => Fin.ext ?_)
  match a with
  | ⟨0, _⟩ =>
    show win0_2.index t 0 * 2048 + 1 * r.val = 2048 * (t.val / 32) + r.val
    rw [(idx_facts t).2.2.1.1]; omega
  | ⟨1, _⟩ =>
    show win0_2.index t 1 * 256 + 1 * cc.val = 256 * (t.val % 32) + cc.val
    rw [(idx_facts t).2.2.1.2]; omega

/-- The weight tile: entry (r, cc) is the weights' entry (2048 (t / 32) + r, 256 (t % 32) + cc). -/
theorem iblk3_apply (c : Dev nD) (t : Fin cfg0.N) (r : Fin 2048) (cc : Fin 256) :
    (iblk m c 3 t : Vec F S2048x256 .f32) (ix2 r cc)
      = (m ((c : Thread nD τ).loc main_arg2) : S8192x8192.Idx → Elt F .f32) (ix2 (rowOf (rowBlk t) r) (colOf (colBlk t) cc)) := by
  unfold iblk
  rw [View.read_apply]
  show V m c main_arg2 _ = m ((c : Thread nD τ).loc main_arg2) _
  unfold V
  refine congrArg _ (funext fun a => Fin.ext ?_)
  match a with
  | ⟨0, _⟩ =>
    show win0_3.index t 0 * 2048 + 1 * r.val = 2048 * (t.val / 32) + r.val
    rw [(idx_facts t).2.2.2.1]; omega
  | ⟨1, _⟩ =>
    show win0_3.index t 1 * 256 + 1 * cc.val = 256 * (t.val % 32) + cc.val
    rw [(idx_facts t).2.2.2.2]; omega

end Cert.KernelIdeal.Hand

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.SumTail.lean ====
/-
  The last host operations of the program, read on the extended reals.

  The two [32, 128] arrays are summed over both axes from the word of 0.0, the second sum is raised to at least 1.0, and
  the first sum is divided by it.  When each array holds one number per block of 8 rows, at row 8·i and column 0, and 0
  elsewhere, each total is the sum of those four numbers: a sum over all 32 · 128 entries in which every other entry is 0.
-/
import proofs.«157662_j79869211837075_2_alg».proof.KernelIdeal
import proofs.«157662_j79869211837075_2_alg».proof.Proof.Spec
import proofs.«157662_j79869211837075_2_alg».proof.Proof.LibBlockSum
import Idealize.ShloMosaic.Lib.IdealHost
import Idealize.ShloMosaic.Lib.ValueIdx

noncomputable section

namespace Cert.Contrast.Sums

open scoped BigOperators
open Idealize.ShloMosaic Idealize.ShloMosaic.ValueIdx
open Cert.KernelIdeal Cert.KernelIdeal.Facts₀ Cert.KernelIdeal.Facts

/-- The program's last four host operations as one function of the two output arrays. -/
def tail [Cert.KernelIdeal.Facts] (O1 O2 : FVec Ideal Cert.KernelIdeal.S32x128 .f32) : FVec Ideal Cert.KernelIdeal.S_ .f32 :=
  Host.divf (F := Ideal)
    (Host.reduceAdd (F := Ideal) O1 (constant (F := Ideal) S_ .f32 0x00000000#32) reducesTo_S32x128_S_d0_1 h_S_)
    (maximumf (F := Ideal)
      (Host.reduceAdd (F := Ideal) O2 (constant (F := Ideal) S_ .f32 0x00000000#32) reducesTo_S32x128_S_d0_1 h_S_)
      (constant (F := Ideal) S_ .f32 0x3F800000#32))

/-- A [32, 128] array that holds a i at row 8·i, column 0 (i = 0, …, 3) and 0 elsewhere sums to a 0 + a 1 + a 2 + a 3. -/
theorem sum_sparse {M : Type*} [AddCommMonoid M] (a : Fin 4 → M) :
    ∑ p : Fin 32, ∑ q : Fin 128, (if p.val % 8 = 0 ∧ q.val = 0 then a ⟨p.val / 8, by omega⟩ else 0) = ∑ i : Fin 4, a i := by
  -- the inner sum keeps only column 0
  have inner : ∀ p : Fin 32, ∑ q : Fin 128, (if p.val % 8 = 0 ∧ q.val = 0 then a ⟨p.val / 8, by omega⟩ else 0)
      = if p.val % 8 = 0 then a ⟨p.val / 8, by omega⟩ else 0 := fun p => by
    rw [Finset.sum_eq_single (0 : Fin 128)]
    · simp
    · intro q _ hq
      have : q.val ≠ 0 := fun h => hq (Fin.ext h)
      simp [this]
    · intro h; exact absurd (Finset.mem_univ _) h
  simp only [inner]
  -- the rows as 4 blocks of 8: only the first row of a block is kept
  rw [← Cert.LibBlockSum.sum_blocks 4 8 (fun p : Fin (4 * 8) => if p.val % 8 = 0 then a ⟨p.val / 8, by omega⟩ else 0)]
  refine Finset.sum_congr rfl fun i _ => ?_
  rw [Finset.sum_eq_single (0 : Fin 8)]
  · have h1 : (8 * i.val + (0 : Fin 8).val) % 8 = 0 := by simp
    have h2 : (8 * i.val + (0 : Fin 8).val) / 8 = i.val := by simp
    simp only [h1, if_true]
    exact congrArg a (Fin.ext h2)
  · intro r _ hr
    have : r.val ≠ 0 := fun h => hr (Fin.ext h)
    have h1 : (8 * i.val + r.val) % 8 ≠ 0 := by omega
    simp only [h1, if_false]
  · intro h; exact absurd (Finset.mem_univ _) h

/-- The two totals, the floor and the quotient: on arrays that hold a i, b i at row 8·i, column 0 and 0 elsewhere the
    program's tail is (a 0 + … + a 3) / max (b 0 + … + b 3, 1). -/
theorem tail_eq [Cert.KernelIdeal.Facts] (O1 O2 : FVec Ideal Cert.KernelIdeal.S32x128 .f32) (a b : Fin 4 → EReal)
    (h1 : ∀ (p : Fin 32) (q : Fin 128), O1 (ix2 p q) = if p.val % 8 = 0 ∧ q.val = 0 then a ⟨p.val / 8, by omega⟩ else 0)
    (h2 : ∀ (p : Fin 32) (q : Fin 128), O2 (ix2 p q) = if p.val % 8 = 0 ∧ q.val = 0 then b ⟨p.val / 8, by omega⟩ else 0) :
    tail O1 O2 = fun _ => Ideal.div (∑ i, a i) (max (∑ i, b i) Cert.Contrast.one) := by
  have total : ∀ (O : FVec Ideal Cert.KernelIdeal.S32x128 .f32) (a : Fin 4 → EReal),
      (∀ (p : Fin 32) (q : Fin 128), O (ix2 p q) = if p.val % 8 = 0 ∧ q.val = 0 then a ⟨p.val / 8, by omega⟩ else 0) →
      ∀ j, Host.reduceAdd (F := Ideal) O (constant (F := Ideal) S_ .f32 0x00000000#32) reducesTo_S32x128_S_d0_1 h_S_ j
        = ∑ i, a i := fun O a h j => by
    rw [hostReduceAdd_apply, Ideal.hostReduceAdd_total _ (fun b => b.elim0), constant_apply, Ideal.ofBits_zero_f32,
      zero_add, sum_idx2]
    simp only [h]
    exact sum_sparse a
  funext j
  unfold tail
  rw [hostDivf_apply, maximumf_apply, total O1 a h1, total O2 b h2, constant_apply]
  rfl

end Cert.Contrast.Sums

end
-- ==== Proof.SumBlocks.lean ====
/-
  Finite sums in a commutative monoid, rearranged.

  (1) A double sum over an (a·b) × (a'·b') matrix may be taken tile by tile: the a × a' tiles of b × b' entries, in any
      nesting of the four indices; in particular block row, block column, row in block, column in block.
  (2) A running sum: start from 0, add the terms one after the other; after the term of index n the value is the sum of
      the terms of index 0, …, n.
  Both hold in any additive commutative monoid: only commutativity and associativity of + and 0 + x = x are used.
-/
import proofs.«157662_j79869211837075_2_alg».proof.Proof.LibBlockSum
import Mathlib.Algebra.BigOperators.Intervals
import Mathlib.Data.EReal.Basic

namespace Cert.Contrast.Sums

open scoped BigOperators
open Cert.LibBlockSum (lt_blocks sum_blocks)

/-- The sum over all entries of an (a·b) × (a'·b') matrix is the sum over the a × a' tiles of the sums over each tile's
    b × b' entries. -/
theorem sum_tiles {M : Type*} [AddCommMonoid M] (a b a' b' : ℕ) (f : Fin (a * b) → Fin (a' * b') → M) :
    ∑ i : Fin a, ∑ j : Fin a', ∑ r : Fin b, ∑ c : Fin b',
        f ⟨b * i.val + r.val, lt_blocks i.isLt r.isLt⟩ ⟨b' * j.val + c.val, lt_blocks j.isLt c.isLt⟩
      = ∑ R : Fin (a * b), ∑ C : Fin (a' * b'), f R C :=
  calc ∑ i : Fin a, ∑ j : Fin a', ∑ r : Fin b, ∑ c : Fin b',
        f ⟨b * i.val + r.val, lt_blocks i.isLt r.isLt⟩ ⟨b' * j.val + c.val, lt_blocks j.isLt c.isLt⟩
      = ∑ i : Fin a, ∑ r : Fin b, ∑ j : Fin a', ∑ c : Fin b',
        f ⟨b * i.val + r.val, lt_blocks i.isLt r.isLt⟩ ⟨b' * j.val + c.val, lt_blocks j.isLt c.isLt⟩ :=
        Finset.sum_congr rfl fun _ _ => Finset.sum_comm
    _ = ∑ i : Fin a, ∑ r : Fin b, ∑ C : Fin (a' * b'), f ⟨b * i.val + r.val, lt_blocks i.isLt r.isLt⟩ C :=
        Finset.sum_congr rfl fun i _ => Finset.sum_congr rfl fun r _ =>
          sum_blocks a' b' fun C => f ⟨b * i.val + r.val, lt_blocks i.isLt r.isLt⟩ C
    _ = ∑ R : Fin (a * b), ∑ C : Fin (a' * b'), f R C := sum_blocks a b fun R => ∑ C : Fin (a' * b'), f R C

/-- The 8192 × 8192 matrix as 4 × 32 tiles of 2048 × 256 entries. -/
theorem blocks {M : Type*} [AddCommMonoid M] (f : Fin 8192 → Fin 8192 → M) :
    ∑ i : Fin 4, ∑ j : Fin 32, ∑ r : Fin 2048, ∑ c : Fin 256,
        f ⟨2048 * i.val + r.val, by omega⟩ ⟨256 * j.val + c.val, by omega⟩
      = ∑ R : Fin 8192, ∑ C : Fin 8192, f R C :=
  sum_tiles 4 2048 32 256 f

/-- A running sum from 0: if A 0 = 0 + δ 0 and A (n + 1) = A n + δ (n + 1), then A n = δ 0 + … + δ n. -/
theorem running_sum {M : Type*} [AddCommMonoid M] (δ A : ℕ → M) (h0 : A 0 = 0 + δ 0)
    (hs : ∀ n, A (n + 1) = A n + δ (n + 1)) : ∀ n, A n = ∑ j ∈ Finset.range (n + 1), δ j
  | 0 => by rw [h0, zero_add, Finset.sum_range_one]
  | n + 1 => by rw [hs n, running_sum δ A h0 hs n, ← Finset.sum_range_succ]

/-- The same up to a bound N: the recurrence is only asked below N, and the closed form holds up to N. -/
theorem running_sum_le {M : Type*} [AddCommMonoid M] (N : ℕ) (δ A : ℕ → M) (h0 : A 0 = 0 + δ 0)
    (hs : ∀ n, n < N → A (n + 1) = A n + δ (n + 1)) : ∀ n, n ≤ N → A n = ∑ j ∈ Finset.range (n + 1), δ j
  | 0, _ => by rw [h0, zero_add, Finset.sum_range_one]
  | n + 1, hn => by rw [hs n hn, running_sum_le N δ A h0 hs n (Nat.le_of_succ_le hn), ← Finset.sum_range_succ]

/-- The running sum as a function: acc δ 0 = 0 + δ 0, acc δ (n + 1) = acc δ n + δ (n + 1). -/
def acc {M : Type*} [AddCommMonoid M] (δ : ℕ → M) : ℕ → M
  | 0 => 0 + δ 0
  | n + 1 => acc δ n + δ (n + 1)

theorem acc_zero {M : Type*} [AddCommMonoid M] (δ : ℕ → M) : acc δ 0 = 0 + δ 0 := rfl
theorem acc_succ {M : Type*} [AddCommMonoid M] (δ : ℕ → M) (n : ℕ) : acc δ (n + 1) = acc δ n + δ (n + 1) := rfl

/-- Its closed form. -/
theorem acc_eq_sum {M : Type*} [AddCommMonoid M] (δ : ℕ → M) (n : ℕ) : acc δ n = ∑ j ∈ Finset.range (n + 1), δ j :=
  running_sum δ (acc δ) rfl (fun _ => rfl) n

/-- Over 32 terms indexed by Fin 32 (extended by 0 past the end): after the last term the running sum is their sum. -/
theorem acc_31 {M : Type*} [AddCommMonoid M] (δ : Fin 32 → M) :
    acc (fun n => if h : n < 32 then δ ⟨n, h⟩ else 0) 31 = ∑ j : Fin 32, δ j := by
  rw [acc_eq_sum, Finset.sum_range]
  exact Finset.sum_congr rfl fun j _ => by rw [dif_pos j.isLt]

/-- The same for a sequence of 32 states A j (the state after step j): if A 0 = 0 + δ 0 and each later state is the one
    before plus that step's term, the last state is the sum of all 32 terms. -/
theorem running_sum_fin32 {M : Type*} [AddCommMonoid M] (δ A : Fin 32 → M) (h0 : A 0 = 0 + δ 0)
    (hs : ∀ (n : ℕ) (h : n + 1 < 32), A ⟨n + 1, h⟩ = A ⟨n, Nat.lt_of_succ_lt h⟩ + δ ⟨n + 1, h⟩) :
    A 31 = ∑ j : Fin 32, δ j := by
  have key := running_sum_le 31 (fun n => if h : n < 32 then δ ⟨n, h⟩ else 0) (fun n => if h : n < 32 then A ⟨n, h⟩ else 0)
    (by simpa using h0)
    (fun n hn => by
      have h1 : n + 1 < 32 := by omega
      have h2 : n < 32 := by omega
      simp only [dif_pos h1, dif_pos h2]
      exact hs n h1) 31 (le_refl _)
  simp only [show (31 : ℕ) < 32 by omega, dif_pos] at key
  rw [show (31 : Fin 32) = ⟨31, by omega⟩ from rfl, key, Finset.sum_range]
  exact Finset.sum_congr rfl fun j _ => by rw [dif_pos j.isLt]

end Cert.Contrast.Sums
-- ==== Proof.SumSpec.lean ====
/-
  The tile-by-tile totals are the specification's totals.

  If a i is the sum of the weighted losses over block row i (all 32 column blocks, 2048 × 256 entries each) and b i the
  count of the pairs that count there, then (a 0 + … + a 3) / max (b 0 + … + b 3, 1) is the result: the sums over the
  4 × 32 tiles are the sums over the whole 8192 × 8192 matrix.
-/
import proofs.«157662_j79869211837075_2_alg».proof.Proof.Spec
import proofs.«157662_j79869211837075_2_alg».proof.Proof.SumBlocks

noncomputable section

namespace Cert.Contrast.Sums

open scoped BigOperators
open Idealize.ShloMosaic

/-- The total weighted loss, tile by tile. -/
theorem lossSum_blocks (X : Fin 8192 → Fin 512 → EReal) (L : Fin 8192 → Fin 8192 → BitVec 32)
    (Wt : Fin 8192 → Fin 8192 → EReal) :
    ∑ i : Fin 4, ∑ j : Fin 32, ∑ r : Fin 2048, ∑ c : Fin 256,
        Cert.Contrast.lossE X L Wt ⟨2048 * i.val + r.val, by omega⟩ ⟨256 * j.val + c.val, by omega⟩
      = Cert.Contrast.lossSum X L Wt :=
  blocks (Cert.Contrast.lossE X L Wt)

/-- The number of pairs that count, tile by tile. -/
theorem validSum_blocks (L : Fin 8192 → Fin 8192 → BitVec 32) :
    ∑ i : Fin 4, ∑ j : Fin 32, ∑ r : Fin 2048, ∑ c : Fin 256,
        Cert.Contrast.validE L ⟨2048 * i.val + r.val, by omega⟩ ⟨256 * j.val + c.val, by omega⟩
      = Cert.Contrast.validSum L :=
  blocks (Cert.Contrast.validE L)

/-- The quotient of the tile-by-tile totals is the result. -/
theorem result_of_blocks (X : Fin 8192 → Fin 512 → EReal) (L : Fin 8192 → Fin 8192 → BitVec 32)
    (Wt : Fin 8192 → Fin 8192 → EReal) (a b : Fin 4 → EReal)
    (ha : ∀ i : Fin 4, a i = ∑ j : Fin 32, ∑ r : Fin 2048, ∑ c : Fin 256,
        Cert.Contrast.lossE X L Wt ⟨2048 * i.val + r.val, by omega⟩ ⟨256 * j.val + c.val, by omega⟩)
    (hb : ∀ i : Fin 4, b i = ∑ j : Fin 32, ∑ r : Fin 2048, ∑ c : Fin 256,
        Cert.Contrast.validE L ⟨2048 * i.val + r.val, by omega⟩ ⟨256 * j.val + c.val, by omega⟩) :
    Ideal.div (∑ i, a i) (max (∑ i, b i) Cert.Contrast.one) = Cert.Contrast.result X L Wt := by
  rw [Finset.sum_congr rfl fun i _ => ha i, Finset.sum_congr rfl fun i _ => hb i, lossSum_blocks, validSum_blocks]
  rfl

end Cert.Contrast.Sums

end
-- ==== Proof.SumAll.lean ====
/-
  The host's last operations on the two output arrays give the specification's result.

  When the first array holds, at row 8·i and column 0, the total weighted loss of block row i (its 32 column blocks of
  2048 × 256 entries) and 0 elsewhere, and the second array the counts likewise, the quotient of the two totals, the
  second raised to at least 1, is the result: the tile-by-tile sums are the sums over the whole matrix.
-/
import proofs.«157662_j79869211837075_2_alg».proof.Proof.SumTail
import proofs.«157662_j79869211837075_2_alg».proof.Proof.SumSpec

noncomputable section

namespace Cert.Contrast.Sums

open scoped BigOperators
open Idealize.ShloMosaic Idealize.ShloMosaic.ValueIdx

/-- Total weighted loss of block row i: its 32 column blocks of 2048 × 256 entries. -/
def rowLoss (X : Fin 8192 → Fin 512 → EReal) (L : Fin 8192 → Fin 8192 → BitVec 32) (Wt : Fin 8192 → Fin 8192 → EReal)
    (i : Fin 4) : EReal :=
  ∑ j : Fin 32, ∑ r : Fin 2048, ∑ c : Fin 256,
    Cert.Contrast.lossE X L Wt ⟨2048 * i.val + r.val, by omega⟩ ⟨256 * j.val + c.val, by omega⟩

/-- Number of pairs that count in block row i. -/
def rowValid (L : Fin 8192 → Fin 8192 → BitVec 32) (i : Fin 4) : EReal :=
  ∑ j : Fin 32, ∑ r : Fin 2048, ∑ c : Fin 256,
    Cert.Contrast.validE L ⟨2048 * i.val + r.val, by omega⟩ ⟨256 * j.val + c.val, by omega⟩

/-- On output arrays that hold the block rows' totals at row 8·i, column 0 and 0 elsewhere, the program's tail is the
    result at its one index. -/
theorem tail_eq_result [Cert.KernelIdeal.Facts] (X : Fin 8192 → Fin 512 → EReal) (L : Fin 8192 → Fin 8192 → BitVec 32)
    (Wt : Fin 8192 → Fin 8192 → EReal) (O1 O2 : FVec Ideal Cert.KernelIdeal.S32x128 .f32)
    (h1 : ∀ (p : Fin 32) (q : Fin 128),
      O1 (ix2 p q) = if p.val % 8 = 0 ∧ q.val = 0 then rowLoss X L Wt ⟨p.val / 8, by omega⟩ else 0)
    (h2 : ∀ (p : Fin 32) (q : Fin 128),
      O2 (ix2 p q) = if p.val % 8 = 0 ∧ q.val = 0 then rowValid L ⟨p.val / 8, by omega⟩ else 0) :
    tail O1 O2 = fun _ => Cert.Contrast.result X L Wt :=
  (tail_eq O1 O2 (rowLoss X L Wt) (rowValid L) h1 h2).trans
    (funext fun _ => result_of_blocks X L Wt (rowLoss X L Wt) (rowValid L) (fun _ => rfl) (fun _ => rfl))

end Cert.Contrast.Sums

end
-- ==== Proof.IValueArr.lean ====
/-
  From the output blocks the grid points write back to the two output arrays after the region, on the extended reals.

  Each output array has 32 rows of 128 entries, written back in 4 blocks of 8 rows: block i at the last column block of
  row block i (the point 32·i + 31), and never again.  When the block written there holds a number a i at its entry
  [0, 0] and 0 elsewhere, the array ends holding a i at row 8·i, column 0 (i = 0, …, 3) and 0 elsewhere: the four blocks
  tile the array, so every entry is the one its block's write-back left.
-/
import proofs.«157662_j79869211837075_2_alg».proof.Proof.IFrameData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The last column block of row block i is a point of the grid. -/
theorem last_lt (i : Fin 4) : 32 * i.val + 31 < cfg0.N := by
  have hN : cfg0.N = 128 := N_0
  have := i.isLt
  omega

/-- A [32, 128] array that holds a i at row 8·i, column 0 and 0 elsewhere. -/
def sparse (a : Fin 4 → EReal) : S32x128.Idx → EReal := fun i =>
  if (i 0).val % 8 = 0 ∧ (i 1).val = 0 then a ⟨(i 0).val / 8, by have h : (i 0).val < 32 := (i 0).isLt; omega⟩ else 0

theorem sparse_ix2 (a : Fin 4 → EReal) (p : Fin 32) (q : Fin 128) :
    sparse a (ix2 p q) = if p.val % 8 = 0 ∧ q.val = 0 then a ⟨p.val / 8, by omega⟩ else 0 := rfl

/-- The contents after a point do not depend on how the point's position is written. -/
theorem outsAt_congr (c : Dev nD) (n n' : ℕ) (h : n < cfg0.N) (h' : n' < cfg0.N) (e : n = n') :
    outsAt m c n h = outsAt m c n' h' := by subst e; rfl

/-! ## Output window 4 -/

/-- Window 4's block index at point t is (row block of t, 0). -/
theorem idx_rows4 : ∀ t : Fin cfg0.N, win0_4.index t (0 : Fin 2) = t.val / 32 ∧ win0_4.index t (1 : Fin 2) = 0 :=
  (by decide +kernel : ∀ t : Fin grid0.N, _)

/-- What a write-back of window 4 writes is the block of the sparse array at the point's rows. -/
theorem flushed4_eq (c : Dev nD) (a : Fin 4 → EReal)
    (hfl : ∀ (i : Fin 4) (r : Fin 8) (q : Fin 128),
      (outsAt m c (32 * i.val + 31) (last_lt i)).1 (ix2 r q) = if r.val = 0 ∧ q.val = 0 then a i else 0)
    (t : Fin cfg0.N) (hf : (cfg0.win 4).flush t = true) :
    (dats m 0 c).flushed 4 t = ((cfg0.win 4).blk t).view.read (Elt Ideal) (sparse a) := by
  have hN : cfg0.N = 128 := N_0
  have h31 : t.val % 32 = 31 := (flush0_4 t).mp hf
  have ht : t.val < 128 := hN ▸ t.isLt
  show (cfg0.win 4).cut (grid0.coords t) ((dats m 0 c).after 4 t) = _
  rw [after0_4]
  obtain ⟨e0, e1⟩ := idx_rows4 t
  funext j
  have hj0 : (j 0).val < 8 := (j 0).isLt
  have hj1 : (j 1).val < 128 := (j 1).isLt
  show (outsAt m c t.val t.isLt).1 j = sparse a (((cfg0.win 4).blk t).view.emb j)
  have hi : t.val / 32 < 4 := by omega
  rw [outsAt_congr m c t.val (32 * (⟨t.val / 32, hi⟩ : Fin 4).val + 31) t.isLt (last_lt _) (by dsimp only; omega)]
  obtain ⟨r, q, rfl⟩ : ∃ r q, j = ix2 r q := ⟨_, _, eq_ix2 j⟩
  rw [hfl]
  have k0 : ((((cfg0.win 4).blk t).view.emb (ix2 r q)) 0).val = t.val / 32 * 8 + 1 * r.val := by
    show win0_4.index t (0 : Fin 2) * 8 + 1 * r.val = _; rw [e0]
  have k1 : ((((cfg0.win 4).blk t).view.emb (ix2 r q)) 1).val = 0 * 128 + 1 * q.val := by
    show win0_4.index t (1 : Fin 2) * 128 + 1 * q.val = _; rw [e1]
  have hr : r.val < 8 := r.isLt
  unfold sparse
  by_cases hc : r.val = 0 ∧ q.val = 0
  · rw [if_pos hc, if_pos ⟨by rw [k0]; omega, by rw [k1]; omega⟩]
    exact congrArg a (Fin.ext (by show t.val / 32 = _ / 8; rw [k0]; omega))
  · rw [if_neg hc, if_neg (fun h => hc ⟨by have := h.1; rw [k0] at this; omega, by have := h.2; rw [k1] at this; omega⟩)]

/-- An entry of the array is in point t's block iff each coordinate is in the block's range on its axis. -/
theorem mem_blk4 (t : Fin cfg0.N) (i : S32x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_0).slice (win0_4.rect t)).set ↔ _
  rw [View.set_slice_whole, Rect.mem_set_unit]
  exact Iff.rfl

/-- Every entry is in a block that is written back: row p is in the block of the last column block of row block p / 8. -/
theorem cover4 (i : S32x128.Idx) : ∃ t : Fin cfg0.N, (cfg0.win 4).flush t = true ∧ i ∈ ((cfg0.win 4).blk t).view.set := by
  have hN : cfg0.N = 128 := N_0
  have hi0 : (i 0).val < 32 := (i 0).isLt
  have hi1 : (i 1).val < 128 := (i 1).isLt
  obtain ⟨t, tv⟩ : ∃ t : Fin cfg0.N, t.val = 32 * ((i 0).val / 8) + 31 := ⟨⟨32 * ((i 0).val / 8) + 31, by omega⟩, rfl⟩
  obtain ⟨e0, e1⟩ := idx_rows4 t
  refine ⟨t, (flush0_4 t).mpr (by rw [tv]; omega), ?_⟩
  rw [mem_blk4]
  intro a
  match a with
  | ⟨0, _⟩ => show win0_4.index t (0 : Fin 2) * 8 ≤ (i 0).val ∧ (i 0).val < win0_4.index t (0 : Fin 2) * 8 + 8; rw [e0, tv]; omega
  | ⟨1, _⟩ => show win0_4.index t (1 : Fin 2) * 128 ≤ (i 1).val ∧ (i 1).val < win0_4.index t (1 : Fin 2) * 128 + 128; rw [e1]; omega

/-- The first output array after the region. -/
theorem final4 (c : Dev nD) (a : Fin 4 → EReal)
    (hfl : ∀ (i : Fin 4) (r : Fin 8) (q : Fin 128),
      (outsAt m c (32 * i.val + 31) (last_lt i)).1 (ix2 r q) = if r.val = 0 ∧ q.val = 0 then a i else 0) :
    (dats m 0 c).arrAt 4 cfg0.N = sparse a :=
  (dats m 0 c).arrAt_eq_of_cover 4 (sparse a) (flushed4_eq m c a hfl) cover4

/-- … entry by entry. -/
theorem final4_apply (c : Dev nD) (a : Fin 4 → EReal)
    (hfl : ∀ (i : Fin 4) (r : Fin 8) (q : Fin 128),
      (outsAt m c (32 * i.val + 31) (last_lt i)).1 (ix2 r q) = if r.val = 0 ∧ q.val = 0 then a i else 0)
    (p : Fin 32) (q : Fin 128) :
    (dats m 0 c).arrAt 4 cfg0.N (ix2 p q) = if p.val % 8 = 0 ∧ q.val = 0 then a ⟨p.val / 8, by omega⟩ else 0 :=
  (congrFun (final4 m c a hfl) (ix2 p q)).trans (sparse_ix2 a p q)

/-! ## Output window 5 -/

/-- Window 5's block index at point t is (row block of t, 0). -/
theorem idx_rows5 : ∀ t : Fin cfg0.N, win0_5.index t (0 : Fin 2) = t.val / 32 ∧ win0_5.index t (1 : Fin 2) = 0 :=
  (by decide +kernel : ∀ t : Fin grid0.N, _)

/-- What a write-back of window 5 writes is the block of the sparse array at the point's rows. -/
theorem flushed5_eq (c : Dev nD) (a : Fin 4 → EReal)
    (hfl : ∀ (i : Fin 4) (r : Fin 8) (q : Fin 128),
      (outsAt m c (32 * i.val + 31) (last_lt i)).2.1 (ix2 r q) = if r.val = 0 ∧ q.val = 0 then a i else 0)
    (t : Fin cfg0.N) (hf : (cfg0.win 5).flush t = true) :
    (dats m 0 c).flushed 5 t = ((cfg0.win 5).blk t).view.read (Elt Ideal) (sparse a) := by
  have hN : cfg0.N = 128 := N_0
  have h31 : t.val % 32 = 31 := (flush0_5 t).mp hf
  have ht : t.val < 128 := hN ▸ t.isLt
  show (cfg0.win 5).cut (grid0.coords t) ((dats m 0 c).after 5 t) = _
  rw [after0_5]
  obtain ⟨e0, e1⟩ := idx_rows5 t
  funext j
  have hj0 : (j 0).val < 8 := (j 0).isLt
  have hj1 : (j 1).val < 128 := (j 1).isLt
  show (outsAt m c t.val t.isLt).2.1 j = sparse a (((cfg0.win 5).blk t).view.emb j)
  have hi : t.val / 32 < 4 := by omega
  rw [outsAt_congr m c t.val (32 * (⟨t.val / 32, hi⟩ : Fin 4).val + 31) t.isLt (last_lt _) (by dsimp only; omega)]
  obtain ⟨r, q, rfl⟩ : ∃ r q, j = ix2 r q := ⟨_, _, eq_ix2 j⟩
  rw [hfl]
  have k0 : ((((cfg0.win 5).blk t).view.emb (ix2 r q)) 0).val = t.val / 32 * 8 + 1 * r.val := by
    show win0_5.index t (0 : Fin 2) * 8 + 1 * r.val = _; rw [e0]
  have k1 : ((((cfg0.win 5).blk t).view.emb (ix2 r q)) 1).val = 0 * 128 + 1 * q.val := by
    show win0_5.index t (1 : Fin 2) * 128 + 1 * q.val = _; rw [e1]
  have hr : r.val < 8 := r.isLt
  unfold sparse
  by_cases hc : r.val = 0 ∧ q.val = 0
  · rw [if_pos hc, if_pos ⟨by rw [k0]; omega, by rw [k1]; omega⟩]
    exact congrArg a (Fin.ext (by show t.val / 32 = _ / 8; rw [k0]; omega))
  · rw [if_neg hc, if_neg (fun h => hc ⟨by have := h.1; rw [k0] at this; omega, by have := h.2; rw [k1] at this; omega⟩)]

/-- An entry of the array is in point t's block iff each coordinate is in the block's range on its axis. -/
theorem mem_blk5 (t : Fin cfg0.N) (i : S32x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v0_1).slice (win0_5.rect t)).set ↔ _
  rw [View.set_slice_whole, Rect.mem_set_unit]
  exact Iff.rfl

/-- Every entry is in a block that is written back: row p is in the block of the last column block of row block p / 8. -/
theorem cover5 (i : S32x128.Idx) : ∃ t : Fin cfg0.N, (cfg0.win 5).flush t = true ∧ i ∈ ((cfg0.win 5).blk t).view.set := by
  have hN : cfg0.N = 128 := N_0
  have hi0 : (i 0).val < 32 := (i 0).isLt
  have hi1 : (i 1).val < 128 := (i 1).isLt
  obtain ⟨t, tv⟩ : ∃ t : Fin cfg0.N, t.val = 32 * ((i 0).val / 8) + 31 := ⟨⟨32 * ((i 0).val / 8) + 31, by omega⟩, rfl⟩
  obtain ⟨e0, e1⟩ := idx_rows5 t
  refine ⟨t, (flush0_5 t).mpr (by rw [tv]; omega), ?_⟩
  rw [mem_blk5]
  intro a
  match a with
  | ⟨0, _⟩ => show win0_5.index t (0 : Fin 2) * 8 ≤ (i 0).val ∧ (i 0).val < win0_5.index t (0 : Fin 2) * 8 + 8; rw [e0, tv]; omega
  | ⟨1, _⟩ => show win0_5.index t (1 : Fin 2) * 128 ≤ (i 1).val ∧ (i 1).val < win0_5.index t (1 : Fin 2) * 128 + 128; rw [e1]; omega

/-- The second output array after the region. -/
theorem final5 (c : Dev nD) (a : Fin 4 → EReal)
    (hfl : ∀ (i : Fin 4) (r : Fin 8) (q : Fin 128),
      (outsAt m c (32 * i.val + 31) (last_lt i)).2.1 (ix2 r q) = if r.val = 0 ∧ q.val = 0 then a i else 0) :
    (dats m 0 c).arrAt 5 cfg0.N = sparse a :=
  (dats m 0 c).arrAt_eq_of_cover 5 (sparse a) (flushed5_eq m c a hfl) cover5

/-- … entry by entry. -/
theorem final5_apply (c : Dev nD) (a : Fin 4 → EReal)
    (hfl : ∀ (i : Fin 4) (r : Fin 8) (q : Fin 128),
      (outsAt m c (32 * i.val + 31) (last_lt i)).2.1 (ix2 r q) = if r.val = 0 ∧ q.val = 0 then a i else 0)
    (p : Fin 32) (q : Fin 128) :
    (dats m 0 c).arrAt 5 cfg0.N (ix2 p q) = if p.val % 8 = 0 ∧ q.val = 0 then a ⟨p.val / 8, by omega⟩ else 0 :=
  (congrFun (final5 m c a hfl) (ix2 p q)).trans (sparse_ix2 a p q)

end Cert.KernelIdeal.Hand

end
-- ==== Proof.IValueInv.lean ====
/-
  The scratch buffers point by point, on the extended reals, and what the last column block of each row block writes out.

  Along row block i the row tile holds rows 2048·i, … of the embeddings and the norms column their squared norms, from
  the first column block on; after column block j the loss accumulator holds, at entry [0, 0], the sum over the column
  blocks 0, …, j of the weighted losses of the tile (i, j'), and 0 elsewhere, and the count accumulator the counts
  likewise: the first column block stores 0 and adds its tile's sum, every later one adds its own.  By induction on the
  point.  At the last column block the two accumulators are copied out, so the two output blocks hold the row block's
  totals at entry [0, 0] and 0 elsewhere.
-/
import proofs.«157662_j79869211837075_2_alg».proof.Proof.IValuePiecesA
import proofs.«157662_j79869211837075_2_alg».proof.Proof.IValuePiecesB
import proofs.«157662_j79869211837075_2_alg».proof.Proof.IValuePiecesC
import proofs.«157662_j79869211837075_2_alg».proof.Proof.IValuePiecesBlocks
import proofs.«157662_j79869211837075_2_alg».proof.Proof.KernPointSpec
import proofs.«157662_j79869211837075_2_alg».proof.Proof.SpecIdx
import proofs.«157662_j79869211837075_2_alg».proof.Proof.SumAll
import proofs.«157662_j79869211837075_2_alg».proof.Proof.IValueArr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.Contrast.Kern (rowOf colOf)
open Cert.Contrast.Kern

variable (m : (ℓ : Loc nD τ sig) → Buf (Elt Ideal) ℓ)

/-- The embeddings, labels and weights as functions of (row, column). -/
abbrev Xm (c : Dev nD) : Fin 8192 → Fin 512 → EReal := Cert.Contrast.Xof (m ((c : Thread nD τ).loc main_arg0))
abbrev Lm (c : Dev nD) : Fin 8192 → Fin 8192 → BitVec 32 := Cert.Contrast.Lof (m ((c : Thread nD τ).loc main_arg1))
abbrev Wm (c : Dev nD) : Fin 8192 → Fin 8192 → EReal := Cert.Contrast.Wof (m ((c : Thread nD τ).loc main_arg2))

/-- The weighted losses of tile (i, j) summed (0 past the last column block). -/
def tileLoss (c : Dev nD) (i : Fin 4) (j : ℕ) : EReal :=
  if h : j < 32 then ∑ r : Fin 2048, ∑ cc : Fin 256,
    Cert.Contrast.lossE (Xm m c) (Lm m c) (Wm m c) (rowOf i r) (colOf ⟨j, h⟩ cc) else 0
/-- The number of pairs that count in tile (i, j). -/
def tileValid (c : Dev nD) (i : Fin 4) (j : ℕ) : EReal :=
  if h : j < 32 then ∑ r : Fin 2048, ∑ cc : Fin 256, Cert.Contrast.validE (Lm m c) (rowOf i r) (colOf ⟨j, h⟩ cc) else 0

theorem tileLoss_at (c : Dev nD) (t : Fin cfg0.N) (j : ℕ) (hj : t.val % 32 = j) :
    ∑ r : Fin 2048, ∑ cc : Fin 256, Cert.Contrast.lossE (Xm m c) (Lm m c) (Wm m c) (rowOf (rowBlk t) r) (colOf (colBlk t) cc)
      = tileLoss m c (rowBlk t) j := by
  subst hj
  unfold tileLoss
  rw [dif_pos (Nat.mod_lt _ (by decide))]

theorem tileValid_at (c : Dev nD) (t : Fin cfg0.N) (j : ℕ) (hj : t.val % 32 = j) :
    ∑ r : Fin 2048, ∑ cc : Fin 256, Cert.Contrast.validE (Lm m c) (rowOf (rowBlk t) r) (colOf (colBlk t) cc)
      = tileValid m c (rowBlk t) j := by
  subst hj
  unfold tileValid
  rw [dif_pos (Nat.mod_lt _ (by decide))]

/-- The scratch contents after column block j of row block i. -/
def Good (c : Dev nD) (i : Fin 4) (j : ℕ) (p : Outs Ideal) : Prop :=
  (∀ (r : Fin 2048) (k : Fin 512), p.2.2.1 (ix2 r k) = Xm m c (rowOf i r) k)
  ∧ (∀ r : Fin 2048, p.2.2.2.1 (ix2 r 0) = Cert.Contrast.sqn (Xm m c) (rowOf i r))
  ∧ (∀ (a : Fin 8) (b : Fin 128), p.2.2.2.2.1 (ix2 a b)
      = if a.val = 0 ∧ b.val = 0 then ∑ j' ∈ Finset.range (j + 1), tileLoss m c i j' else 0)
  ∧ (∀ (a : Fin 8) (b : Fin 128), p.2.2.2.2.2 (ix2 a b)
      = if a.val = 0 ∧ b.val = 0 then ∑ j' ∈ Finset.range (j + 1), tileValid m c i j' else 0)

theorem Good_congr (c : Dev nD) (i i' : Fin 4) (j j' : ℕ) (p : Outs Ideal) (hi : i = i') (hj : j = j')
    (h : Good m c i j p) : Good m c i' j' p := by subst hi; subst hj; exact h

/-! ## The blocks of a point in the specification's terms -/

theorem hx0 (c : Dev nD) (t : Fin cfg0.N) (r : Fin 2048) (k : Fin 512) :
    (iblk m c 0 t : Vec Ideal S2048x512 .f32) (ix2 r k) = Xm m c (rowOf (rowBlk t) r) k := iblk0_apply m c t r k
theorem hx1 (c : Dev nD) (t : Fin cfg0.N) (cc : Fin 256) (k : Fin 512) :
    (iblk m c 1 t : Vec Ideal S256x512 .f32) (ix2 cc k) = Xm m c (colOf (colBlk t) cc) k := iblk1_apply m c t cc k
theorem hlab (c : Dev nD) (t : Fin cfg0.N) (r : Fin 2048) (cc : Fin 256) :
    (iblk m c 2 t : Vec Ideal S2048x256 .i32) (ix2 r cc) = Lm m c (rowOf (rowBlk t) r) (colOf (colBlk t) cc) :=
  iblk2_apply m c t r cc
theorem hwt (c : Dev nD) (t : Fin cfg0.N) (r : Fin 2048) (cc : Fin 256) :
    (iblk m c 3 t : Vec Ideal S2048x256 .f32) (ix2 r cc) = Wm m c (rowOf (rowBlk t) r) (colOf (colBlk t) cc) :=
  iblk3_apply m c t r cc

/-! ## The three cases -/

/-- A first column block. -/
theorem goodA (c : Dev nD) (t : Fin cfg0.N) (h0 : t.val % 32 = 0) (h1 : ¬t.val % 32 = 31) :
    Good m c (rowBlk t) 0 (outA m c t h0 h1) := by
  have hs0 : ∀ (r : Fin 2048) (k : Fin 512),
      k0_pay4 (F := Ideal) (iblk m c 0 t) (ix2 r k) = Xm m c (rowOf (rowBlk t) r) k :=
    fun r k => (pay4_apply (iblk m c 0 t) r k).trans (hx0 m c t r k)
  have hs1 : ∀ r : Fin 2048,
      k0_pay3 (F := Ideal) (iblk m c 0 t) (ix2 r 0) = Cert.Contrast.sqn (Xm m c) (rowOf (rowBlk t) r) :=
    fun r => pay3_spec (Xm m c) (rowBlk t) (iblk m c 0 t) (hx0 m c t) r
  refine ⟨?_, ?_, ?_, ?_⟩
  · intro r k
    rw [outA_s0 m c t h0 h1]
    exact hs0 r k
  · intro r
    rw [outA_s1 m c t h0 h1]
    exact hs1 r
  · intro a b
    rw [outA_s2 m c t h0 h1 a b]
    by_cases hab : a.val = 0 ∧ b.val = 0
    · rw [if_pos hab, if_pos hab]
      refine (pay1_spec (Xm m c) (Lm m c) (Wm m c) (rowBlk t) (colBlk t) (k0_pay4 (iblk m c 0 t)) (k0_pay3 (iblk m c 0 t))
        (iblk m c 1 t) (iblk m c 2 t) (iblk m c 3 t) (old11 (k0_pay5 (F := Ideal))) hs0 hs1 (hx1 m c t) (hlab m c t) (hwt m c t)).trans ?_
      rw [old11_apply, pay5_apply, zero_add, Finset.sum_range_one]
      exact tileLoss_at m c t 0 h0
    · rw [if_neg hab, if_neg hab]
      exact pay5_apply _
  · intro a b
    rw [outA_s3 m c t h0 h1 a b]
    by_cases hab : a.val = 0 ∧ b.val = 0
    · rw [if_pos hab, if_pos hab]
      refine (pay2_spec (Lm m c) (rowBlk t) (colBlk t) (iblk m c 2 t) (old11 (k0_pay6 (F := Ideal))) (hlab m c t)).trans ?_
      rw [old11_apply, pay6_apply, zero_add, Finset.sum_range_one]
      exact tileValid_at m c t 0 h0
    · rw [if_neg hab, if_neg hab]
      exact pay6_apply _

/-- A middle column block. -/
theorem goodB (c : Dev nD) (t : Fin cfg0.N) (h0 : ¬t.val % 32 = 0) (h1 : ¬t.val % 32 = 31) (p : Outs Ideal) (j : ℕ)
    (hj : t.val % 32 = j + 1) (hp : Good m c (rowBlk t) j p) : Good m c (rowBlk t) (j + 1) (outB m c t h0 h1 p) := by
  obtain ⟨p0, p1, p2, p3⟩ := hp
  refine ⟨?_, ?_, ?_, ?_⟩
  · intro r k
    exact p0 r k
  · intro r
    exact p1 r
  · intro a b
    rw [outB_s2 m c t h0 h1 p a b]
    by_cases hab : a.val = 0 ∧ b.val = 0
    · rw [if_pos hab, if_pos hab]
      refine (pay1_spec (Xm m c) (Lm m c) (Wm m c) (rowBlk t) (colBlk t) p.2.2.1 p.2.2.2.1
        (iblk m c 1 t) (iblk m c 2 t) (iblk m c 3 t) (old11 p.2.2.2.2.1) p0 p1 (hx1 m c t) (hlab m c t) (hwt m c t)).trans ?_
      rw [old11_apply, p2 0 0, if_pos ⟨rfl, rfl⟩, Finset.sum_range_succ _ (j + 1), tileLoss_at m c t (j + 1) hj]
    · rw [if_neg hab, if_neg hab]
      exact (p2 a b).trans (if_neg hab)
  · intro a b
    rw [outB_s3 m c t h0 h1 p a b]
    by_cases hab : a.val = 0 ∧ b.val = 0
    · rw [if_pos hab, if_pos hab]
      refine (pay2_spec (Lm m c) (rowBlk t) (colBlk t) (iblk m c 2 t) (old11 p.2.2.2.2.2) (hlab m c t)).trans ?_
      rw [old11_apply, p3 0 0, if_pos ⟨rfl, rfl⟩, Finset.sum_range_succ _ (j + 1), tileValid_at m c t (j + 1) hj]
    · rw [if_neg hab, if_neg hab]
      exact (p3 a b).trans (if_neg hab)

/-- A last column block. -/
theorem goodC (c : Dev nD) (t : Fin cfg0.N) (h0 : ¬t.val % 32 = 0) (h1 : t.val % 32 = 31) (p : Outs Ideal) (j : ℕ)
    (hj : t.val % 32 = j + 1) (hp : Good m c (rowBlk t) j p) : Good m c (rowBlk t) (j + 1) (outC m c t h0 h1 p) := by
  obtain ⟨p0, p1, p2, p3⟩ := hp
  refine ⟨?_, ?_, ?_, ?_⟩
  · intro r k
    exact p0 r k
  · intro r
    exact p1 r
  · intro a b
    rw [outC_s2 m c t h0 h1 p a b]
    by_cases hab : a.val = 0 ∧ b.val = 0
    · rw [if_pos hab, if_pos hab]
      refine (pay1_spec (Xm m c) (Lm m c) (Wm m c) (rowBlk t) (colBlk t) p.2.2.1 p.2.2.2.1
        (iblk m c 1 t) (iblk m c 2 t) (iblk m c 3 t) (old11 p.2.2.2.2.1) p0 p1 (hx1 m c t) (hlab m c t) (hwt m c t)).trans ?_
      rw [old11_apply, p2 0 0, if_pos ⟨rfl, rfl⟩, Finset.sum_range_succ _ (j + 1), tileLoss_at m c t (j + 1) hj]
    · rw [if_neg hab, if_neg hab]
      exact (p2 a b).trans (if_neg hab)
  · intro a b
    rw [outC_s3 m c t h0 h1 p a b]
    by_cases hab : a.val = 0 ∧ b.val = 0
    · rw [if_pos hab, if_pos hab]
      refine (pay2_spec (Lm m c) (rowBlk t) (colBlk t) (iblk m c 2 t) (old11 p.2.2.2.2.2) (hlab m c t)).trans ?_
      rw [old11_apply, p3 0 0, if_pos ⟨rfl, rfl⟩, Finset.sum_range_succ _ (j + 1), tileValid_at m c t (j + 1) hj]
    · rw [if_neg hab, if_neg hab]
      exact (p3 a b).trans (if_neg hab)

/-! ## Every point -/

/-- After the point at position n the scratch buffers are as described, for its row block and column block. -/
theorem good_all (c : Dev nD) : ∀ (n : ℕ) (hn : n < cfg0.N), Good m c (rowBlk ⟨n, hn⟩) (n % 32) (outsAt m c n hn)
  | 0, hn => by
    have h1 : ¬(⟨0, hn⟩ : Fin cfg0.N).val % 32 = 31 := by show ¬0 % 32 = 31; decide
    rw [outsAt_A m c ⟨0, hn⟩ (Nat.zero_mod _) h1]
    exact goodA m c ⟨0, hn⟩ (Nat.zero_mod _) h1
  | n + 1, hn => by
    have hN : cfg0.N = 128 := N_0
    have ih := good_all c n (Nat.lt_of_succ_lt hn)
    by_cases h0 : (n + 1) % 32 = 0
    · have h1 : ¬(n + 1) % 32 = 31 := by omega
      rw [outsAt_A m c ⟨n + 1, hn⟩ h0 h1]
      exact Good_congr m c _ _ _ _ _ rfl h0.symm (goodA m c ⟨n + 1, hn⟩ h0 h1)
    · have hrow : rowBlk ⟨n, Nat.lt_of_succ_lt hn⟩ = rowBlk ⟨n + 1, hn⟩ := Fin.ext (by show n / 32 = (n + 1) / 32; omega)
      have hcol : (n + 1) % 32 = n % 32 + 1 := by omega
      have ih' : Good m c (rowBlk ⟨n + 1, hn⟩) (n % 32) (outsAt m c (n + 1 - 1) (Nat.lt_of_le_of_lt (Nat.sub_le _ _) hn)) :=
        Good_congr m c _ _ _ _ _ hrow rfl ih
      by_cases h1 : (n + 1) % 32 = 31
      · rw [outsAt_C m c ⟨n + 1, hn⟩ h0 h1]
        exact Good_congr m c _ _ _ _ _ rfl hcol.symm (goodC m c ⟨n + 1, hn⟩ h0 h1 _ (n % 32) hcol ih')
      · rw [outsAt_B m c ⟨n + 1, hn⟩ h0 h1]
        exact Good_congr m c _ _ _ _ _ rfl hcol.symm (goodB m c ⟨n + 1, hn⟩ h0 h1 _ (n % 32) hcol ih')

/-! ## What is written out -/

theorem sum_tileLoss (c : Dev nD) (i : Fin 4) :
    ∑ j' ∈ Finset.range 32, tileLoss m c i j' = Cert.Contrast.Sums.rowLoss (Xm m c) (Lm m c) (Wm m c) i := by
  rw [Finset.sum_range]
  unfold Cert.Contrast.Sums.rowLoss
  exact Finset.sum_congr rfl fun j _ => by unfold tileLoss; rw [dif_pos j.isLt]

theorem sum_tileValid (c : Dev nD) (i : Fin 4) :
    ∑ j' ∈ Finset.range 32, tileValid m c i j' = Cert.Contrast.Sums.rowValid (Lm m c) i := by
  rw [Finset.sum_range]
  unfold Cert.Contrast.Sums.rowValid
  exact Finset.sum_congr rfl fun j _ => by unfold tileValid; rw [dif_pos j.isLt]

/-- The first output block after the last column block of row block i: the row block's total loss at entry [0, 0]. -/
theorem hflush4 (c : Dev nD) (i : Fin 4) (r : Fin 8) (q : Fin 128) :
    (outsAt m c (32 * i.val + 31) (last_lt i)).1 (ix2 r q)
      = if r.val = 0 ∧ q.val = 0 then
          Cert.Contrast.Sums.rowLoss (Cert.Contrast.Xof (m ((c : Thread nD τ).loc main_arg0)))
            (Cert.Contrast.Lof (m ((c : Thread nD τ).loc main_arg1))) (Cert.Contrast.Wof (m ((c : Thread nD τ).loc main_arg2))) i
        else 0 := by
  have hi := i.isLt
  have h0 : ¬(32 * i.val + 31) % 32 = 0 := by omega
  have h1 : (32 * i.val + 31) % 32 = 31 := by omega
  have g := good_all m c (32 * i.val + 31) (last_lt i)
  have hrow : rowBlk ⟨32 * i.val + 31, last_lt i⟩ = i := Fin.ext (by show (32 * i.val + 31) / 32 = i.val; omega)
  have g2 := (Good_congr m c _ _ _ _ _ hrow h1 g).2.2.1 r q
  have e : (outsAt m c (32 * i.val + 31) (last_lt i)).1 = (outsAt m c (32 * i.val + 31) (last_lt i)).2.2.2.2.1 := by
    rw [outsAt_C m c ⟨32 * i.val + 31, last_lt i⟩ h0 h1]
    exact outC_o4 m c ⟨32 * i.val + 31, last_lt i⟩ h0 h1 _
  rw [e, g2, sum_tileLoss]

/-- The second output block after the last column block of row block i: the row block's count at entry [0, 0]. -/
theorem hflush5 (c : Dev nD) (i : Fin 4) (r : Fin 8) (q : Fin 128) :
    (outsAt m c (32 * i.val + 31) (last_lt i)).2.1 (ix2 r q)
      = if r.val = 0 ∧ q.val = 0 then
          Cert.Contrast.Sums.rowValid (Cert.Contrast.Lof (m ((c : Thread nD τ).loc main_arg1))) i
        else 0 := by
  have hi := i.isLt
  have h0 : ¬(32 * i.val + 31) % 32 = 0 := by omega
  have h1 : (32 * i.val + 31) % 32 = 31 := by omega
  have g := good_all m c (32 * i.val + 31) (last_lt i)
  have hrow : rowBlk ⟨32 * i.val + 31, last_lt i⟩ = i := Fin.ext (by show (32 * i.val + 31) / 32 = i.val; omega)
  have g3 := (Good_congr m c _ _ _ _ _ hrow h1 g).2.2.2 r q
  have e : (outsAt m c (32 * i.val + 31) (last_lt i)).2.1 = (outsAt m c (32 * i.val + 31) (last_lt i)).2.2.2.2.2 := by
    rw [outsAt_C m c ⟨32 * i.val + 31, last_lt i⟩ h0 h1]
    exact outC_o5 m c ⟨32 * i.val + 31, last_lt i⟩ h0 h1 _
  rw [e, g3, sum_tileValid]

end Cert.KernelIdeal.Hand

end
-- ==== Proof.IValueTail.lean ====
/-
  The value the host operations after the region leave in the result buffer, on the extended reals: the two output
  arrays are summed, the second total is raised to at least 1.0, and the first is divided by it.  The output arrays are
  named by one window each, so what the host operations read there is what the region left.
-/
import proofs.«157662_j79869211837075_2_alg».proof.Proof.IValueArr
import proofs.«157662_j79869211837075_2_alg».proof.Proof.SumAll
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Idealize.ShloMosaic.StableHlo

variable (m : (ℓ : Loc nD τ sig) → Buf (Elt Ideal) ℓ)

/-- An array that only one window names holds, at the region's exit, what that window's write-backs left. -/
theorem withArrays_own (c : Dev nD) (V : Valuation τ sig (Elt Ideal))
    (A : (w : Fin 6) → Buf (Elt Ideal) ((spec0 w).arr.view.loc (c.tc : Thread nD τ))) (w : Fin 6)
    (hw : ∀ w', Pipeline.arrRef spec0 w' = Pipeline.arrRef spec0 w → w' = w) :
    Pipeline.withArrays spec0 c V A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 6) (e : Proc.devRef .tc (Pipeline.arrRef spec0 w') = Proc.devRef (τ := τ) .tc (Pipeline.arrRef spec0 w)),
      cast (congrArg (fun b' : DevRef τ sig => b'.ty.Contents (Elt Ideal)) e) (A w') = A w from this _ h.choose_spec
  intro w' e
  obtain rfl : w' = w := hw w' (Proc.devRef_injective _ e)
  rfl

theorem own4 : ∀ w', Pipeline.arrRef spec0 w' = Pipeline.arrRef spec0 4 → w' = 4 := by decide
theorem own5 : ∀ w', Pipeline.arrRef spec0 w' = Pipeline.arrRef spec0 5 → w' = 5 := by decide

/-- The result buffer after the host operations: the tail of the two output arrays as the region left them. -/
theorem tail_value (c : Dev nD) :
    Pipeline.afterTail₀ cfgs (dats m) 0 (V0 m) [hostOps1] c main_v4
      = Cert.Contrast.Sums.tail ((dats m 0 c).arrAt 4 cfg0.N) ((dats m 0 c).arrAt 5 cfg0.N) := by
  unfold Pipeline.afterTail₀
  show StableHlo.after hostOps1 _ (Proc.devRef .tc main_v4) = _
  after_results
  have e4 : Pipeline.withArrays (cfgs 0).spec c (V0 m c) (fun w => (dats m 0 c).arrAt w (cfgs 0).N) (Proc.devRef .tc main_v0_0)
      = (dats m 0 c).arrAt 4 cfg0.N :=
    withArrays_own c (V0 m c) (fun w => (dats m 0 c).arrAt w cfg0.N) 4 own4
  have e5 : Pipeline.withArrays (cfgs 0).spec c (V0 m c) (fun w => (dats m 0 c).arrAt w (cfgs 0).N) (Proc.devRef .tc main_v0_1)
      = (dats m 0 c).arrAt 5 cfg0.N :=
    withArrays_own c (V0 m c) (fun w => (dats m 0 c).arrAt w cfg0.N) 5 own5
  exact congrArg₂ Cert.Contrast.Sums.tail e4 e5

/-- The result buffer holds the specification's result, once each block row's last point leaves that row's totals at
    entry [0, 0] of the two output blocks and 0 elsewhere. -/
theorem result_value (c : Dev nD) (X : Fin 8192 → Fin 512 → EReal) (L : Fin 8192 → Fin 8192 → BitVec 32)
    (Wt : Fin 8192 → Fin 8192 → EReal)
    (hflush4 : ∀ (i : Fin 4) (r : Fin 8) (q : Fin 128),
      (outsAt m c (32 * i.val + 31) (last_lt i)).1 (ix2 r q)
        = if r.val = 0 ∧ q.val = 0 then Cert.Contrast.Sums.rowLoss X L Wt i else 0)
    (hflush5 : ∀ (i : Fin 4) (r : Fin 8) (q : Fin 128),
      (outsAt m c (32 * i.val + 31) (last_lt i)).2.1 (ix2 r q)
        = if r.val = 0 ∧ q.val = 0 then Cert.Contrast.Sums.rowValid L i else 0) :
    Pipeline.afterTail₀ cfgs (dats m) 0 (V0 m) [hostOps1] c main_v4 = fun _ => Cert.Contrast.result X L Wt :=
  (tail_value m c).trans
    (Cert.Contrast.Sums.tail_eq_result X L Wt ((dats m 0 c).arrAt 4 cfg0.N) ((dats m 0 c).arrAt 5 cfg0.N)
      (final4_apply m c (Cert.Contrast.Sums.rowLoss X L Wt) hflush4)
      (final5_apply m c (Cert.Contrast.Sums.rowValid L) hflush5))

end Cert.KernelIdeal.Hand

end
-- ==== Proof.IValueResult.lean ====
/-
  The result buffer after the whole program, on the extended reals: the specification's result of the three argument
  arrays.  The last column block of each row block leaves that row block's totals in the output blocks, the write-backs
  tile the two output arrays, and the host operations sum them, raise the count to at least 1 and divide.
-/
import proofs.«157662_j79869211837075_2_alg».proof.Proof.IValueInv
import proofs.«157662_j79869211837075_2_alg».proof.Proof.IValueTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The result buffer holds the result of the embeddings, labels and weights the program was given. -/
theorem kernel_result (c : Dev nD) :
    Pipeline.afterTail₀ cfgs (dats m) 0 (V0 m) [hostOps1] c main_v4
      = fun _ => Cert.Contrast.result (Cert.Contrast.Xof (m ((c : Thread nD τ).loc main_arg0)))
          (Cert.Contrast.Lof (m ((c : Thread nD τ).loc main_arg1))) (Cert.Contrast.Wof (m ((c : Thread nD τ).loc main_arg2))) :=
  result_value m c (Cert.Contrast.Xof (m ((c : Thread nD τ).loc main_arg0)))
    (Cert.Contrast.Lof (m ((c : Thread nD τ).loc main_arg1))) (Cert.Contrast.Wof (m ((c : Thread nD τ).loc main_arg2)))
    (hflush4 m c) (hflush5 m c)

/-- The same through the specification's function of the three arrays. -/
theorem kernel_resultOf (c : Dev nD) :
    Pipeline.afterTail₀ cfgs (dats m) 0 (V0 m) [hostOps1] c main_v4
      = fun _ => Cert.Contrast.resultOf (m ((c : Thread nD τ).loc main_arg0)) (m ((c : Thread nD τ).loc main_arg1))
          (m ((c : Thread nD τ).loc main_arg2)) :=
  kernel_result m c

end Cert.KernelIdeal.Hand

end
-- ==== Proof.IValueFinal.lean ====
/-
  The idealized kernel's run with its result named: the scalar the host operations after the region leave is the one
  formula of the argument arrays, because each output array holds, in entry [0,0] of its i-th block of eight rows, the
  i-th row block's total (every other entry is zero), and the host sums, clamps and divides those.
-/
import proofs.«157662_j79869211837075_2_alg».proof.Proof.IFrame
import proofs.«157662_j79869211837075_2_alg».proof.Proof.IValueResult

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The result buffer is one of the buffers that bypass the region. -/
theorem mem_v4 : main_v4 ∈ Pipeline.restRefs sig spec0 := by decide

/-- Every weakly fair execution of the idealized kernel terminates with the result at the formula and the arguments
    unchanged. -/
theorem run_value : θ_run (defs (F := Ideal)) (onTc (τ := τ) (main (F := Ideal))) ⟨m, fun _ => 0, ρ⟩ (fun r => ∀ c : Dev nD,
      r.2.mem ((c.tc : Thread nD τ).loc main_v4) = (fun _ => Cert.Contrast.resultOf (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 mem_v4).trans (kernel_resultOf m c),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c)))⟩) (run_main m ρ)

end Cert.KernelIdeal.Hand

end
-- ==== Proof.lean ====
/-
  The certificate of the contrastive-loss kernel against its reference.

  Both programs compute, from an 8192 x 512 matrix X, integer pair labels L and weights Wt, the sum over all pairs
  (r, c) of the weighted loss of the pair — d(r,c)^2 for a pair labelled 1, max(1 - d(r,c), 0)^2 for a pair labelled 0,
  with d the clamped square root of |X_r|^2 + |X_c|^2 - 2 <X_r, X_c> — divided by max(number of pairs labelled 0 or 1, 1).
  The kernel walks a 4 x 32 grid of 2048 x 256 tiles, keeps the row tile and its squared norms in scratch from the first
  column block of each row block, adds each tile's two partial sums into entry [0,0] of two accumulators, writes the
  accumulators out at the last column block, and the host sums the two [32,128] arrays (all other entries are zero),
  clamps the count at 1 and divides. The reference forms the whole 8192 x 8192 matrices and sums them. On the extended
  reals the two results are equal by reordering finite sums (addition there is commutative and associative with no
  finiteness hypothesis) and 0 + a = a; no precondition is used by the value claim.

  The frames: the two windows of the region that read X hold the two halves of its share; the body is run in its
  three cases (first, middle, last column block) and the scratch contents are carried through the region's invariant.
  The idealization rewrote nothing, so that conjunct is trivial.
-/
import proofs.«157662_j79869211837075_2_alg».proof.Defs
import proofs.«157662_j79869211837075_2_alg».proof.Proof.Gen.Kernel
import proofs.«157662_j79869211837075_2_alg».proof.Proof.Gen.KernelIdeal
import proofs.«157662_j79869211837075_2_alg».proof.Proof.Gen.ReferenceIdeal
import proofs.«157662_j79869211837075_2_alg».proof.Proof.Gen.Pre_finite_inputs
import proofs.«157662_j79869211837075_2_alg».proof.Proof.KFrame
import proofs.«157662_j79869211837075_2_alg».proof.Proof.IFrame
import proofs.«157662_j79869211837075_2_alg».proof.Proof.RefValue
import proofs.«157662_j79869211837075_2_alg».proof.Proof.IValueFinal
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ
/-- So does the idealized kernel. -/
theorem frame_ki : Cert.frame_KernelIdeal := fun m ρ _ => Cert.KernelIdeal.Hand.frame m ρ

/-- Both idealized programs end at the one formula of the argument arrays. -/
theorem algebraic : Cert.algebraic_KernelIdeal_ReferenceIdeal := by
  intro m ρ m' ρ' _ hagree
  refine ⟨fun c => (fun _ => Cert.Contrast.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.KernelIdeal.Hand.run_value m ρ, ?_⟩
  exact (θ_run Cert.ReferenceIdeal.defs _ _).mono
    (fun _ h c => ⟨by rw [(h c).1, (hagree c).1, (hagree c).2.1, (hagree c).2.2]; rfl, (h c).2⟩)
    (Cert.Contrast.Ref.run_result m' ρ')

theorem claim : Cert.Claim :=
  ⟨Cert.Kernel.Gen.facts, Cert.KernelIdeal.Gen.facts, Cert.ReferenceIdeal.Gen.facts, Cert.Pre_finite_inputs.Gen.facts,
    frame_k, frame_ki, Cert.Contrast.Ref.frame_ri, trivial, algebraic⟩

end Cert.Proof

end
